-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v420)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v420) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S35937x32 : Shape := ⟨2, ![35937, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S35937x32 : S_.BroadcastsInDim S35937x32 (![] : Fin 0 → Fin S35937x32.rank)
  reducesTo_S35937x32_S_d0_1 : S35937x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S1048576x3 .f32) (main_arg1 : FVec F S35937x32 .f32) (main_arg2 : FVec F S32x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S35937x32 .f32 := Host.absf main_arg1
  let main_cst_0 : FVec F S_ .f32 := constant S_ .f32 0x7F800000#32
  let main_v5 : FVec F S35937x32 .f32 := broadcastInDim S35937x32 ![] bcast_S_S35937x32 main_cst_0
  let main_v6 : IVec S35937x32 1 := cmpf .olt main_v4 main_v5
  let main_c_1 : IVec S_ 1 := constantI S_ 1 1#1
  let main_v7 : IVec S_ 1 := (fun x v => Host.reduce IntOp.andi x v reducesTo_S35937x32_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S1048576x3 : Shape := ⟨2, ![1048576, 3]⟩
abbrev S35937x32 : Shape := ⟨2, ![35937, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32x33x33x33 : Shape := ⟨4, ![32, 33, 33, 33]⟩
abbrev S33x33x33x32 : Shape := ⟨4, ![33, 33, 33, 32]⟩
abbrev S_ : Shape := ⟨0, ![]⟩
abbrev S1048576x1 : Shape := ⟨2, ![1048576, 1]⟩
abbrev S1048576 : Shape := ⟨1, ![1048576]⟩
abbrev S1048576x32 : Shape := ⟨2, ![1048576, 32]⟩
abbrev S1x128 : Shape := ⟨2, ![1, 128]⟩
abbrev S1x1 : Shape := ⟨2, ![1, 1]⟩
abbrev S8192x128 : Shape := ⟨2, ![8192, 128]⟩
abbrev S8192x32 : Shape := ⟨2, ![8192, 32]⟩
abbrev S64x128 : Shape := ⟨2, ![64, 128]⟩
abbrev S64x128x128 : Shape := ⟨3, ![64, 128, 128]⟩
abbrev S1x1x128 : Shape := ⟨3, ![1, 1, 128]⟩

abbrev nBuf : Space → Nat
  | .hbm => 701
  | .vmem => 10
  | .smem => 0
  | _ => 0

abbrev hbmTy0_0 (i : Nat) : BufTy := match i % 128 with
  | 0 => ⟨S1048576x3, .f32⟩
  | 1 => ⟨S35937x32, .f32⟩
  | 2 => ⟨S32x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S32x33x33x33, .f32⟩
  | 9 => ⟨S33x33x33x32, .f32⟩
  | 10 => ⟨S_, .f32⟩
  | 11 => ⟨S1048576x3, .f32⟩
  | 12 => ⟨S1048576x3, .f32⟩
  | 13 => ⟨S_, .f32⟩
  | 14 => ⟨S1048576x3, .f32⟩
  | 15 => ⟨S1048576x3, .f32⟩
  | 16 => ⟨S1048576x1, .f32⟩
  | 17 => ⟨S1048576, .f32⟩
  | 18 => ⟨S1048576x1, .f32⟩
  | 19 => ⟨S1048576, .f32⟩
  | 20 => ⟨S1048576x1, .f32⟩
  | 21 => ⟨S1048576, .f32⟩
  | 22 => ⟨S1048576, .f32⟩
  | 23 => ⟨S1048576, .f32⟩
  | 24 => ⟨S1048576, .f32⟩
  | 25 => ⟨S1048576, .f32⟩
  | 26 => ⟨S1048576, .f32⟩
  | 27 => ⟨S1048576, .f32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S_, .f32⟩
  | 47 => ⟨S1048576, .f32⟩
  | 48 => ⟨S1048576, .f32⟩
  | 49 => ⟨S1048576, .f32⟩
  | 50 => ⟨S1048576, .f32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i1⟩
  | 57 => ⟨S1048576, .i1⟩
  | 58 => ⟨S_, .i32⟩
  | 59 => ⟨S1048576, .i32⟩
  | 60 => ⟨S1048576, .i1⟩
  | 61 => ⟨S1048576, .i1⟩
  | 62 => ⟨S_, .i32⟩
  | 63 => ⟨S1048576, .i32⟩
  | 64 => ⟨S1048576, .i1⟩
  | 65 => ⟨S1048576, .i1⟩
  | 66 => ⟨S_, .i32⟩
  | 67 => ⟨S1048576, .i32⟩
  | 68 => ⟨S1048576, .i1⟩
  | 69 => ⟨S1048576, .i1⟩
  | 70 => ⟨S_, .i32⟩
  | 71 => ⟨S1048576, .i32⟩
  | 72 => ⟨S1048576, .i1⟩
  | 73 => ⟨S1048576, .i1⟩
  | 74 => ⟨S_, .i32⟩
  | 75 => ⟨S_, .i32⟩
  | 76 => ⟨S_, .i32⟩
  | 77 => ⟨S1048576, .i32⟩
  | 78 => ⟨S1048576, .i32⟩
  | 79 => ⟨S_, .i32⟩
  | 80 => ⟨S1048576, .i32⟩
  | 81 => ⟨S1048576, .i32⟩
  | 82 => ⟨S_, .i32⟩
  | 83 => ⟨S_, .i32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S_, .i32⟩
  | 91 => ⟨S_, .i32⟩
  | 92 => ⟨S_, .i32⟩
  | 93 => ⟨S1048576, .i32⟩
  | 94 => ⟨S1048576, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x1, .i32⟩
  | 121 => ⟨S1048576x1, .i32⟩
  | 122 => ⟨S1048576x3, .i32⟩
  | 123 => ⟨S1048576x32, .f32⟩
  | 124 => ⟨S1048576, .f32⟩
  | 125 => ⟨S1048576, .f32⟩
  | 126 => ⟨S1048576x1, .f32⟩
  | 127 => ⟨S1048576x32, .f32⟩
  | _ => ⟨S1048576x3, .f32⟩

abbrev hbmTy0_1 (i : Nat) : BufTy := match i % 128 with
  | 0 => ⟨S1048576x32, .f32⟩
  | 1 => ⟨S1048576, .f32⟩
  | 2 => ⟨S1048576, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i1⟩
  | 9 => ⟨S1048576, .i1⟩
  | 10 => ⟨S_, .i32⟩
  | 11 => ⟨S1048576, .i32⟩
  | 12 => ⟨S1048576, .i1⟩
  | 13 => ⟨S1048576, .i1⟩
  | 14 => ⟨S_, .i32⟩
  | 15 => ⟨S1048576, .i32⟩
  | 16 => ⟨S1048576, .i1⟩
  | 17 => ⟨S1048576, .i1⟩
  | 18 => ⟨S_, .i32⟩
  | 19 => ⟨S1048576, .i32⟩
  | 20 => ⟨S1048576, .i1⟩
  | 21 => ⟨S1048576, .i1⟩
  | 22 => ⟨S_, .i32⟩
  | 23 => ⟨S1048576, .i32⟩
  | 24 => ⟨S1048576, .i1⟩
  | 25 => ⟨S1048576, .i1⟩
  | 26 => ⟨S_, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S_, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i32⟩
  | 42 => ⟨S_, .i32⟩
  | 43 => ⟨S_, .i32⟩
  | 44 => ⟨S_, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x1, .i32⟩
  | 74 => ⟨S1048576x3, .i32⟩
  | 75 => ⟨S1048576x32, .f32⟩
  | 76 => ⟨S1048576, .f32⟩
  | 77 => ⟨S1048576, .f32⟩
  | 78 => ⟨S1048576x1, .f32⟩
  | 79 => ⟨S1048576x32, .f32⟩
  | 80 => ⟨S1048576x32, .f32⟩
  | 81 => ⟨S1048576x32, .f32⟩
  | 82 => ⟨S1048576, .f32⟩
  | 83 => ⟨S1048576, .f32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i1⟩
  | 90 => ⟨S1048576, .i1⟩
  | 91 => ⟨S_, .i32⟩
  | 92 => ⟨S1048576, .i32⟩
  | 93 => ⟨S1048576, .i1⟩
  | 94 => ⟨S1048576, .i1⟩
  | 95 => ⟨S_, .i32⟩
  | 96 => ⟨S1048576, .i32⟩
  | 97 => ⟨S1048576, .i1⟩
  | 98 => ⟨S1048576, .i1⟩
  | 99 => ⟨S_, .i32⟩
  | 100 => ⟨S1048576, .i32⟩
  | 101 => ⟨S1048576, .i1⟩
  | 102 => ⟨S1048576, .i1⟩
  | 103 => ⟨S_, .i32⟩
  | 104 => ⟨S1048576, .i32⟩
  | 105 => ⟨S1048576, .i1⟩
  | 106 => ⟨S1048576, .i1⟩
  | 107 => ⟨S_, .i32⟩
  | 108 => ⟨S_, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S_, .i32⟩
  | 116 => ⟨S_, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S_, .i32⟩
  | 124 => ⟨S_, .i32⟩
  | 125 => ⟨S_, .i32⟩
  | 126 => ⟨S1048576, .i32⟩
  | 127 => ⟨S1048576, .i32⟩
  | _ => ⟨S1048576x3, .f32⟩

abbrev hbmTy0_2 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x1, .i32⟩
  | 26 => ⟨S1048576x1, .i32⟩
  | 27 => ⟨S1048576x3, .i32⟩
  | 28 => ⟨S1048576x32, .f32⟩
  | 29 => ⟨S1048576, .f32⟩
  | 30 => ⟨S1048576, .f32⟩
  | 31 => ⟨S1048576x1, .f32⟩
  | 32 => ⟨S1048576x32, .f32⟩
  | 33 => ⟨S1048576x32, .f32⟩
  | 34 => ⟨S1048576x32, .f32⟩
  | 35 => ⟨S1048576, .f32⟩
  | 36 => ⟨S1048576, .f32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i1⟩
  | 43 => ⟨S1048576, .i1⟩
  | 44 => ⟨S_, .i32⟩
  | 45 => ⟨S1048576, .i32⟩
  | 46 => ⟨S1048576, .i1⟩
  | 47 => ⟨S1048576, .i1⟩
  | 48 => ⟨S_, .i32⟩
  | 49 => ⟨S1048576, .i32⟩
  | 50 => ⟨S1048576, .i1⟩
  | 51 => ⟨S1048576, .i1⟩
  | 52 => ⟨S_, .i32⟩
  | 53 => ⟨S1048576, .i32⟩
  | 54 => ⟨S1048576, .i1⟩
  | 55 => ⟨S1048576, .i1⟩
  | 56 => ⟨S_, .i32⟩
  | 57 => ⟨S1048576, .i32⟩
  | 58 => ⟨S1048576, .i1⟩
  | 59 => ⟨S1048576, .i1⟩
  | 60 => ⟨S_, .i32⟩
  | 61 => ⟨S_, .i32⟩
  | 62 => ⟨S_, .i32⟩
  | 63 => ⟨S1048576, .i32⟩
  | 64 => ⟨S1048576, .i32⟩
  | 65 => ⟨S_, .i32⟩
  | 66 => ⟨S1048576, .i32⟩
  | 67 => ⟨S1048576, .i32⟩
  | 68 => ⟨S_, .i32⟩
  | 69 => ⟨S_, .i32⟩
  | 70 => ⟨S_, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S_, .i32⟩
  | 77 => ⟨S_, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S1048576x1, .i32⟩
  | 107 => ⟨S1048576x1, .i32⟩
  | 108 => ⟨S1048576x3, .i32⟩
  | 109 => ⟨S1048576x32, .f32⟩
  | 110 => ⟨S1048576, .f32⟩
  | 111 => ⟨S1048576, .f32⟩
  | 112 => ⟨S1048576x1, .f32⟩
  | 113 => ⟨S1048576x32, .f32⟩
  | 114 => ⟨S1048576x32, .f32⟩
  | 115 => ⟨S1048576x32, .f32⟩
  | 116 => ⟨S1048576, .f32⟩
  | 117 => ⟨S1048576, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i1⟩
  | 124 => ⟨S1048576, .i1⟩
  | 125 => ⟨S_, .i32⟩
  | 126 => ⟨S1048576, .i32⟩
  | 127 => ⟨S1048576, .i1⟩
  | _ => ⟨S1048576x3, .f32⟩

abbrev hbmTy0_3 (i : Nat) : BufTy := match i % 128 with
  | 0 => ⟨S1048576, .i1⟩
  | 1 => ⟨S_, .i32⟩
  | 2 => ⟨S1048576, .i32⟩
  | 3 => ⟨S1048576, .i1⟩
  | 4 => ⟨S1048576, .i1⟩
  | 5 => ⟨S_, .i32⟩
  | 6 => ⟨S1048576, .i32⟩
  | 7 => ⟨S1048576, .i1⟩
  | 8 => ⟨S1048576, .i1⟩
  | 9 => ⟨S_, .i32⟩
  | 10 => ⟨S1048576, .i32⟩
  | 11 => ⟨S1048576, .i1⟩
  | 12 => ⟨S1048576, .i1⟩
  | 13 => ⟨S_, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i32⟩
  | 21 => ⟨S_, .i32⟩
  | 22 => ⟨S_, .i32⟩
  | 23 => ⟨S_, .i32⟩
  | 24 => ⟨S1048576, .i32⟩
  | 25 => ⟨S1048576, .i32⟩
  | 26 => ⟨S_, .i32⟩
  | 27 => ⟨S1048576, .i32⟩
  | 28 => ⟨S1048576, .i32⟩
  | 29 => ⟨S_, .i32⟩
  | 30 => ⟨S_, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i32⟩
  | 57 => ⟨S1048576, .i32⟩
  | 58 => ⟨S1048576x1, .i32⟩
  | 59 => ⟨S1048576x1, .i32⟩
  | 60 => ⟨S1048576x1, .i32⟩
  | 61 => ⟨S1048576x3, .i32⟩
  | 62 => ⟨S1048576x32, .f32⟩
  | 63 => ⟨S1048576, .f32⟩
  | 64 => ⟨S1048576, .f32⟩
  | 65 => ⟨S1048576x1, .f32⟩
  | 66 => ⟨S1048576x32, .f32⟩
  | 67 => ⟨S1048576x32, .f32⟩
  | 68 => ⟨S1048576x32, .f32⟩
  | 69 => ⟨S1048576, .f32⟩
  | 70 => ⟨S1048576, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i1⟩
  | 77 => ⟨S1048576, .i1⟩
  | 78 => ⟨S_, .i32⟩
  | 79 => ⟨S1048576, .i32⟩
  | 80 => ⟨S1048576, .i1⟩
  | 81 => ⟨S1048576, .i1⟩
  | 82 => ⟨S_, .i32⟩
  | 83 => ⟨S1048576, .i32⟩
  | 84 => ⟨S1048576, .i1⟩
  | 85 => ⟨S1048576, .i1⟩
  | 86 => ⟨S_, .i32⟩
  | 87 => ⟨S1048576, .i32⟩
  | 88 => ⟨S1048576, .i1⟩
  | 89 => ⟨S1048576, .i1⟩
  | 90 => ⟨S_, .i32⟩
  | 91 => ⟨S1048576, .i32⟩
  | 92 => ⟨S1048576, .i1⟩
  | 93 => ⟨S1048576, .i1⟩
  | 94 => ⟨S_, .i32⟩
  | 95 => ⟨S_, .i32⟩
  | 96 => ⟨S_, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S_, .i32⟩
  | 103 => ⟨S_, .i32⟩
  | 104 => ⟨S_, .i32⟩
  | 105 => ⟨S1048576, .i32⟩
  | 106 => ⟨S1048576, .i32⟩
  | 107 => ⟨S_, .i32⟩
  | 108 => ⟨S1048576, .i32⟩
  | 109 => ⟨S1048576, .i32⟩
  | 110 => ⟨S_, .i32⟩
  | 111 => ⟨S_, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S_, .i32⟩
  | 126 => ⟨S1048576, .i32⟩
  | 127 => ⟨S1048576, .i1⟩
  | _ => ⟨S1048576x3, .f32⟩

abbrev hbmTy0_4 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i1⟩
  | 7 => ⟨S_, .i32⟩
  | 8 => ⟨S1048576, .i32⟩
  | 9 => ⟨S1048576, .i32⟩
  | 10 => ⟨S1048576, .i32⟩
  | 11 => ⟨S1048576x1, .i32⟩
  | 12 => ⟨S1048576x1, .i32⟩
  | 13 => ⟨S1048576x1, .i32⟩
  | 14 => ⟨S1048576x3, .i32⟩
  | 15 => ⟨S1048576x32, .f32⟩
  | 16 => ⟨S1048576, .f32⟩
  | 17 => ⟨S1048576, .f32⟩
  | 18 => ⟨S1048576x1, .f32⟩
  | 19 => ⟨S1048576x32, .f32⟩
  | 20 => ⟨S1048576x32, .f32⟩
  | 21 => ⟨S1048576x32, .f32⟩
  | 22 => ⟨S1048576, .f32⟩
  | 23 => ⟨S1048576, .f32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i1⟩
  | 30 => ⟨S1048576, .i1⟩
  | 31 => ⟨S_, .i32⟩
  | 32 => ⟨S1048576, .i32⟩
  | 33 => ⟨S1048576, .i1⟩
  | 34 => ⟨S1048576, .i1⟩
  | 35 => ⟨S_, .i32⟩
  | 36 => ⟨S1048576, .i32⟩
  | 37 => ⟨S1048576, .i1⟩
  | 38 => ⟨S1048576, .i1⟩
  | 39 => ⟨S_, .i32⟩
  | 40 => ⟨S1048576, .i32⟩
  | 41 => ⟨S1048576, .i1⟩
  | 42 => ⟨S1048576, .i1⟩
  | 43 => ⟨S_, .i32⟩
  | 44 => ⟨S1048576, .i32⟩
  | 45 => ⟨S1048576, .i1⟩
  | 46 => ⟨S1048576, .i1⟩
  | 47 => ⟨S_, .i32⟩
  | 48 => ⟨S_, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S_, .i32⟩
  | 56 => ⟨S_, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S_, .i32⟩
  | 64 => ⟨S_, .i32⟩
  | 65 => ⟨S_, .i32⟩
  | 66 => ⟨S1048576, .i32⟩
  | 67 => ⟨S1048576, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x1, .i32⟩
  | 95 => ⟨S1048576x3, .i32⟩
  | 96 => ⟨S1048576x32, .f32⟩
  | 97 => ⟨S1048576, .f32⟩
  | 98 => ⟨S1048576, .f32⟩
  | 99 => ⟨S1048576x1, .f32⟩
  | 100 => ⟨S1048576x32, .f32⟩
  | 101 => ⟨S1048576x32, .f32⟩
  | 102 => ⟨S1048576x32, .f32⟩
  | 103 => ⟨S1048576, .f32⟩
  | 104 => ⟨S1048576, .f32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i1⟩
  | 111 => ⟨S1048576, .i1⟩
  | 112 => ⟨S_, .i32⟩
  | 113 => ⟨S1048576, .i32⟩
  | 114 => ⟨S1048576, .i1⟩
  | 115 => ⟨S1048576, .i1⟩
  | 116 => ⟨S_, .i32⟩
  | 117 => ⟨S1048576, .i32⟩
  | 118 => ⟨S1048576, .i1⟩
  | 119 => ⟨S1048576, .i1⟩
  | 120 => ⟨S_, .i32⟩
  | 121 => ⟨S1048576, .i32⟩
  | 122 => ⟨S1048576, .i1⟩
  | 123 => ⟨S1048576, .i1⟩
  | 124 => ⟨S_, .i32⟩
  | 125 => ⟨S1048576, .i32⟩
  | 126 => ⟨S1048576, .i1⟩
  | 127 => ⟨S1048576, .i1⟩
  | _ => ⟨S1048576x3, .f32⟩

abbrev hbmTy0_5 (i : Nat) : BufTy := match i % 128 with
  | 0 => ⟨S_, .i32⟩
  | 1 => ⟨S_, .i32⟩
  | 2 => ⟨S_, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S_, .i32⟩
  | 9 => ⟨S_, .i32⟩
  | 10 => ⟨S_, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S_, .i32⟩
  | 17 => ⟨S_, .i32⟩
  | 18 => ⟨S_, .i32⟩
  | 19 => ⟨S1048576, .i32⟩
  | 20 => ⟨S1048576, .i32⟩
  | 21 => ⟨S_, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x1, .i32⟩
  | 48 => ⟨S1048576x3, .i32⟩
  | 49 => ⟨S1048576x32, .f32⟩
  | 50 => ⟨S1048576, .f32⟩
  | 51 => ⟨S1048576, .f32⟩
  | 52 => ⟨S1048576x1, .f32⟩
  | 53 => ⟨S1048576x32, .f32⟩
  | 54 => ⟨S1048576x32, .f32⟩
  | 55 => ⟨S1048576x32, .f32⟩
  | 56 => ⟨S1048576x32, .bf16⟩
  | 57 => ⟨S1x128, .f32⟩
  | 58 => ⟨S1x1, .f32⟩
  | 59 => ⟨S8192x128, .f32⟩
  | 60 => ⟨S1048576x1, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1048576x3, .f32⟩

abbrev bufTy : (tb : Table) → Fin (tcTables nBuf tb) → BufTy
  | .hbm, ⟨i, _⟩ => hbmTy i
  | .local _ .vmem, ⟨0, _⟩ => ⟨S8192x32, .bf16⟩
  | .local _ .vmem, ⟨1, _⟩ => ⟨S8192x32, .bf16⟩
  | .local _ .vmem, ⟨2, _⟩ => ⟨S32x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S1x128, .f32⟩
  | .local _ .vmem, ⟨7, _⟩ => ⟨S1x1, .f32⟩
  | .local _ .vmem, ⟨8, _⟩ => ⟨S64x128, .f32⟩
  | .local _ .vmem, ⟨9, _⟩ => ⟨S64x128, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_c_13 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v52 : Ref sig .tc := ⟨.hbm, 81, rfl⟩
abbrev main_c_14 : Ref sig .tc := ⟨.hbm, 82, rfl⟩
abbrev main_c_15 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v53 : Ref sig .tc := ⟨.hbm, 89, rfl⟩
abbrev main_c_16 : Ref sig .tc := ⟨.hbm, 90, rfl⟩
abbrev main_c_17 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v54 : Ref sig .tc := ⟨.hbm, 97, rfl⟩
abbrev main_c_18 : Ref sig .tc := ⟨.hbm, 98, rfl⟩
abbrev main_v55 : Ref sig .tc := ⟨.hbm, 99, rfl⟩
abbrev main_v56 : Ref sig .tc := ⟨.hbm, 100, rfl⟩
abbrev main_c_19 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_20 : Ref sig .tc := ⟨.hbm, 105, rfl⟩
abbrev main_v60 : Ref sig .tc := ⟨.hbm, 106, rfl⟩
abbrev main_v61 : Ref sig .tc := ⟨.hbm, 107, rfl⟩
abbrev main_c_21 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_22 : Ref sig .tc := ⟨.hbm, 112, rfl⟩
abbrev main_v65 : Ref sig .tc := ⟨.hbm, 113, rfl⟩
abbrev main_v66 : Ref sig .tc := ⟨.hbm, 114, rfl⟩
abbrev main_c_23 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_24 : Ref sig .tc := ⟨.hbm, 131, rfl⟩
abbrev main_v82 : Ref sig .tc := ⟨.hbm, 132, rfl⟩
abbrev main_v83 : Ref sig .tc := ⟨.hbm, 133, rfl⟩
abbrev main_c_25 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_26 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_27 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_28 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_29 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_30 : Ref sig .tc := ⟨.hbm, 154, rfl⟩
abbrev main_c_31 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_v99 : Ref sig .tc := ⟨.hbm, 161, rfl⟩
abbrev main_c_32 : Ref sig .tc := ⟨.hbm, 162, rfl⟩
abbrev main_c_33 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v100 : Ref sig .tc := ⟨.hbm, 169, rfl⟩
abbrev main_c_34 : Ref sig .tc := ⟨.hbm, 170, rfl⟩
abbrev main_c_35 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_v101 : Ref sig .tc := ⟨.hbm, 177, rfl⟩
abbrev main_c_36 : Ref sig .tc := ⟨.hbm, 178, rfl⟩
abbrev main_v102 : Ref sig .tc := ⟨.hbm, 179, rfl⟩
abbrev main_v103 : Ref sig .tc := ⟨.hbm, 180, rfl⟩
abbrev main_c_37 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_c_38 : Ref sig .tc := ⟨.hbm, 185, rfl⟩
abbrev main_v107 : Ref sig .tc := ⟨.hbm, 186, rfl⟩
abbrev main_v108 : Ref sig .tc := ⟨.hbm, 187, rfl⟩
abbrev main_c_39 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_40 : Ref sig .tc := ⟨.hbm, 192, rfl⟩
abbrev main_v112 : Ref sig .tc := ⟨.hbm, 193, rfl⟩
abbrev main_v113 : Ref sig .tc := ⟨.hbm, 194, rfl⟩
abbrev main_c_41 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_c_42 : Ref sig .tc := ⟨.hbm, 212, rfl⟩
abbrev main_v130 : Ref sig .tc := ⟨.hbm, 213, rfl⟩
abbrev main_v131 : Ref sig .tc := ⟨.hbm, 214, rfl⟩
abbrev main_c_43 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_c_44 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_c_45 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_c_46 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_c_47 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_c_48 : Ref sig .tc := ⟨.hbm, 235, rfl⟩
abbrev main_c_49 : Ref sig .tc := ⟨.hbm, 236, rfl⟩
abbrev main_call6_v0 : Ref sig .tc := ⟨.hbm, 237, rfl⟩
abbrev main_call6_v1 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_v147 : Ref sig .tc := ⟨.hbm, 242, rfl⟩
abbrev main_c_50 : Ref sig .tc := ⟨.hbm, 243, rfl⟩
abbrev main_c_51 : Ref sig .tc := ⟨.hbm, 244, rfl⟩
abbrev main_call7_v0 : Ref sig .tc := ⟨.hbm, 245, rfl⟩
abbrev main_call7_v1 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_v148 : Ref sig .tc := ⟨.hbm, 250, rfl⟩
abbrev main_c_52 : Ref sig .tc := ⟨.hbm, 251, rfl⟩
abbrev main_c_53 : Ref sig .tc := ⟨.hbm, 252, rfl⟩
abbrev main_call8_v0 : Ref sig .tc := ⟨.hbm, 253, rfl⟩
abbrev main_call8_v1 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_v149 : Ref sig .tc := ⟨.hbm, 258, rfl⟩
abbrev main_c_54 : Ref sig .tc := ⟨.hbm, 259, rfl⟩
abbrev main_v150 : Ref sig .tc := ⟨.hbm, 260, rfl⟩
abbrev main_v151 : Ref sig .tc := ⟨.hbm, 261, rfl⟩
abbrev main_c_55 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_c_56 : Ref sig .tc := ⟨.hbm, 266, rfl⟩
abbrev main_v155 : Ref sig .tc := ⟨.hbm, 267, rfl⟩
abbrev main_v156 : Ref sig .tc := ⟨.hbm, 268, rfl⟩
abbrev main_c_57 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_c_58 : Ref sig .tc := ⟨.hbm, 273, rfl⟩
abbrev main_v160 : Ref sig .tc := ⟨.hbm, 274, rfl⟩
abbrev main_v161 : Ref sig .tc := ⟨.hbm, 275, rfl⟩
abbrev main_c_59 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_c_60 : Ref sig .tc := ⟨.hbm, 293, rfl⟩
abbrev main_v178 : Ref sig .tc := ⟨.hbm, 294, rfl⟩
abbrev main_v179 : Ref sig .tc := ⟨.hbm, 295, rfl⟩
abbrev main_c_61 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_c_62 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_c_63 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_c_64 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_c_65 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_c_66 : Ref sig .tc := ⟨.hbm, 316, rfl⟩
abbrev main_c_67 : Ref sig .tc := ⟨.hbm, 317, rfl⟩
abbrev main_call9_v0 : Ref sig .tc := ⟨.hbm, 318, rfl⟩
abbrev main_call9_v1 : Ref sig .tc := ⟨.hbm, 319, rfl⟩
abbrev main_call9_v2 : Ref sig .tc := ⟨.hbm, 320, rfl⟩
abbrev main_call9_v3 : Ref sig .tc := ⟨.hbm, 321, rfl⟩
abbrev main_call9_v4 : Ref sig .tc := ⟨.hbm, 322, rfl⟩
abbrev main_v195 : Ref sig .tc := ⟨.hbm, 323, rfl⟩
abbrev main_c_68 : Ref sig .tc := ⟨.hbm, 324, rfl⟩
abbrev main_c_69 : Ref sig .tc := ⟨.hbm, 325, rfl⟩
abbrev main_call10_v0 : Ref sig .tc := ⟨.hbm, 326, rfl⟩
abbrev main_call10_v1 : Ref sig .tc := ⟨.hbm, 327, rfl⟩
abbrev main_call10_v2 : Ref sig .tc := ⟨.hbm, 328, rfl⟩
abbrev main_call10_v3 : Ref sig .tc := ⟨.hbm, 329, rfl⟩
abbrev main_call10_v4 : Ref sig .tc := ⟨.hbm, 330, rfl⟩
abbrev main_v196 : Ref sig .tc := ⟨.hbm, 331, rfl⟩
abbrev main_c_70 : Ref sig .tc := ⟨.hbm, 332, rfl⟩
abbrev main_c_71 : Ref sig .tc := ⟨.hbm, 333, rfl⟩
abbrev main_call11_v0 : Ref sig .tc := ⟨.hbm, 334, rfl⟩
abbrev main_call11_v1 : Ref sig .tc := ⟨.hbm, 335, rfl⟩
abbrev main_call11_v2 : Ref sig .tc := ⟨.hbm, 336, rfl⟩
abbrev main_call11_v3 : Ref sig .tc := ⟨.hbm, 337, rfl⟩
abbrev main_call11_v4 : Ref sig .tc := ⟨.hbm, 338, rfl⟩
abbrev main_v197 : Ref sig .tc := ⟨.hbm, 339, rfl⟩
abbrev main_c_72 : Ref sig .tc := ⟨.hbm, 340, rfl⟩
abbrev main_v198 : Ref sig .tc := ⟨.hbm, 341, rfl⟩
abbrev main_v199 : Ref sig .tc := ⟨.hbm, 342, rfl⟩
abbrev main_c_73 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_c_74 : Ref sig .tc := ⟨.hbm, 347, rfl⟩
abbrev main_v203 : Ref sig .tc := ⟨.hbm, 348, rfl⟩
abbrev main_v204 : Ref sig .tc := ⟨.hbm, 349, rfl⟩
abbrev main_c_75 : Ref sig .tc := ⟨.hbm, 350, rfl⟩
abbrev main_v205 : Ref sig .tc := ⟨.hbm, 351, rfl⟩
abbrev main_v206 : Ref sig .tc := ⟨.hbm, 352, rfl⟩
abbrev main_v207 : Ref sig .tc := ⟨.hbm, 353, rfl⟩
abbrev main_c_76 : Ref sig .tc := ⟨.hbm, 354, rfl⟩
abbrev main_v208 : Ref sig .tc := ⟨.hbm, 355, rfl⟩
abbrev main_v209 : Ref sig .tc := ⟨.hbm, 356, rfl⟩
abbrev main_c_77 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_v225 : Ref sig .tc := ⟨.hbm, 373, rfl⟩
abbrev main_c_78 : Ref sig .tc := ⟨.hbm, 374, rfl⟩
abbrev main_v226 : Ref sig .tc := ⟨.hbm, 375, rfl⟩
abbrev main_v227 : Ref sig .tc := ⟨.hbm, 376, rfl⟩
abbrev main_c_79 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_c_80 : Ref sig .tc := ⟨.hbm, 381, rfl⟩
abbrev main_v231 : Ref sig .tc := ⟨.hbm, 382, rfl⟩
abbrev main_v232 : Ref sig .tc := ⟨.hbm, 383, rfl⟩
abbrev main_v233 : Ref sig .tc := ⟨.hbm, 384, rfl⟩
abbrev main_c_81 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_c_82 : Ref sig .tc := ⟨.hbm, 389, rfl⟩
abbrev main_v237 : Ref sig .tc := ⟨.hbm, 390, rfl⟩
abbrev main_v238 : Ref sig .tc := ⟨.hbm, 391, rfl⟩
abbrev main_v239 : Ref sig .tc := ⟨.hbm, 392, rfl⟩
abbrev main_c_83 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_c_84 : Ref sig .tc := ⟨.hbm, 397, rfl⟩
abbrev main_c_85 : Ref sig .tc := ⟨.hbm, 398, rfl⟩
abbrev main_call12_v0 : Ref sig .tc := ⟨.hbm, 399, rfl⟩
abbrev main_call12_v1 : Ref sig .tc := ⟨.hbm, 400, rfl⟩
abbrev main_call12_v2 : Ref sig .tc := ⟨.hbm, 401, rfl⟩
abbrev main_call12_v3 : Ref sig .tc := ⟨.hbm, 402, rfl⟩
abbrev main_call12_v4 : Ref sig .tc := ⟨.hbm, 403, rfl⟩
abbrev main_v243 : Ref sig .tc := ⟨.hbm, 404, rfl⟩
abbrev main_c_86 : Ref sig .tc := ⟨.hbm, 405, rfl⟩
abbrev main_c_87 : Ref sig .tc := ⟨.hbm, 406, rfl⟩
abbrev main_call13_v0 : Ref sig .tc := ⟨.hbm, 407, rfl⟩
abbrev main_call13_v1 : Ref sig .tc := ⟨.hbm, 408, rfl⟩
abbrev main_call13_v2 : Ref sig .tc := ⟨.hbm, 409, rfl⟩
abbrev main_call13_v3 : Ref sig .tc := ⟨.hbm, 410, rfl⟩
abbrev main_call13_v4 : Ref sig .tc := ⟨.hbm, 411, rfl⟩
abbrev main_v244 : Ref sig .tc := ⟨.hbm, 412, rfl⟩
abbrev main_c_88 : Ref sig .tc := ⟨.hbm, 413, rfl⟩
abbrev main_c_89 : Ref sig .tc := ⟨.hbm, 414, rfl⟩
abbrev main_call14_v0 : Ref sig .tc := ⟨.hbm, 415, rfl⟩
abbrev main_call14_v1 : Ref sig .tc := ⟨.hbm, 416, rfl⟩
abbrev main_call14_v2 : Ref sig .tc := ⟨.hbm, 417, rfl⟩
abbrev main_call14_v3 : Ref sig .tc := ⟨.hbm, 418, rfl⟩
abbrev main_call14_v4 : Ref sig .tc := ⟨.hbm, 419, rfl⟩
abbrev main_v245 : Ref sig .tc := ⟨.hbm, 420, rfl⟩
abbrev main_c_90 : Ref sig .tc := ⟨.hbm, 421, rfl⟩
abbrev main_v246 : Ref sig .tc := ⟨.hbm, 422, rfl⟩
abbrev main_v247 : Ref sig .tc := ⟨.hbm, 423, rfl⟩
abbrev main_c_91 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_c_92 : Ref sig .tc := ⟨.hbm, 428, rfl⟩
abbrev main_v251 : Ref sig .tc := ⟨.hbm, 429, rfl⟩
abbrev main_v252 : Ref sig .tc := ⟨.hbm, 430, rfl⟩
abbrev main_c_93 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_c_94 : Ref sig .tc := ⟨.hbm, 435, rfl⟩
abbrev main_v256 : Ref sig .tc := ⟨.hbm, 436, rfl⟩
abbrev main_v257 : Ref sig .tc := ⟨.hbm, 437, rfl⟩
abbrev main_c_95 : Ref sig .tc := ⟨.hbm, 438, rfl⟩
abbrev main_v258 : Ref sig .tc := ⟨.hbm, 439, rfl⟩
abbrev main_v259 : Ref sig .tc := ⟨.hbm, 440, rfl⟩
abbrev main_v260 : Ref sig .tc := ⟨.hbm, 441, rfl⟩
abbrev main_v261 : Ref sig .tc := ⟨.hbm, 442, rfl⟩
abbrev main_v262 : Ref sig .tc := ⟨.hbm, 443, rfl⟩
abbrev main_v263 : Ref sig .tc := ⟨.hbm, 444, rfl⟩
abbrev main_v264 : Ref sig .tc := ⟨.hbm, 445, rfl⟩
abbrev main_v265 : Ref sig .tc := ⟨.hbm, 446, rfl⟩
abbrev main_v266 : Ref sig .tc := ⟨.hbm, 447, rfl⟩
abbrev main_v267 : Ref sig .tc := ⟨.hbm, 448, rfl⟩
abbrev main_v268 : Ref sig .tc := ⟨.hbm, 449, rfl⟩
abbrev main_v269 : Ref sig .tc := ⟨.hbm, 450, rfl⟩
abbrev main_v270 : Ref sig .tc := ⟨.hbm, 451, rfl⟩
abbrev main_v271 : Ref sig .tc := ⟨.hbm, 452, rfl⟩
abbrev main_v272 : Ref sig .tc := ⟨.hbm, 453, rfl⟩
abbrev main_v273 : Ref sig .tc := ⟨.hbm, 454, rfl⟩
abbrev main_c_96 : Ref sig .tc := ⟨.hbm, 455, rfl⟩
abbrev main_v274 : Ref sig .tc := ⟨.hbm, 456, rfl⟩
abbrev main_v275 : Ref sig .tc := ⟨.hbm, 457, rfl⟩
abbrev main_c_97 : Ref sig .tc := ⟨.hbm, 458, rfl⟩
abbrev main_v276 : Ref sig .tc := ⟨.hbm, 459, rfl⟩
abbrev main_v277 : Ref sig .tc := ⟨.hbm, 460, rfl⟩
abbrev main_v278 : Ref sig .tc := ⟨.hbm, 461, rfl⟩
abbrev main_c_98 : Ref sig .tc := ⟨.hbm, 462, rfl⟩
abbrev main_v279 : Ref sig .tc := ⟨.hbm, 463, rfl⟩
abbrev main_v280 : Ref sig .tc := ⟨.hbm, 464, rfl⟩
abbrev main_v281 : Ref sig .tc := ⟨.hbm, 465, rfl⟩
abbrev main_c_99 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_c_100 : Ref sig .tc := ⟨.hbm, 470, rfl⟩
abbrev main_v285 : Ref sig .tc := ⟨.hbm, 471, rfl⟩
abbrev main_v286 : Ref sig .tc := ⟨.hbm, 472, rfl⟩
abbrev main_v287 : Ref sig .tc := ⟨.hbm, 473, rfl⟩
abbrev main_c_101 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_c_102 : Ref sig .tc := ⟨.hbm, 478, rfl⟩
abbrev main_c_103 : Ref sig .tc := ⟨.hbm, 479, rfl⟩
abbrev main_call15_v0 : Ref sig .tc := ⟨.hbm, 480, rfl⟩
abbrev main_call15_v1 : Ref sig .tc := ⟨.hbm, 481, rfl⟩
abbrev main_call15_v2 : Ref sig .tc := ⟨.hbm, 482, rfl⟩
abbrev main_call15_v3 : Ref sig .tc := ⟨.hbm, 483, rfl⟩
abbrev main_call15_v4 : Ref sig .tc := ⟨.hbm, 484, rfl⟩
abbrev main_v291 : Ref sig .tc := ⟨.hbm, 485, rfl⟩
abbrev main_c_104 : Ref sig .tc := ⟨.hbm, 486, rfl⟩
abbrev main_c_105 : Ref sig .tc := ⟨.hbm, 487, rfl⟩
abbrev main_call16_v0 : Ref sig .tc := ⟨.hbm, 488, rfl⟩
abbrev main_call16_v1 : Ref sig .tc := ⟨.hbm, 489, rfl⟩
abbrev main_call16_v2 : Ref sig .tc := ⟨.hbm, 490, rfl⟩
abbrev main_call16_v3 : Ref sig .tc := ⟨.hbm, 491, rfl⟩
abbrev main_call16_v4 : Ref sig .tc := ⟨.hbm, 492, rfl⟩
abbrev main_v292 : Ref sig .tc := ⟨.hbm, 493, rfl⟩
abbrev main_c_106 : Ref sig .tc := ⟨.hbm, 494, rfl⟩
abbrev main_c_107 : Ref sig .tc := ⟨.hbm, 495, rfl⟩
abbrev main_call17_v0 : Ref sig .tc := ⟨.hbm, 496, rfl⟩
abbrev main_call17_v1 : Ref sig .tc := ⟨.hbm, 497, rfl⟩
abbrev main_call17_v2 : Ref sig .tc := ⟨.hbm, 498, rfl⟩
abbrev main_call17_v3 : Ref sig .tc := ⟨.hbm, 499, rfl⟩
abbrev main_call17_v4 : Ref sig .tc := ⟨.hbm, 500, rfl⟩
abbrev main_v293 : Ref sig .tc := ⟨.hbm, 501, rfl⟩
abbrev main_c_108 : Ref sig .tc := ⟨.hbm, 502, rfl⟩
abbrev main_v294 : Ref sig .tc := ⟨.hbm, 503, rfl⟩
abbrev main_v295 : Ref sig .tc := ⟨.hbm, 504, rfl⟩
abbrev main_c_109 : Ref sig .tc := ⟨.hbm, 505, rfl⟩
abbrev main_v296 : Ref sig .tc := ⟨.hbm, 506, rfl⟩
abbrev main_v297 : Ref sig .tc := ⟨.hbm, 507, rfl⟩
abbrev main_v298 : Ref sig .tc := ⟨.hbm, 508, rfl⟩
abbrev main_c_110 : Ref sig .tc := ⟨.hbm, 509, rfl⟩
abbrev main_v299 : Ref sig .tc := ⟨.hbm, 510, rfl⟩
abbrev main_v300 : Ref sig .tc := ⟨.hbm, 511, rfl⟩
abbrev main_c_111 : Ref sig .tc := ⟨.hbm, 512, rfl⟩
abbrev main_v301 : Ref sig .tc := ⟨.hbm, 513, rfl⟩
abbrev main_v302 : Ref sig .tc := ⟨.hbm, 514, rfl⟩
abbrev main_v303 : Ref sig .tc := ⟨.hbm, 515, rfl⟩
abbrev main_c_112 : Ref sig .tc := ⟨.hbm, 516, rfl⟩
abbrev main_v304 : Ref sig .tc := ⟨.hbm, 517, rfl⟩
abbrev main_v305 : Ref sig .tc := ⟨.hbm, 518, rfl⟩
abbrev main_c_113 : Ref sig .tc := ⟨.hbm, 519, rfl⟩
abbrev main_v306 : Ref sig .tc := ⟨.hbm, 520, rfl⟩
abbrev main_v307 : Ref sig .tc := ⟨.hbm, 521, rfl⟩
abbrev main_v308 : Ref sig .tc := ⟨.hbm, 522, rfl⟩
abbrev main_v309 : Ref sig .tc := ⟨.hbm, 523, rfl⟩
abbrev main_v310 : Ref sig .tc := ⟨.hbm, 524, rfl⟩
abbrev main_v311 : Ref sig .tc := ⟨.hbm, 525, rfl⟩
abbrev main_v312 : Ref sig .tc := ⟨.hbm, 526, rfl⟩
abbrev main_v313 : Ref sig .tc := ⟨.hbm, 527, rfl⟩
abbrev main_v314 : Ref sig .tc := ⟨.hbm, 528, rfl⟩
abbrev main_v315 : Ref sig .tc := ⟨.hbm, 529, rfl⟩
abbrev main_v316 : Ref sig .tc := ⟨.hbm, 530, rfl⟩
abbrev main_v317 : Ref sig .tc := ⟨.hbm, 531, rfl⟩
abbrev main_v318 : Ref sig .tc := ⟨.hbm, 532, rfl⟩
abbrev main_v319 : Ref sig .tc := ⟨.hbm, 533, rfl⟩
abbrev main_v320 : Ref sig .tc := ⟨.hbm, 534, rfl⟩
abbrev main_v321 : Ref sig .tc := ⟨.hbm, 535, rfl⟩
abbrev main_c_114 : Ref sig .tc := ⟨.hbm, 536, rfl⟩
abbrev main_v322 : Ref sig .tc := ⟨.hbm, 537, rfl⟩
abbrev main_v323 : Ref sig .tc := ⟨.hbm, 538, rfl⟩
abbrev main_c_115 : Ref sig .tc := ⟨.hbm, 539, rfl⟩
abbrev main_v324 : Ref sig .tc := ⟨.hbm, 540, rfl⟩
abbrev main_v325 : Ref sig .tc := ⟨.hbm, 541, rfl⟩
abbrev main_v326 : Ref sig .tc := ⟨.hbm, 542, rfl⟩
abbrev main_c_116 : Ref sig .tc := ⟨.hbm, 543, rfl⟩
abbrev main_v327 : Ref sig .tc := ⟨.hbm, 544, rfl⟩
abbrev main_v328 : Ref sig .tc := ⟨.hbm, 545, rfl⟩
abbrev main_v329 : Ref sig .tc := ⟨.hbm, 546, rfl⟩
abbrev main_c_117 : Ref sig .tc := ⟨.hbm, 547, rfl⟩
abbrev main_v330 : Ref sig .tc := ⟨.hbm, 548, rfl⟩
abbrev main_v331 : Ref sig .tc := ⟨.hbm, 549, rfl⟩
abbrev main_v332 : Ref sig .tc := ⟨.hbm, 550, rfl⟩
abbrev main_c_118 : Ref sig .tc := ⟨.hbm, 551, rfl⟩
abbrev main_v333 : Ref sig .tc := ⟨.hbm, 552, rfl⟩
abbrev main_v334 : Ref sig .tc := ⟨.hbm, 553, rfl⟩
abbrev main_v335 : Ref sig .tc := ⟨.hbm, 554, rfl⟩
abbrev main_c_119 : Ref sig .tc := ⟨.hbm, 555, rfl⟩
abbrev main_v336 : Ref sig .tc := ⟨.hbm, 556, rfl⟩
abbrev main_v337 : Ref sig .tc := ⟨.hbm, 557, rfl⟩
abbrev main_v338 : Ref sig .tc := ⟨.hbm, 558, rfl⟩
abbrev main_c_120 : Ref sig .tc := ⟨.hbm, 559, rfl⟩
abbrev main_c_121 : Ref sig .tc := ⟨.hbm, 560, rfl⟩
abbrev main_call18_v0 : Ref sig .tc := ⟨.hbm, 561, rfl⟩
abbrev main_call18_v1 : Ref sig .tc := ⟨.hbm, 562, rfl⟩
abbrev main_call18_v2 : Ref sig .tc := ⟨.hbm, 563, rfl⟩
abbrev main_call18_v3 : Ref sig .tc := ⟨.hbm, 564, rfl⟩
abbrev main_call18_v4 : Ref sig .tc := ⟨.hbm, 565, rfl⟩
abbrev main_v339 : Ref sig .tc := ⟨.hbm, 566, rfl⟩
abbrev main_c_122 : Ref sig .tc := ⟨.hbm, 567, rfl⟩
abbrev main_c_123 : Ref sig .tc := ⟨.hbm, 568, rfl⟩
abbrev main_call19_v0 : Ref sig .tc := ⟨.hbm, 569, rfl⟩
abbrev main_call19_v1 : Ref sig .tc := ⟨.hbm, 570, rfl⟩
abbrev main_call19_v2 : Ref sig .tc := ⟨.hbm, 571, rfl⟩
abbrev main_call19_v3 : Ref sig .tc := ⟨.hbm, 572, rfl⟩
abbrev main_call19_v4 : Ref sig .tc := ⟨.hbm, 573, rfl⟩
abbrev main_v340 : Ref sig .tc := ⟨.hbm, 574, rfl⟩
abbrev main_c_124 : Ref sig .tc := ⟨.hbm, 575, rfl⟩
abbrev main_c_125 : Ref sig .tc := ⟨.hbm, 576, rfl⟩
abbrev main_call20_v0 : Ref sig .tc := ⟨.hbm, 577, rfl⟩
abbrev main_call20_v1 : Ref sig .tc := ⟨.hbm, 578, rfl⟩
abbrev main_call20_v2 : Ref sig .tc := ⟨.hbm, 579, rfl⟩
abbrev main_call20_v3 : Ref sig .tc := ⟨.hbm, 580, rfl⟩
abbrev main_call20_v4 : Ref sig .tc := ⟨.hbm, 581, rfl⟩
abbrev main_v341 : Ref sig .tc := ⟨.hbm, 582, rfl⟩
abbrev main_c_126 : Ref sig .tc := ⟨.hbm, 583, rfl⟩
abbrev main_v342 : Ref sig .tc := ⟨.hbm, 584, rfl⟩
abbrev main_v343 : Ref sig .tc := ⟨.hbm, 585, rfl⟩
abbrev main_c_127 : Ref sig .tc := ⟨.hbm, 586, rfl⟩
abbrev main_v344 : Ref sig .tc := ⟨.hbm, 587, rfl⟩
abbrev main_v345 : Ref sig .tc := ⟨.hbm, 588, rfl⟩
abbrev main_v346 : Ref sig .tc := ⟨.hbm, 589, rfl⟩
abbrev main_c_128 : Ref sig .tc := ⟨.hbm, 590, rfl⟩
abbrev main_v347 : Ref sig .tc := ⟨.hbm, 591, rfl⟩
abbrev main_v348 : Ref sig .tc := ⟨.hbm, 592, rfl⟩
abbrev main_c_129 : Ref sig .tc := ⟨.hbm, 593, rfl⟩
abbrev main_v349 : Ref sig .tc := ⟨.hbm, 594, rfl⟩
abbrev main_v350 : Ref sig .tc := ⟨.hbm, 595, rfl⟩
abbrev main_v351 : Ref sig .tc := ⟨.hbm, 596, rfl⟩
abbrev main_c_130 : Ref sig .tc := ⟨.hbm, 597, rfl⟩
abbrev main_v352 : Ref sig .tc := ⟨.hbm, 598, rfl⟩
abbrev main_v353 : Ref sig .tc := ⟨.hbm, 599, rfl⟩
abbrev main_c_131 : Ref sig .tc := ⟨.hbm, 600, rfl⟩
abbrev main_v354 : Ref sig .tc := ⟨.hbm, 601, rfl⟩
abbrev main_v355 : Ref sig .tc := ⟨.hbm, 602, rfl⟩
abbrev main_v356 : Ref sig .tc := ⟨.hbm, 603, rfl⟩
abbrev main_v357 : Ref sig .tc := ⟨.hbm, 604, rfl⟩
abbrev main_v358 : Ref sig .tc := ⟨.hbm, 605, rfl⟩
abbrev main_v359 : Ref sig .tc := ⟨.hbm, 606, rfl⟩
abbrev main_v360 : Ref sig .tc := ⟨.hbm, 607, rfl⟩
abbrev main_v361 : Ref sig .tc := ⟨.hbm, 608, rfl⟩
abbrev main_v362 : Ref sig .tc := ⟨.hbm, 609, rfl⟩
abbrev main_v363 : Ref sig .tc := ⟨.hbm, 610, rfl⟩
abbrev main_v364 : Ref sig .tc := ⟨.hbm, 611, rfl⟩
abbrev main_v365 : Ref sig .tc := ⟨.hbm, 612, rfl⟩
abbrev main_v366 : Ref sig .tc := ⟨.hbm, 613, rfl⟩
abbrev main_v367 : Ref sig .tc := ⟨.hbm, 614, rfl⟩
abbrev main_v368 : Ref sig .tc := ⟨.hbm, 615, rfl⟩
abbrev main_v369 : Ref sig .tc := ⟨.hbm, 616, rfl⟩
abbrev main_c_132 : Ref sig .tc := ⟨.hbm, 617, rfl⟩
abbrev main_v370 : Ref sig .tc := ⟨.hbm, 618, rfl⟩
abbrev main_v371 : Ref sig .tc := ⟨.hbm, 619, rfl⟩
abbrev main_c_133 : Ref sig .tc := ⟨.hbm, 620, rfl⟩
abbrev main_v372 : Ref sig .tc := ⟨.hbm, 621, rfl⟩
abbrev main_v373 : Ref sig .tc := ⟨.hbm, 622, rfl⟩
abbrev main_v374 : Ref sig .tc := ⟨.hbm, 623, rfl⟩
abbrev main_c_134 : Ref sig .tc := ⟨.hbm, 624, rfl⟩
abbrev main_v375 : Ref sig .tc := ⟨.hbm, 625, rfl⟩
abbrev main_v376 : Ref sig .tc := ⟨.hbm, 626, rfl⟩
abbrev main_v377 : Ref sig .tc := ⟨.hbm, 627, rfl⟩
abbrev main_c_135 : Ref sig .tc := ⟨.hbm, 628, rfl⟩
abbrev main_v378 : Ref sig .tc := ⟨.hbm, 629, rfl⟩
abbrev main_v379 : Ref sig .tc := ⟨.hbm, 630, rfl⟩
abbrev main_v380 : Ref sig .tc := ⟨.hbm, 631, rfl⟩
abbrev main_c_136 : Ref sig .tc := ⟨.hbm, 632, rfl⟩
abbrev main_v381 : Ref sig .tc := ⟨.hbm, 633, rfl⟩
abbrev main_v382 : Ref sig .tc := ⟨.hbm, 634, rfl⟩
abbrev main_v383 : Ref sig .tc := ⟨.hbm, 635, rfl⟩
abbrev main_c_137 : Ref sig .tc := ⟨.hbm, 636, rfl⟩
abbrev main_v384 : Ref sig .tc := ⟨.hbm, 637, rfl⟩
abbrev main_v385 : Ref sig .tc := ⟨.hbm, 638, rfl⟩
abbrev main_v386 : Ref sig .tc := ⟨.hbm, 639, rfl⟩
abbrev main_c_138 : Ref sig .tc := ⟨.hbm, 640, rfl⟩
abbrev main_c_139 : Ref sig .tc := ⟨.hbm, 641, rfl⟩
abbrev main_call21_v0 : Ref sig .tc := ⟨.hbm, 642, rfl⟩
abbrev main_call21_v1 : Ref sig .tc := ⟨.hbm, 643, rfl⟩
abbrev main_call21_v2 : Ref sig .tc := ⟨.hbm, 644, rfl⟩
abbrev main_call21_v3 : Ref sig .tc := ⟨.hbm, 645, rfl⟩
abbrev main_call21_v4 : Ref sig .tc := ⟨.hbm, 646, rfl⟩
abbrev main_v387 : Ref sig .tc := ⟨.hbm, 647, rfl⟩
abbrev main_c_140 : Ref sig .tc := ⟨.hbm, 648, rfl⟩
abbrev main_c_141 : Ref sig .tc := ⟨.hbm, 649, rfl⟩
abbrev main_call22_v0 : Ref sig .tc := ⟨.hbm, 650, rfl⟩
abbrev main_call22_v1 : Ref sig .tc := ⟨.hbm, 651, rfl⟩
abbrev main_call22_v2 : Ref sig .tc := ⟨.hbm, 652, rfl⟩
abbrev main_call22_v3 : Ref sig .tc := ⟨.hbm, 653, rfl⟩
abbrev main_call22_v4 : Ref sig .tc := ⟨.hbm, 654, rfl⟩
abbrev main_v388 : Ref sig .tc := ⟨.hbm, 655, rfl⟩
abbrev main_c_142 : Ref sig .tc := ⟨.hbm, 656, rfl⟩
abbrev main_c_143 : Ref sig .tc := ⟨.hbm, 657, rfl⟩
abbrev main_call23_v0 : Ref sig .tc := ⟨.hbm, 658, rfl⟩
abbrev main_call23_v1 : Ref sig .tc := ⟨.hbm, 659, rfl⟩
abbrev main_call23_v2 : Ref sig .tc := ⟨.hbm, 660, rfl⟩
abbrev main_call23_v3 : Ref sig .tc := ⟨.hbm, 661, rfl⟩
abbrev main_call23_v4 : Ref sig .tc := ⟨.hbm, 662, rfl⟩
abbrev main_v389 : Ref sig .tc := ⟨.hbm, 663, rfl⟩
abbrev main_c_144 : Ref sig .tc := ⟨.hbm, 664, rfl⟩
abbrev main_v390 : Ref sig .tc := ⟨.hbm, 665, rfl⟩
abbrev main_v391 : Ref sig .tc := ⟨.hbm, 666, rfl⟩
abbrev main_c_145 : Ref sig .tc := ⟨.hbm, 667, rfl⟩
abbrev main_v392 : Ref sig .tc := ⟨.hbm, 668, rfl⟩
abbrev main_v393 : Ref sig .tc := ⟨.hbm, 669, rfl⟩
abbrev main_v394 : Ref sig .tc := ⟨.hbm, 670, rfl⟩
abbrev main_c_146 : Ref sig .tc := ⟨.hbm, 671, rfl⟩
abbrev main_v395 : Ref sig .tc := ⟨.hbm, 672, rfl⟩
abbrev main_v396 : Ref sig .tc := ⟨.hbm, 673, rfl⟩
abbrev main_c_147 : Ref sig .tc := ⟨.hbm, 674, rfl⟩
abbrev main_v397 : Ref sig .tc := ⟨.hbm, 675, rfl⟩
abbrev main_v398 : Ref sig .tc := ⟨.hbm, 676, rfl⟩
abbrev main_v399 : Ref sig .tc := ⟨.hbm, 677, rfl⟩
abbrev main_c_148 : Ref sig .tc := ⟨.hbm, 678, rfl⟩
abbrev main_v400 : Ref sig .tc := ⟨.hbm, 679, rfl⟩
abbrev main_v401 : Ref sig .tc := ⟨.hbm, 680, rfl⟩
abbrev main_c_149 : Ref sig .tc := ⟨.hbm, 681, rfl⟩
abbrev main_v402 : Ref sig .tc := ⟨.hbm, 682, rfl⟩
abbrev main_v403 : Ref sig .tc := ⟨.hbm, 683, rfl⟩
abbrev main_v404 : Ref sig .tc := ⟨.hbm, 684, rfl⟩
abbrev main_v405 : Ref sig .tc := ⟨.hbm, 685, rfl⟩
abbrev main_v406 : Ref sig .tc := ⟨.hbm, 686, rfl⟩
abbrev main_v407 : Ref sig .tc := ⟨.hbm, 687, rfl⟩
abbrev main_v408 : Ref sig .tc := ⟨.hbm, 688, rfl⟩
abbrev main_v409 : Ref sig .tc := ⟨.hbm, 689, rfl⟩
abbrev main_v410 : Ref sig .tc := ⟨.hbm, 690, rfl⟩
abbrev main_v411 : Ref sig .tc := ⟨.hbm, 691, rfl⟩
abbrev main_v412 : Ref sig .tc := ⟨.hbm, 692, rfl⟩
abbrev main_v413 : Ref sig .tc := ⟨.hbm, 693, rfl⟩
abbrev main_v414 : Ref sig .tc := ⟨.hbm, 694, rfl⟩
abbrev main_v415 : Ref sig .tc := ⟨.hbm, 695, rfl⟩
abbrev main_v416 : Ref sig .tc := ⟨.hbm, 696, rfl⟩
abbrev main_v417 : Ref sig .tc := ⟨.hbm, 697, rfl⟩
abbrev main_v418 : Ref sig .tc := ⟨.hbm, 698, rfl⟩
abbrev main_v419 : Ref sig .tc := ⟨.hbm, 699, rfl⟩
abbrev main_v420 : Ref sig .tc := ⟨.hbm, 700, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S35937x32_S32x33x33x33 : S35937x32.ShapeCasts S32x33x33x33
  transposes_S32x33x33x33_S33x33x33x32_1_2_3_0 : S32x33x33x33.Transposes [1, 2, 3, 0] S33x33x33x32
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576x1_S1048576x32_0_1 : S1048576x1.BroadcastsInDim S1048576x32 (![0, 1] : Fin 2 → Fin S1048576x32.rank)
  bitsLt_bf16_f32 : FTy.bits .bf16 < FTy.bits .f32
  shapeCasts_S128x1_S1x128 : S128x1.ShapeCasts S1x128
  shapeCasts_S1_S1x1 : S1.ShapeCasts S1x1
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S8192x128_S64x128x128 : S8192x128.ShapeCasts S64x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S64x128x128 : S1x1x128.Broadcasts S64x128x128
  reduces_S64x128x128_S64x128 : S64x128x128.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S64x128_S64x128_0_0 : ∀ a, (![0, 0] : Fin 2 → Nat) a + S64x128.size a ≤ S64x128.size a
  h_S64x128 : 0 < S64x128.numel
  shapeCasts_S8192x128_S1048576x1 : S8192x128.ShapeCasts S1048576x1
  gather_S33x33x33x32_S1048576x3_S1048576x32_1_012_n_n_012_1_11132_wf : GatherDims.WF S33x33x33x32 S1048576x3 S1048576x32 [1] [0, 1, 2] [] [0, 1, 2] [] 1 ![1, 1, 1, 32]
  dot_S8192x32_S32x128_S8192x128_1_0_0_1_n_n_wf : DotDims.WF S8192x32 S32x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .bf16 = 32 ∨ (Rect.block (s := S1048576x32) S8192x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S8192x128.size a
  hwx0_7 : ∀ i : grid0.Coords, EltTy.bits .f32 = 32 ∨ (Rect.block (s := S8192x128) S64x128.size (cc0_transform_7 i) (hinb0_7 i)).WholeWords (EltTy.packing .f32)

variable [Facts₀]

def gather_S33x33x33x32_S1048576x3_S1048576x32_1_012_n_n_012_1_11132 : GatherDims S33x33x33x32 S1048576x3 S1048576x32 where
  offsetDims := [1]
  collapsedSliceDims := [0, 1, 2]
  operandBatchingDims := []
  startIndicesBatchingDims := []
  startIndexMap := [0, 1, 2]
  indexVectorDim := 1
  sliceSizes := ![1, 1, 1, 32]
  wf := gather_S33x33x33x32_S1048576x3_S1048576x32_1_012_n_n_012_1_11132_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v416) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v417) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v418) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v419) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S35937x32 : Shape := ⟨2, ![35937, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32x33x33x33 : Shape := ⟨4, ![32, 33, 33, 33]⟩
abbrev S33x33x33x32 : Shape := ⟨4, ![33, 33, 33, 32]⟩
abbrev S_ : Shape := ⟨0, ![]⟩
abbrev S1048576x1 : Shape := ⟨2, ![1048576, 1]⟩
abbrev S1048576 : Shape := ⟨1, ![1048576]⟩
abbrev S1048576x32 : Shape := ⟨2, ![1048576, 32]⟩
abbrev S1048576x128 : Shape := ⟨2, ![1048576, 128]⟩
abbrev S1x128 : Shape := ⟨2, ![1, 128]⟩
abbrev S1x1 : Shape := ⟨2, ![1, 1]⟩

abbrev nBuf : Space → Nat
  | .hbm => 715
  | .vmem => 0
  | .smem => 0
  | _ => 0

abbrev hbmTy0_0 (i : Nat) : BufTy := match i % 128 with
  | 0 => ⟨S1048576x3, .f32⟩
  | 1 => ⟨S35937x32, .f32⟩
  | 2 => ⟨S32x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S32x33x33x33, .f32⟩
  | 9 => ⟨S33x33x33x32, .f32⟩
  | 10 => ⟨S_, .f32⟩
  | 11 => ⟨S1048576x3, .f32⟩
  | 12 => ⟨S1048576x3, .f32⟩
  | 13 => ⟨S_, .f32⟩
  | 14 => ⟨S1048576x3, .f32⟩
  | 15 => ⟨S1048576x3, .f32⟩
  | 16 => ⟨S1048576x1, .f32⟩
  | 17 => ⟨S1048576, .f32⟩
  | 18 => ⟨S1048576x1, .f32⟩
  | 19 => ⟨S1048576, .f32⟩
  | 20 => ⟨S1048576x1, .f32⟩
  | 21 => ⟨S1048576, .f32⟩
  | 22 => ⟨S1048576, .f32⟩
  | 23 => ⟨S1048576, .f32⟩
  | 24 => ⟨S1048576, .f32⟩
  | 25 => ⟨S1048576, .f32⟩
  | 26 => ⟨S1048576, .f32⟩
  | 27 => ⟨S1048576, .f32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S_, .f32⟩
  | 47 => ⟨S1048576, .f32⟩
  | 48 => ⟨S1048576, .f32⟩
  | 49 => ⟨S1048576, .f32⟩
  | 50 => ⟨S1048576, .f32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i1⟩
  | 57 => ⟨S1048576, .i1⟩
  | 58 => ⟨S_, .i32⟩
  | 59 => ⟨S1048576, .i32⟩
  | 60 => ⟨S1048576, .i1⟩
  | 61 => ⟨S1048576, .i1⟩
  | 62 => ⟨S_, .i32⟩
  | 63 => ⟨S1048576, .i32⟩
  | 64 => ⟨S1048576, .i1⟩
  | 65 => ⟨S1048576, .i1⟩
  | 66 => ⟨S_, .i32⟩
  | 67 => ⟨S1048576, .i32⟩
  | 68 => ⟨S1048576, .i1⟩
  | 69 => ⟨S1048576, .i1⟩
  | 70 => ⟨S_, .i32⟩
  | 71 => ⟨S1048576, .i32⟩
  | 72 => ⟨S1048576, .i1⟩
  | 73 => ⟨S1048576, .i1⟩
  | 74 => ⟨S_, .i32⟩
  | 75 => ⟨S_, .i32⟩
  | 76 => ⟨S_, .i32⟩
  | 77 => ⟨S1048576, .i32⟩
  | 78 => ⟨S1048576, .i32⟩
  | 79 => ⟨S_, .i32⟩
  | 80 => ⟨S1048576, .i32⟩
  | 81 => ⟨S1048576, .i32⟩
  | 82 => ⟨S_, .i32⟩
  | 83 => ⟨S_, .i32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S_, .i32⟩
  | 91 => ⟨S_, .i32⟩
  | 92 => ⟨S_, .i32⟩
  | 93 => ⟨S1048576, .i32⟩
  | 94 => ⟨S1048576, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x1, .i32⟩
  | 121 => ⟨S1048576x1, .i32⟩
  | 122 => ⟨S1048576x3, .i32⟩
  | 123 => ⟨S1048576x32, .f32⟩
  | 124 => ⟨S1048576, .f32⟩
  | 125 => ⟨S1048576, .f32⟩
  | 126 => ⟨S1048576x1, .f32⟩
  | 127 => ⟨S1048576x32, .f32⟩
  | _ => ⟨S1048576x3, .f32⟩

abbrev hbmTy0_1 (i : Nat) : BufTy := match i % 128 with
  | 0 => ⟨S1048576x32, .f32⟩
  | 1 => ⟨S1048576, .f32⟩
  | 2 => ⟨S1048576, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i1⟩
  | 9 => ⟨S1048576, .i1⟩
  | 10 => ⟨S_, .i32⟩
  | 11 => ⟨S1048576, .i32⟩
  | 12 => ⟨S1048576, .i1⟩
  | 13 => ⟨S1048576, .i1⟩
  | 14 => ⟨S_, .i32⟩
  | 15 => ⟨S1048576, .i32⟩
  | 16 => ⟨S1048576, .i1⟩
  | 17 => ⟨S1048576, .i1⟩
  | 18 => ⟨S_, .i32⟩
  | 19 => ⟨S1048576, .i32⟩
  | 20 => ⟨S1048576, .i1⟩
  | 21 => ⟨S1048576, .i1⟩
  | 22 => ⟨S_, .i32⟩
  | 23 => ⟨S1048576, .i32⟩
  | 24 => ⟨S1048576, .i1⟩
  | 25 => ⟨S1048576, .i1⟩
  | 26 => ⟨S_, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S_, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i32⟩
  | 42 => ⟨S_, .i32⟩
  | 43 => ⟨S_, .i32⟩
  | 44 => ⟨S_, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x1, .i32⟩
  | 74 => ⟨S1048576x3, .i32⟩
  | 75 => ⟨S1048576x32, .f32⟩
  | 76 => ⟨S1048576, .f32⟩
  | 77 => ⟨S1048576, .f32⟩
  | 78 => ⟨S1048576x1, .f32⟩
  | 79 => ⟨S1048576x32, .f32⟩
  | 80 => ⟨S1048576x32, .f32⟩
  | 81 => ⟨S1048576x32, .f32⟩
  | 82 => ⟨S1048576, .f32⟩
  | 83 => ⟨S1048576, .f32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i1⟩
  | 90 => ⟨S1048576, .i1⟩
  | 91 => ⟨S_, .i32⟩
  | 92 => ⟨S1048576, .i32⟩
  | 93 => ⟨S1048576, .i1⟩
  | 94 => ⟨S1048576, .i1⟩
  | 95 => ⟨S_, .i32⟩
  | 96 => ⟨S1048576, .i32⟩
  | 97 => ⟨S1048576, .i1⟩
  | 98 => ⟨S1048576, .i1⟩
  | 99 => ⟨S_, .i32⟩
  | 100 => ⟨S1048576, .i32⟩
  | 101 => ⟨S1048576, .i1⟩
  | 102 => ⟨S1048576, .i1⟩
  | 103 => ⟨S_, .i32⟩
  | 104 => ⟨S1048576, .i32⟩
  | 105 => ⟨S1048576, .i1⟩
  | 106 => ⟨S1048576, .i1⟩
  | 107 => ⟨S_, .i32⟩
  | 108 => ⟨S_, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S_, .i32⟩
  | 116 => ⟨S_, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S_, .i32⟩
  | 124 => ⟨S_, .i32⟩
  | 125 => ⟨S_, .i32⟩
  | 126 => ⟨S1048576, .i32⟩
  | 127 => ⟨S1048576, .i32⟩
  | _ => ⟨S1048576x3, .f32⟩

abbrev hbmTy0_2 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x1, .i32⟩
  | 26 => ⟨S1048576x1, .i32⟩
  | 27 => ⟨S1048576x3, .i32⟩
  | 28 => ⟨S1048576x32, .f32⟩
  | 29 => ⟨S1048576, .f32⟩
  | 30 => ⟨S1048576, .f32⟩
  | 31 => ⟨S1048576x1, .f32⟩
  | 32 => ⟨S1048576x32, .f32⟩
  | 33 => ⟨S1048576x32, .f32⟩
  | 34 => ⟨S1048576x32, .f32⟩
  | 35 => ⟨S1048576, .f32⟩
  | 36 => ⟨S1048576, .f32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i1⟩
  | 43 => ⟨S1048576, .i1⟩
  | 44 => ⟨S_, .i32⟩
  | 45 => ⟨S1048576, .i32⟩
  | 46 => ⟨S1048576, .i1⟩
  | 47 => ⟨S1048576, .i1⟩
  | 48 => ⟨S_, .i32⟩
  | 49 => ⟨S1048576, .i32⟩
  | 50 => ⟨S1048576, .i1⟩
  | 51 => ⟨S1048576, .i1⟩
  | 52 => ⟨S_, .i32⟩
  | 53 => ⟨S1048576, .i32⟩
  | 54 => ⟨S1048576, .i1⟩
  | 55 => ⟨S1048576, .i1⟩
  | 56 => ⟨S_, .i32⟩
  | 57 => ⟨S1048576, .i32⟩
  | 58 => ⟨S1048576, .i1⟩
  | 59 => ⟨S1048576, .i1⟩
  | 60 => ⟨S_, .i32⟩
  | 61 => ⟨S_, .i32⟩
  | 62 => ⟨S_, .i32⟩
  | 63 => ⟨S1048576, .i32⟩
  | 64 => ⟨S1048576, .i32⟩
  | 65 => ⟨S_, .i32⟩
  | 66 => ⟨S1048576, .i32⟩
  | 67 => ⟨S1048576, .i32⟩
  | 68 => ⟨S_, .i32⟩
  | 69 => ⟨S_, .i32⟩
  | 70 => ⟨S_, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S_, .i32⟩
  | 77 => ⟨S_, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S1048576x1, .i32⟩
  | 107 => ⟨S1048576x1, .i32⟩
  | 108 => ⟨S1048576x3, .i32⟩
  | 109 => ⟨S1048576x32, .f32⟩
  | 110 => ⟨S1048576, .f32⟩
  | 111 => ⟨S1048576, .f32⟩
  | 112 => ⟨S1048576x1, .f32⟩
  | 113 => ⟨S1048576x32, .f32⟩
  | 114 => ⟨S1048576x32, .f32⟩
  | 115 => ⟨S1048576x32, .f32⟩
  | 116 => ⟨S1048576, .f32⟩
  | 117 => ⟨S1048576, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i1⟩
  | 124 => ⟨S1048576, .i1⟩
  | 125 => ⟨S_, .i32⟩
  | 126 => ⟨S1048576, .i32⟩
  | 127 => ⟨S1048576, .i1⟩
  | _ => ⟨S1048576x3, .f32⟩

abbrev hbmTy0_3 (i : Nat) : BufTy := match i % 128 with
  | 0 => ⟨S1048576, .i1⟩
  | 1 => ⟨S_, .i32⟩
  | 2 => ⟨S1048576, .i32⟩
  | 3 => ⟨S1048576, .i1⟩
  | 4 => ⟨S1048576, .i1⟩
  | 5 => ⟨S_, .i32⟩
  | 6 => ⟨S1048576, .i32⟩
  | 7 => ⟨S1048576, .i1⟩
  | 8 => ⟨S1048576, .i1⟩
  | 9 => ⟨S_, .i32⟩
  | 10 => ⟨S1048576, .i32⟩
  | 11 => ⟨S1048576, .i1⟩
  | 12 => ⟨S1048576, .i1⟩
  | 13 => ⟨S_, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i32⟩
  | 21 => ⟨S_, .i32⟩
  | 22 => ⟨S_, .i32⟩
  | 23 => ⟨S_, .i32⟩
  | 24 => ⟨S1048576, .i32⟩
  | 25 => ⟨S1048576, .i32⟩
  | 26 => ⟨S_, .i32⟩
  | 27 => ⟨S1048576, .i32⟩
  | 28 => ⟨S1048576, .i32⟩
  | 29 => ⟨S_, .i32⟩
  | 30 => ⟨S_, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i32⟩
  | 57 => ⟨S1048576, .i32⟩
  | 58 => ⟨S1048576x1, .i32⟩
  | 59 => ⟨S1048576x1, .i32⟩
  | 60 => ⟨S1048576x1, .i32⟩
  | 61 => ⟨S1048576x3, .i32⟩
  | 62 => ⟨S1048576x32, .f32⟩
  | 63 => ⟨S1048576, .f32⟩
  | 64 => ⟨S1048576, .f32⟩
  | 65 => ⟨S1048576x1, .f32⟩
  | 66 => ⟨S1048576x32, .f32⟩
  | 67 => ⟨S1048576x32, .f32⟩
  | 68 => ⟨S1048576x32, .f32⟩
  | 69 => ⟨S1048576, .f32⟩
  | 70 => ⟨S1048576, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i1⟩
  | 77 => ⟨S1048576, .i1⟩
  | 78 => ⟨S_, .i32⟩
  | 79 => ⟨S1048576, .i32⟩
  | 80 => ⟨S1048576, .i1⟩
  | 81 => ⟨S1048576, .i1⟩
  | 82 => ⟨S_, .i32⟩
  | 83 => ⟨S1048576, .i32⟩
  | 84 => ⟨S1048576, .i1⟩
  | 85 => ⟨S1048576, .i1⟩
  | 86 => ⟨S_, .i32⟩
  | 87 => ⟨S1048576, .i32⟩
  | 88 => ⟨S1048576, .i1⟩
  | 89 => ⟨S1048576, .i1⟩
  | 90 => ⟨S_, .i32⟩
  | 91 => ⟨S1048576, .i32⟩
  | 92 => ⟨S1048576, .i1⟩
  | 93 => ⟨S1048576, .i1⟩
  | 94 => ⟨S_, .i32⟩
  | 95 => ⟨S_, .i32⟩
  | 96 => ⟨S_, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S_, .i32⟩
  | 103 => ⟨S_, .i32⟩
  | 104 => ⟨S_, .i32⟩
  | 105 => ⟨S1048576, .i32⟩
  | 106 => ⟨S1048576, .i32⟩
  | 107 => ⟨S_, .i32⟩
  | 108 => ⟨S1048576, .i32⟩
  | 109 => ⟨S1048576, .i32⟩
  | 110 => ⟨S_, .i32⟩
  | 111 => ⟨S_, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S_, .i32⟩
  | 126 => ⟨S1048576, .i32⟩
  | 127 => ⟨S1048576, .i1⟩
  | _ => ⟨S1048576x3, .f32⟩

abbrev hbmTy0_4 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i1⟩
  | 7 => ⟨S_, .i32⟩
  | 8 => ⟨S1048576, .i32⟩
  | 9 => ⟨S1048576, .i32⟩
  | 10 => ⟨S1048576, .i32⟩
  | 11 => ⟨S1048576x1, .i32⟩
  | 12 => ⟨S1048576x1, .i32⟩
  | 13 => ⟨S1048576x1, .i32⟩
  | 14 => ⟨S1048576x3, .i32⟩
  | 15 => ⟨S1048576x32, .f32⟩
  | 16 => ⟨S1048576, .f32⟩
  | 17 => ⟨S1048576, .f32⟩
  | 18 => ⟨S1048576x1, .f32⟩
  | 19 => ⟨S1048576x32, .f32⟩
  | 20 => ⟨S1048576x32, .f32⟩
  | 21 => ⟨S1048576x32, .f32⟩
  | 22 => ⟨S1048576, .f32⟩
  | 23 => ⟨S1048576, .f32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i1⟩
  | 30 => ⟨S1048576, .i1⟩
  | 31 => ⟨S_, .i32⟩
  | 32 => ⟨S1048576, .i32⟩
  | 33 => ⟨S1048576, .i1⟩
  | 34 => ⟨S1048576, .i1⟩
  | 35 => ⟨S_, .i32⟩
  | 36 => ⟨S1048576, .i32⟩
  | 37 => ⟨S1048576, .i1⟩
  | 38 => ⟨S1048576, .i1⟩
  | 39 => ⟨S_, .i32⟩
  | 40 => ⟨S1048576, .i32⟩
  | 41 => ⟨S1048576, .i1⟩
  | 42 => ⟨S1048576, .i1⟩
  | 43 => ⟨S_, .i32⟩
  | 44 => ⟨S1048576, .i32⟩
  | 45 => ⟨S1048576, .i1⟩
  | 46 => ⟨S1048576, .i1⟩
  | 47 => ⟨S_, .i32⟩
  | 48 => ⟨S_, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S_, .i32⟩
  | 56 => ⟨S_, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S_, .i32⟩
  | 64 => ⟨S_, .i32⟩
  | 65 => ⟨S_, .i32⟩
  | 66 => ⟨S1048576, .i32⟩
  | 67 => ⟨S1048576, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x1, .i32⟩
  | 95 => ⟨S1048576x3, .i32⟩
  | 96 => ⟨S1048576x32, .f32⟩
  | 97 => ⟨S1048576, .f32⟩
  | 98 => ⟨S1048576, .f32⟩
  | 99 => ⟨S1048576x1, .f32⟩
  | 100 => ⟨S1048576x32, .f32⟩
  | 101 => ⟨S1048576x32, .f32⟩
  | 102 => ⟨S1048576x32, .f32⟩
  | 103 => ⟨S1048576, .f32⟩
  | 104 => ⟨S1048576, .f32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i1⟩
  | 111 => ⟨S1048576, .i1⟩
  | 112 => ⟨S_, .i32⟩
  | 113 => ⟨S1048576, .i32⟩
  | 114 => ⟨S1048576, .i1⟩
  | 115 => ⟨S1048576, .i1⟩
  | 116 => ⟨S_, .i32⟩
  | 117 => ⟨S1048576, .i32⟩
  | 118 => ⟨S1048576, .i1⟩
  | 119 => ⟨S1048576, .i1⟩
  | 120 => ⟨S_, .i32⟩
  | 121 => ⟨S1048576, .i32⟩
  | 122 => ⟨S1048576, .i1⟩
  | 123 => ⟨S1048576, .i1⟩
  | 124 => ⟨S_, .i32⟩
  | 125 => ⟨S1048576, .i32⟩
  | 126 => ⟨S1048576, .i1⟩
  | 127 => ⟨S1048576, .i1⟩
  | _ => ⟨S1048576x3, .f32⟩

abbrev hbmTy0_5 (i : Nat) : BufTy := match i % 128 with
  | 0 => ⟨S_, .i32⟩
  | 1 => ⟨S_, .i32⟩
  | 2 => ⟨S_, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S_, .i32⟩
  | 9 => ⟨S_, .i32⟩
  | 10 => ⟨S_, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S_, .i32⟩
  | 17 => ⟨S_, .i32⟩
  | 18 => ⟨S_, .i32⟩
  | 19 => ⟨S1048576, .i32⟩
  | 20 => ⟨S1048576, .i32⟩
  | 21 => ⟨S_, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x1, .i32⟩
  | 48 => ⟨S1048576x3, .i32⟩
  | 49 => ⟨S1048576x32, .f32⟩
  | 50 => ⟨S1048576, .f32⟩
  | 51 => ⟨S1048576, .f32⟩
  | 52 => ⟨S1048576x1, .f32⟩
  | 53 => ⟨S1048576x32, .f32⟩
  | 54 => ⟨S1048576x32, .f32⟩
  | 55 => ⟨S1048576x32, .f32⟩
  | 56 => ⟨S1048576x128, .f32⟩
  | 57 => ⟨S1x128, .f32⟩
  | 58 => ⟨S1048576x128, .f32⟩
  | 59 => ⟨S1048576x128, .f32⟩
  | 60 => ⟨S_, .f32⟩
  | 61 => ⟨S1048576x128, .f32⟩
  | 62 => ⟨S1048576x128, .f32⟩
  | 63 => ⟨S1048576x128, .f32⟩
  | 64 => ⟨S1x128, .f32⟩
  | 65 => ⟨S1048576x128, .f32⟩
  | 66 => ⟨S1048576x128, .f32⟩
  | 67 => ⟨S_, .f32⟩
  | 68 => ⟨S1048576x128, .f32⟩
  | 69 => ⟨S1048576x128, .f32⟩
  | 70 => ⟨S1048576x1, .f32⟩
  | 71 => ⟨S1x1, .f32⟩
  | 72 => ⟨S1048576x1, .f32⟩
  | 73 => ⟨S1048576x1, .f32⟩
  | 74 => ⟨S1048576x1, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_c_13 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v52 : Ref sig .tc := ⟨.hbm, 81, rfl⟩
abbrev main_c_14 : Ref sig .tc := ⟨.hbm, 82, rfl⟩
abbrev main_c_15 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v53 : Ref sig .tc := ⟨.hbm, 89, rfl⟩
abbrev main_c_16 : Ref sig .tc := ⟨.hbm, 90, rfl⟩
abbrev main_c_17 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v54 : Ref sig .tc := ⟨.hbm, 97, rfl⟩
abbrev main_c_18 : Ref sig .tc := ⟨.hbm, 98, rfl⟩
abbrev main_v55 : Ref sig .tc := ⟨.hbm, 99, rfl⟩
abbrev main_v56 : Ref sig .tc := ⟨.hbm, 100, rfl⟩
abbrev main_c_19 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_20 : Ref sig .tc := ⟨.hbm, 105, rfl⟩
abbrev main_v60 : Ref sig .tc := ⟨.hbm, 106, rfl⟩
abbrev main_v61 : Ref sig .tc := ⟨.hbm, 107, rfl⟩
abbrev main_c_21 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_22 : Ref sig .tc := ⟨.hbm, 112, rfl⟩
abbrev main_v65 : Ref sig .tc := ⟨.hbm, 113, rfl⟩
abbrev main_v66 : Ref sig .tc := ⟨.hbm, 114, rfl⟩
abbrev main_c_23 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_24 : Ref sig .tc := ⟨.hbm, 131, rfl⟩
abbrev main_v82 : Ref sig .tc := ⟨.hbm, 132, rfl⟩
abbrev main_v83 : Ref sig .tc := ⟨.hbm, 133, rfl⟩
abbrev main_c_25 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_26 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_27 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_28 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_29 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_30 : Ref sig .tc := ⟨.hbm, 154, rfl⟩
abbrev main_c_31 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_v99 : Ref sig .tc := ⟨.hbm, 161, rfl⟩
abbrev main_c_32 : Ref sig .tc := ⟨.hbm, 162, rfl⟩
abbrev main_c_33 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v100 : Ref sig .tc := ⟨.hbm, 169, rfl⟩
abbrev main_c_34 : Ref sig .tc := ⟨.hbm, 170, rfl⟩
abbrev main_c_35 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_v101 : Ref sig .tc := ⟨.hbm, 177, rfl⟩
abbrev main_c_36 : Ref sig .tc := ⟨.hbm, 178, rfl⟩
abbrev main_v102 : Ref sig .tc := ⟨.hbm, 179, rfl⟩
abbrev main_v103 : Ref sig .tc := ⟨.hbm, 180, rfl⟩
abbrev main_c_37 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_c_38 : Ref sig .tc := ⟨.hbm, 185, rfl⟩
abbrev main_v107 : Ref sig .tc := ⟨.hbm, 186, rfl⟩
abbrev main_v108 : Ref sig .tc := ⟨.hbm, 187, rfl⟩
abbrev main_c_39 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_40 : Ref sig .tc := ⟨.hbm, 192, rfl⟩
abbrev main_v112 : Ref sig .tc := ⟨.hbm, 193, rfl⟩
abbrev main_v113 : Ref sig .tc := ⟨.hbm, 194, rfl⟩
abbrev main_c_41 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_c_42 : Ref sig .tc := ⟨.hbm, 212, rfl⟩
abbrev main_v130 : Ref sig .tc := ⟨.hbm, 213, rfl⟩
abbrev main_v131 : Ref sig .tc := ⟨.hbm, 214, rfl⟩
abbrev main_c_43 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_c_44 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_c_45 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_c_46 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_c_47 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_c_48 : Ref sig .tc := ⟨.hbm, 235, rfl⟩
abbrev main_c_49 : Ref sig .tc := ⟨.hbm, 236, rfl⟩
abbrev main_call6_v0 : Ref sig .tc := ⟨.hbm, 237, rfl⟩
abbrev main_call6_v1 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_v147 : Ref sig .tc := ⟨.hbm, 242, rfl⟩
abbrev main_c_50 : Ref sig .tc := ⟨.hbm, 243, rfl⟩
abbrev main_c_51 : Ref sig .tc := ⟨.hbm, 244, rfl⟩
abbrev main_call7_v0 : Ref sig .tc := ⟨.hbm, 245, rfl⟩
abbrev main_call7_v1 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_v148 : Ref sig .tc := ⟨.hbm, 250, rfl⟩
abbrev main_c_52 : Ref sig .tc := ⟨.hbm, 251, rfl⟩
abbrev main_c_53 : Ref sig .tc := ⟨.hbm, 252, rfl⟩
abbrev main_call8_v0 : Ref sig .tc := ⟨.hbm, 253, rfl⟩
abbrev main_call8_v1 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_v149 : Ref sig .tc := ⟨.hbm, 258, rfl⟩
abbrev main_c_54 : Ref sig .tc := ⟨.hbm, 259, rfl⟩
abbrev main_v150 : Ref sig .tc := ⟨.hbm, 260, rfl⟩
abbrev main_v151 : Ref sig .tc := ⟨.hbm, 261, rfl⟩
abbrev main_c_55 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_c_56 : Ref sig .tc := ⟨.hbm, 266, rfl⟩
abbrev main_v155 : Ref sig .tc := ⟨.hbm, 267, rfl⟩
abbrev main_v156 : Ref sig .tc := ⟨.hbm, 268, rfl⟩
abbrev main_c_57 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_c_58 : Ref sig .tc := ⟨.hbm, 273, rfl⟩
abbrev main_v160 : Ref sig .tc := ⟨.hbm, 274, rfl⟩
abbrev main_v161 : Ref sig .tc := ⟨.hbm, 275, rfl⟩
abbrev main_c_59 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_c_60 : Ref sig .tc := ⟨.hbm, 293, rfl⟩
abbrev main_v178 : Ref sig .tc := ⟨.hbm, 294, rfl⟩
abbrev main_v179 : Ref sig .tc := ⟨.hbm, 295, rfl⟩
abbrev main_c_61 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_c_62 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_c_63 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_c_64 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_c_65 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_c_66 : Ref sig .tc := ⟨.hbm, 316, rfl⟩
abbrev main_c_67 : Ref sig .tc := ⟨.hbm, 317, rfl⟩
abbrev main_call9_v0 : Ref sig .tc := ⟨.hbm, 318, rfl⟩
abbrev main_call9_v1 : Ref sig .tc := ⟨.hbm, 319, rfl⟩
abbrev main_call9_v2 : Ref sig .tc := ⟨.hbm, 320, rfl⟩
abbrev main_call9_v3 : Ref sig .tc := ⟨.hbm, 321, rfl⟩
abbrev main_call9_v4 : Ref sig .tc := ⟨.hbm, 322, rfl⟩
abbrev main_v195 : Ref sig .tc := ⟨.hbm, 323, rfl⟩
abbrev main_c_68 : Ref sig .tc := ⟨.hbm, 324, rfl⟩
abbrev main_c_69 : Ref sig .tc := ⟨.hbm, 325, rfl⟩
abbrev main_call10_v0 : Ref sig .tc := ⟨.hbm, 326, rfl⟩
abbrev main_call10_v1 : Ref sig .tc := ⟨.hbm, 327, rfl⟩
abbrev main_call10_v2 : Ref sig .tc := ⟨.hbm, 328, rfl⟩
abbrev main_call10_v3 : Ref sig .tc := ⟨.hbm, 329, rfl⟩
abbrev main_call10_v4 : Ref sig .tc := ⟨.hbm, 330, rfl⟩
abbrev main_v196 : Ref sig .tc := ⟨.hbm, 331, rfl⟩
abbrev main_c_70 : Ref sig .tc := ⟨.hbm, 332, rfl⟩
abbrev main_c_71 : Ref sig .tc := ⟨.hbm, 333, rfl⟩
abbrev main_call11_v0 : Ref sig .tc := ⟨.hbm, 334, rfl⟩
abbrev main_call11_v1 : Ref sig .tc := ⟨.hbm, 335, rfl⟩
abbrev main_call11_v2 : Ref sig .tc := ⟨.hbm, 336, rfl⟩
abbrev main_call11_v3 : Ref sig .tc := ⟨.hbm, 337, rfl⟩
abbrev main_call11_v4 : Ref sig .tc := ⟨.hbm, 338, rfl⟩
abbrev main_v197 : Ref sig .tc := ⟨.hbm, 339, rfl⟩
abbrev main_c_72 : Ref sig .tc := ⟨.hbm, 340, rfl⟩
abbrev main_v198 : Ref sig .tc := ⟨.hbm, 341, rfl⟩
abbrev main_v199 : Ref sig .tc := ⟨.hbm, 342, rfl⟩
abbrev main_c_73 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_c_74 : Ref sig .tc := ⟨.hbm, 347, rfl⟩
abbrev main_v203 : Ref sig .tc := ⟨.hbm, 348, rfl⟩
abbrev main_v204 : Ref sig .tc := ⟨.hbm, 349, rfl⟩
abbrev main_c_75 : Ref sig .tc := ⟨.hbm, 350, rfl⟩
abbrev main_v205 : Ref sig .tc := ⟨.hbm, 351, rfl⟩
abbrev main_v206 : Ref sig .tc := ⟨.hbm, 352, rfl⟩
abbrev main_v207 : Ref sig .tc := ⟨.hbm, 353, rfl⟩
abbrev main_c_76 : Ref sig .tc := ⟨.hbm, 354, rfl⟩
abbrev main_v208 : Ref sig .tc := ⟨.hbm, 355, rfl⟩
abbrev main_v209 : Ref sig .tc := ⟨.hbm, 356, rfl⟩
abbrev main_c_77 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_v225 : Ref sig .tc := ⟨.hbm, 373, rfl⟩
abbrev main_c_78 : Ref sig .tc := ⟨.hbm, 374, rfl⟩
abbrev main_v226 : Ref sig .tc := ⟨.hbm, 375, rfl⟩
abbrev main_v227 : Ref sig .tc := ⟨.hbm, 376, rfl⟩
abbrev main_c_79 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_c_80 : Ref sig .tc := ⟨.hbm, 381, rfl⟩
abbrev main_v231 : Ref sig .tc := ⟨.hbm, 382, rfl⟩
abbrev main_v232 : Ref sig .tc := ⟨.hbm, 383, rfl⟩
abbrev main_v233 : Ref sig .tc := ⟨.hbm, 384, rfl⟩
abbrev main_c_81 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_c_82 : Ref sig .tc := ⟨.hbm, 389, rfl⟩
abbrev main_v237 : Ref sig .tc := ⟨.hbm, 390, rfl⟩
abbrev main_v238 : Ref sig .tc := ⟨.hbm, 391, rfl⟩
abbrev main_v239 : Ref sig .tc := ⟨.hbm, 392, rfl⟩
abbrev main_c_83 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_c_84 : Ref sig .tc := ⟨.hbm, 397, rfl⟩
abbrev main_c_85 : Ref sig .tc := ⟨.hbm, 398, rfl⟩
abbrev main_call12_v0 : Ref sig .tc := ⟨.hbm, 399, rfl⟩
abbrev main_call12_v1 : Ref sig .tc := ⟨.hbm, 400, rfl⟩
abbrev main_call12_v2 : Ref sig .tc := ⟨.hbm, 401, rfl⟩
abbrev main_call12_v3 : Ref sig .tc := ⟨.hbm, 402, rfl⟩
abbrev main_call12_v4 : Ref sig .tc := ⟨.hbm, 403, rfl⟩
abbrev main_v243 : Ref sig .tc := ⟨.hbm, 404, rfl⟩
abbrev main_c_86 : Ref sig .tc := ⟨.hbm, 405, rfl⟩
abbrev main_c_87 : Ref sig .tc := ⟨.hbm, 406, rfl⟩
abbrev main_call13_v0 : Ref sig .tc := ⟨.hbm, 407, rfl⟩
abbrev main_call13_v1 : Ref sig .tc := ⟨.hbm, 408, rfl⟩
abbrev main_call13_v2 : Ref sig .tc := ⟨.hbm, 409, rfl⟩
abbrev main_call13_v3 : Ref sig .tc := ⟨.hbm, 410, rfl⟩
abbrev main_call13_v4 : Ref sig .tc := ⟨.hbm, 411, rfl⟩
abbrev main_v244 : Ref sig .tc := ⟨.hbm, 412, rfl⟩
abbrev main_c_88 : Ref sig .tc := ⟨.hbm, 413, rfl⟩
abbrev main_c_89 : Ref sig .tc := ⟨.hbm, 414, rfl⟩
abbrev main_call14_v0 : Ref sig .tc := ⟨.hbm, 415, rfl⟩
abbrev main_call14_v1 : Ref sig .tc := ⟨.hbm, 416, rfl⟩
abbrev main_call14_v2 : Ref sig .tc := ⟨.hbm, 417, rfl⟩
abbrev main_call14_v3 : Ref sig .tc := ⟨.hbm, 418, rfl⟩
abbrev main_call14_v4 : Ref sig .tc := ⟨.hbm, 419, rfl⟩
abbrev main_v245 : Ref sig .tc := ⟨.hbm, 420, rfl⟩
abbrev main_c_90 : Ref sig .tc := ⟨.hbm, 421, rfl⟩
abbrev main_v246 : Ref sig .tc := ⟨.hbm, 422, rfl⟩
abbrev main_v247 : Ref sig .tc := ⟨.hbm, 423, rfl⟩
abbrev main_c_91 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_c_92 : Ref sig .tc := ⟨.hbm, 428, rfl⟩
abbrev main_v251 : Ref sig .tc := ⟨.hbm, 429, rfl⟩
abbrev main_v252 : Ref sig .tc := ⟨.hbm, 430, rfl⟩
abbrev main_c_93 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_c_94 : Ref sig .tc := ⟨.hbm, 435, rfl⟩
abbrev main_v256 : Ref sig .tc := ⟨.hbm, 436, rfl⟩
abbrev main_v257 : Ref sig .tc := ⟨.hbm, 437, rfl⟩
abbrev main_c_95 : Ref sig .tc := ⟨.hbm, 438, rfl⟩
abbrev main_v258 : Ref sig .tc := ⟨.hbm, 439, rfl⟩
abbrev main_v259 : Ref sig .tc := ⟨.hbm, 440, rfl⟩
abbrev main_v260 : Ref sig .tc := ⟨.hbm, 441, rfl⟩
abbrev main_v261 : Ref sig .tc := ⟨.hbm, 442, rfl⟩
abbrev main_v262 : Ref sig .tc := ⟨.hbm, 443, rfl⟩
abbrev main_v263 : Ref sig .tc := ⟨.hbm, 444, rfl⟩
abbrev main_v264 : Ref sig .tc := ⟨.hbm, 445, rfl⟩
abbrev main_v265 : Ref sig .tc := ⟨.hbm, 446, rfl⟩
abbrev main_v266 : Ref sig .tc := ⟨.hbm, 447, rfl⟩
abbrev main_v267 : Ref sig .tc := ⟨.hbm, 448, rfl⟩
abbrev main_v268 : Ref sig .tc := ⟨.hbm, 449, rfl⟩
abbrev main_v269 : Ref sig .tc := ⟨.hbm, 450, rfl⟩
abbrev main_v270 : Ref sig .tc := ⟨.hbm, 451, rfl⟩
abbrev main_v271 : Ref sig .tc := ⟨.hbm, 452, rfl⟩
abbrev main_v272 : Ref sig .tc := ⟨.hbm, 453, rfl⟩
abbrev main_v273 : Ref sig .tc := ⟨.hbm, 454, rfl⟩
abbrev main_c_96 : Ref sig .tc := ⟨.hbm, 455, rfl⟩
abbrev main_v274 : Ref sig .tc := ⟨.hbm, 456, rfl⟩
abbrev main_v275 : Ref sig .tc := ⟨.hbm, 457, rfl⟩
abbrev main_c_97 : Ref sig .tc := ⟨.hbm, 458, rfl⟩
abbrev main_v276 : Ref sig .tc := ⟨.hbm, 459, rfl⟩
abbrev main_v277 : Ref sig .tc := ⟨.hbm, 460, rfl⟩
abbrev main_v278 : Ref sig .tc := ⟨.hbm, 461, rfl⟩
abbrev main_c_98 : Ref sig .tc := ⟨.hbm, 462, rfl⟩
abbrev main_v279 : Ref sig .tc := ⟨.hbm, 463, rfl⟩
abbrev main_v280 : Ref sig .tc := ⟨.hbm, 464, rfl⟩
abbrev main_v281 : Ref sig .tc := ⟨.hbm, 465, rfl⟩
abbrev main_c_99 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_c_100 : Ref sig .tc := ⟨.hbm, 470, rfl⟩
abbrev main_v285 : Ref sig .tc := ⟨.hbm, 471, rfl⟩
abbrev main_v286 : Ref sig .tc := ⟨.hbm, 472, rfl⟩
abbrev main_v287 : Ref sig .tc := ⟨.hbm, 473, rfl⟩
abbrev main_c_101 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_c_102 : Ref sig .tc := ⟨.hbm, 478, rfl⟩
abbrev main_c_103 : Ref sig .tc := ⟨.hbm, 479, rfl⟩
abbrev main_call15_v0 : Ref sig .tc := ⟨.hbm, 480, rfl⟩
abbrev main_call15_v1 : Ref sig .tc := ⟨.hbm, 481, rfl⟩
abbrev main_call15_v2 : Ref sig .tc := ⟨.hbm, 482, rfl⟩
abbrev main_call15_v3 : Ref sig .tc := ⟨.hbm, 483, rfl⟩
abbrev main_call15_v4 : Ref sig .tc := ⟨.hbm, 484, rfl⟩
abbrev main_v291 : Ref sig .tc := ⟨.hbm, 485, rfl⟩
abbrev main_c_104 : Ref sig .tc := ⟨.hbm, 486, rfl⟩
abbrev main_c_105 : Ref sig .tc := ⟨.hbm, 487, rfl⟩
abbrev main_call16_v0 : Ref sig .tc := ⟨.hbm, 488, rfl⟩
abbrev main_call16_v1 : Ref sig .tc := ⟨.hbm, 489, rfl⟩
abbrev main_call16_v2 : Ref sig .tc := ⟨.hbm, 490, rfl⟩
abbrev main_call16_v3 : Ref sig .tc := ⟨.hbm, 491, rfl⟩
abbrev main_call16_v4 : Ref sig .tc := ⟨.hbm, 492, rfl⟩
abbrev main_v292 : Ref sig .tc := ⟨.hbm, 493, rfl⟩
abbrev main_c_106 : Ref sig .tc := ⟨.hbm, 494, rfl⟩
abbrev main_c_107 : Ref sig .tc := ⟨.hbm, 495, rfl⟩
abbrev main_call17_v0 : Ref sig .tc := ⟨.hbm, 496, rfl⟩
abbrev main_call17_v1 : Ref sig .tc := ⟨.hbm, 497, rfl⟩
abbrev main_call17_v2 : Ref sig .tc := ⟨.hbm, 498, rfl⟩
abbrev main_call17_v3 : Ref sig .tc := ⟨.hbm, 499, rfl⟩
abbrev main_call17_v4 : Ref sig .tc := ⟨.hbm, 500, rfl⟩
abbrev main_v293 : Ref sig .tc := ⟨.hbm, 501, rfl⟩
abbrev main_c_108 : Ref sig .tc := ⟨.hbm, 502, rfl⟩
abbrev main_v294 : Ref sig .tc := ⟨.hbm, 503, rfl⟩
abbrev main_v295 : Ref sig .tc := ⟨.hbm, 504, rfl⟩
abbrev main_c_109 : Ref sig .tc := ⟨.hbm, 505, rfl⟩
abbrev main_v296 : Ref sig .tc := ⟨.hbm, 506, rfl⟩
abbrev main_v297 : Ref sig .tc := ⟨.hbm, 507, rfl⟩
abbrev main_v298 : Ref sig .tc := ⟨.hbm, 508, rfl⟩
abbrev main_c_110 : Ref sig .tc := ⟨.hbm, 509, rfl⟩
abbrev main_v299 : Ref sig .tc := ⟨.hbm, 510, rfl⟩
abbrev main_v300 : Ref sig .tc := ⟨.hbm, 511, rfl⟩
abbrev main_c_111 : Ref sig .tc := ⟨.hbm, 512, rfl⟩
abbrev main_v301 : Ref sig .tc := ⟨.hbm, 513, rfl⟩
abbrev main_v302 : Ref sig .tc := ⟨.hbm, 514, rfl⟩
abbrev main_v303 : Ref sig .tc := ⟨.hbm, 515, rfl⟩
abbrev main_c_112 : Ref sig .tc := ⟨.hbm, 516, rfl⟩
abbrev main_v304 : Ref sig .tc := ⟨.hbm, 517, rfl⟩
abbrev main_v305 : Ref sig .tc := ⟨.hbm, 518, rfl⟩
abbrev main_c_113 : Ref sig .tc := ⟨.hbm, 519, rfl⟩
abbrev main_v306 : Ref sig .tc := ⟨.hbm, 520, rfl⟩
abbrev main_v307 : Ref sig .tc := ⟨.hbm, 521, rfl⟩
abbrev main_v308 : Ref sig .tc := ⟨.hbm, 522, rfl⟩
abbrev main_v309 : Ref sig .tc := ⟨.hbm, 523, rfl⟩
abbrev main_v310 : Ref sig .tc := ⟨.hbm, 524, rfl⟩
abbrev main_v311 : Ref sig .tc := ⟨.hbm, 525, rfl⟩
abbrev main_v312 : Ref sig .tc := ⟨.hbm, 526, rfl⟩
abbrev main_v313 : Ref sig .tc := ⟨.hbm, 527, rfl⟩
abbrev main_v314 : Ref sig .tc := ⟨.hbm, 528, rfl⟩
abbrev main_v315 : Ref sig .tc := ⟨.hbm, 529, rfl⟩
abbrev main_v316 : Ref sig .tc := ⟨.hbm, 530, rfl⟩
abbrev main_v317 : Ref sig .tc := ⟨.hbm, 531, rfl⟩
abbrev main_v318 : Ref sig .tc := ⟨.hbm, 532, rfl⟩
abbrev main_v319 : Ref sig .tc := ⟨.hbm, 533, rfl⟩
abbrev main_v320 : Ref sig .tc := ⟨.hbm, 534, rfl⟩
abbrev main_v321 : Ref sig .tc := ⟨.hbm, 535, rfl⟩
abbrev main_c_114 : Ref sig .tc := ⟨.hbm, 536, rfl⟩
abbrev main_v322 : Ref sig .tc := ⟨.hbm, 537, rfl⟩
abbrev main_v323 : Ref sig .tc := ⟨.hbm, 538, rfl⟩
abbrev main_c_115 : Ref sig .tc := ⟨.hbm, 539, rfl⟩
abbrev main_v324 : Ref sig .tc := ⟨.hbm, 540, rfl⟩
abbrev main_v325 : Ref sig .tc := ⟨.hbm, 541, rfl⟩
abbrev main_v326 : Ref sig .tc := ⟨.hbm, 542, rfl⟩
abbrev main_c_116 : Ref sig .tc := ⟨.hbm, 543, rfl⟩
abbrev main_v327 : Ref sig .tc := ⟨.hbm, 544, rfl⟩
abbrev main_v328 : Ref sig .tc := ⟨.hbm, 545, rfl⟩
abbrev main_v329 : Ref sig .tc := ⟨.hbm, 546, rfl⟩
abbrev main_c_117 : Ref sig .tc := ⟨.hbm, 547, rfl⟩
abbrev main_v330 : Ref sig .tc := ⟨.hbm, 548, rfl⟩
abbrev main_v331 : Ref sig .tc := ⟨.hbm, 549, rfl⟩
abbrev main_v332 : Ref sig .tc := ⟨.hbm, 550, rfl⟩
abbrev main_c_118 : Ref sig .tc := ⟨.hbm, 551, rfl⟩
abbrev main_v333 : Ref sig .tc := ⟨.hbm, 552, rfl⟩
abbrev main_v334 : Ref sig .tc := ⟨.hbm, 553, rfl⟩
abbrev main_v335 : Ref sig .tc := ⟨.hbm, 554, rfl⟩
abbrev main_c_119 : Ref sig .tc := ⟨.hbm, 555, rfl⟩
abbrev main_v336 : Ref sig .tc := ⟨.hbm, 556, rfl⟩
abbrev main_v337 : Ref sig .tc := ⟨.hbm, 557, rfl⟩
abbrev main_v338 : Ref sig .tc := ⟨.hbm, 558, rfl⟩
abbrev main_c_120 : Ref sig .tc := ⟨.hbm, 559, rfl⟩
abbrev main_c_121 : Ref sig .tc := ⟨.hbm, 560, rfl⟩
abbrev main_call18_v0 : Ref sig .tc := ⟨.hbm, 561, rfl⟩
abbrev main_call18_v1 : Ref sig .tc := ⟨.hbm, 562, rfl⟩
abbrev main_call18_v2 : Ref sig .tc := ⟨.hbm, 563, rfl⟩
abbrev main_call18_v3 : Ref sig .tc := ⟨.hbm, 564, rfl⟩
abbrev main_call18_v4 : Ref sig .tc := ⟨.hbm, 565, rfl⟩
abbrev main_v339 : Ref sig .tc := ⟨.hbm, 566, rfl⟩
abbrev main_c_122 : Ref sig .tc := ⟨.hbm, 567, rfl⟩
abbrev main_c_123 : Ref sig .tc := ⟨.hbm, 568, rfl⟩
abbrev main_call19_v0 : Ref sig .tc := ⟨.hbm, 569, rfl⟩
abbrev main_call19_v1 : Ref sig .tc := ⟨.hbm, 570, rfl⟩
abbrev main_call19_v2 : Ref sig .tc := ⟨.hbm, 571, rfl⟩
abbrev main_call19_v3 : Ref sig .tc := ⟨.hbm, 572, rfl⟩
abbrev main_call19_v4 : Ref sig .tc := ⟨.hbm, 573, rfl⟩
abbrev main_v340 : Ref sig .tc := ⟨.hbm, 574, rfl⟩
abbrev main_c_124 : Ref sig .tc := ⟨.hbm, 575, rfl⟩
abbrev main_c_125 : Ref sig .tc := ⟨.hbm, 576, rfl⟩
abbrev main_call20_v0 : Ref sig .tc := ⟨.hbm, 577, rfl⟩
abbrev main_call20_v1 : Ref sig .tc := ⟨.hbm, 578, rfl⟩
abbrev main_call20_v2 : Ref sig .tc := ⟨.hbm, 579, rfl⟩
abbrev main_call20_v3 : Ref sig .tc := ⟨.hbm, 580, rfl⟩
abbrev main_call20_v4 : Ref sig .tc := ⟨.hbm, 581, rfl⟩
abbrev main_v341 : Ref sig .tc := ⟨.hbm, 582, rfl⟩
abbrev main_c_126 : Ref sig .tc := ⟨.hbm, 583, rfl⟩
abbrev main_v342 : Ref sig .tc := ⟨.hbm, 584, rfl⟩
abbrev main_v343 : Ref sig .tc := ⟨.hbm, 585, rfl⟩
abbrev main_c_127 : Ref sig .tc := ⟨.hbm, 586, rfl⟩
abbrev main_v344 : Ref sig .tc := ⟨.hbm, 587, rfl⟩
abbrev main_v345 : Ref sig .tc := ⟨.hbm, 588, rfl⟩
abbrev main_v346 : Ref sig .tc := ⟨.hbm, 589, rfl⟩
abbrev main_c_128 : Ref sig .tc := ⟨.hbm, 590, rfl⟩
abbrev main_v347 : Ref sig .tc := ⟨.hbm, 591, rfl⟩
abbrev main_v348 : Ref sig .tc := ⟨.hbm, 592, rfl⟩
abbrev main_c_129 : Ref sig .tc := ⟨.hbm, 593, rfl⟩
abbrev main_v349 : Ref sig .tc := ⟨.hbm, 594, rfl⟩
abbrev main_v350 : Ref sig .tc := ⟨.hbm, 595, rfl⟩
abbrev main_v351 : Ref sig .tc := ⟨.hbm, 596, rfl⟩
abbrev main_c_130 : Ref sig .tc := ⟨.hbm, 597, rfl⟩
abbrev main_v352 : Ref sig .tc := ⟨.hbm, 598, rfl⟩
abbrev main_v353 : Ref sig .tc := ⟨.hbm, 599, rfl⟩
abbrev main_c_131 : Ref sig .tc := ⟨.hbm, 600, rfl⟩
abbrev main_v354 : Ref sig .tc := ⟨.hbm, 601, rfl⟩
abbrev main_v355 : Ref sig .tc := ⟨.hbm, 602, rfl⟩
abbrev main_v356 : Ref sig .tc := ⟨.hbm, 603, rfl⟩
abbrev main_v357 : Ref sig .tc := ⟨.hbm, 604, rfl⟩
abbrev main_v358 : Ref sig .tc := ⟨.hbm, 605, rfl⟩
abbrev main_v359 : Ref sig .tc := ⟨.hbm, 606, rfl⟩
abbrev main_v360 : Ref sig .tc := ⟨.hbm, 607, rfl⟩
abbrev main_v361 : Ref sig .tc := ⟨.hbm, 608, rfl⟩
abbrev main_v362 : Ref sig .tc := ⟨.hbm, 609, rfl⟩
abbrev main_v363 : Ref sig .tc := ⟨.hbm, 610, rfl⟩
abbrev main_v364 : Ref sig .tc := ⟨.hbm, 611, rfl⟩
abbrev main_v365 : Ref sig .tc := ⟨.hbm, 612, rfl⟩
abbrev main_v366 : Ref sig .tc := ⟨.hbm, 613, rfl⟩
abbrev main_v367 : Ref sig .tc := ⟨.hbm, 614, rfl⟩
abbrev main_v368 : Ref sig .tc := ⟨.hbm, 615, rfl⟩
abbrev main_v369 : Ref sig .tc := ⟨.hbm, 616, rfl⟩
abbrev main_c_132 : Ref sig .tc := ⟨.hbm, 617, rfl⟩
abbrev main_v370 : Ref sig .tc := ⟨.hbm, 618, rfl⟩
abbrev main_v371 : Ref sig .tc := ⟨.hbm, 619, rfl⟩
abbrev main_c_133 : Ref sig .tc := ⟨.hbm, 620, rfl⟩
abbrev main_v372 : Ref sig .tc := ⟨.hbm, 621, rfl⟩
abbrev main_v373 : Ref sig .tc := ⟨.hbm, 622, rfl⟩
abbrev main_v374 : Ref sig .tc := ⟨.hbm, 623, rfl⟩
abbrev main_c_134 : Ref sig .tc := ⟨.hbm, 624, rfl⟩
abbrev main_v375 : Ref sig .tc := ⟨.hbm, 625, rfl⟩
abbrev main_v376 : Ref sig .tc := ⟨.hbm, 626, rfl⟩
abbrev main_v377 : Ref sig .tc := ⟨.hbm, 627, rfl⟩
abbrev main_c_135 : Ref sig .tc := ⟨.hbm, 628, rfl⟩
abbrev main_v378 : Ref sig .tc := ⟨.hbm, 629, rfl⟩
abbrev main_v379 : Ref sig .tc := ⟨.hbm, 630, rfl⟩
abbrev main_v380 : Ref sig .tc := ⟨.hbm, 631, rfl⟩
abbrev main_c_136 : Ref sig .tc := ⟨.hbm, 632, rfl⟩
abbrev main_v381 : Ref sig .tc := ⟨.hbm, 633, rfl⟩
abbrev main_v382 : Ref sig .tc := ⟨.hbm, 634, rfl⟩
abbrev main_v383 : Ref sig .tc := ⟨.hbm, 635, rfl⟩
abbrev main_c_137 : Ref sig .tc := ⟨.hbm, 636, rfl⟩
abbrev main_v384 : Ref sig .tc := ⟨.hbm, 637, rfl⟩
abbrev main_v385 : Ref sig .tc := ⟨.hbm, 638, rfl⟩
abbrev main_v386 : Ref sig .tc := ⟨.hbm, 639, rfl⟩
abbrev main_c_138 : Ref sig .tc := ⟨.hbm, 640, rfl⟩
abbrev main_c_139 : Ref sig .tc := ⟨.hbm, 641, rfl⟩
abbrev main_call21_v0 : Ref sig .tc := ⟨.hbm, 642, rfl⟩
abbrev main_call21_v1 : Ref sig .tc := ⟨.hbm, 643, rfl⟩
abbrev main_call21_v2 : Ref sig .tc := ⟨.hbm, 644, rfl⟩
abbrev main_call21_v3 : Ref sig .tc := ⟨.hbm, 645, rfl⟩
abbrev main_call21_v4 : Ref sig .tc := ⟨.hbm, 646, rfl⟩
abbrev main_v387 : Ref sig .tc := ⟨.hbm, 647, rfl⟩
abbrev main_c_140 : Ref sig .tc := ⟨.hbm, 648, rfl⟩
abbrev main_c_141 : Ref sig .tc := ⟨.hbm, 649, rfl⟩
abbrev main_call22_v0 : Ref sig .tc := ⟨.hbm, 650, rfl⟩
abbrev main_call22_v1 : Ref sig .tc := ⟨.hbm, 651, rfl⟩
abbrev main_call22_v2 : Ref sig .tc := ⟨.hbm, 652, rfl⟩
abbrev main_call22_v3 : Ref sig .tc := ⟨.hbm, 653, rfl⟩
abbrev main_call22_v4 : Ref sig .tc := ⟨.hbm, 654, rfl⟩
abbrev main_v388 : Ref sig .tc := ⟨.hbm, 655, rfl⟩
abbrev main_c_142 : Ref sig .tc := ⟨.hbm, 656, rfl⟩
abbrev main_c_143 : Ref sig .tc := ⟨.hbm, 657, rfl⟩
abbrev main_call23_v0 : Ref sig .tc := ⟨.hbm, 658, rfl⟩
abbrev main_call23_v1 : Ref sig .tc := ⟨.hbm, 659, rfl⟩
abbrev main_call23_v2 : Ref sig .tc := ⟨.hbm, 660, rfl⟩
abbrev main_call23_v3 : Ref sig .tc := ⟨.hbm, 661, rfl⟩
abbrev main_call23_v4 : Ref sig .tc := ⟨.hbm, 662, rfl⟩
abbrev main_v389 : Ref sig .tc := ⟨.hbm, 663, rfl⟩
abbrev main_c_144 : Ref sig .tc := ⟨.hbm, 664, rfl⟩
abbrev main_v390 : Ref sig .tc := ⟨.hbm, 665, rfl⟩
abbrev main_v391 : Ref sig .tc := ⟨.hbm, 666, rfl⟩
abbrev main_c_145 : Ref sig .tc := ⟨.hbm, 667, rfl⟩
abbrev main_v392 : Ref sig .tc := ⟨.hbm, 668, rfl⟩
abbrev main_v393 : Ref sig .tc := ⟨.hbm, 669, rfl⟩
abbrev main_v394 : Ref sig .tc := ⟨.hbm, 670, rfl⟩
abbrev main_c_146 : Ref sig .tc := ⟨.hbm, 671, rfl⟩
abbrev main_v395 : Ref sig .tc := ⟨.hbm, 672, rfl⟩
abbrev main_v396 : Ref sig .tc := ⟨.hbm, 673, rfl⟩
abbrev main_c_147 : Ref sig .tc := ⟨.hbm, 674, rfl⟩
abbrev main_v397 : Ref sig .tc := ⟨.hbm, 675, rfl⟩
abbrev main_v398 : Ref sig .tc := ⟨.hbm, 676, rfl⟩
abbrev main_v399 : Ref sig .tc := ⟨.hbm, 677, rfl⟩
abbrev main_c_148 : Ref sig .tc := ⟨.hbm, 678, rfl⟩
abbrev main_v400 : Ref sig .tc := ⟨.hbm, 679, rfl⟩
abbrev main_v401 : Ref sig .tc := ⟨.hbm, 680, rfl⟩
abbrev main_c_149 : Ref sig .tc := ⟨.hbm, 681, rfl⟩
abbrev main_v402 : Ref sig .tc := ⟨.hbm, 682, rfl⟩
abbrev main_v403 : Ref sig .tc := ⟨.hbm, 683, rfl⟩
abbrev main_v404 : Ref sig .tc := ⟨.hbm, 684, rfl⟩
abbrev main_v405 : Ref sig .tc := ⟨.hbm, 685, rfl⟩
abbrev main_v406 : Ref sig .tc := ⟨.hbm, 686, rfl⟩
abbrev main_v407 : Ref sig .tc := ⟨.hbm, 687, rfl⟩
abbrev main_v408 : Ref sig .tc := ⟨.hbm, 688, rfl⟩
abbrev main_v409 : Ref sig .tc := ⟨.hbm, 689, rfl⟩
abbrev main_v410 : Ref sig .tc := ⟨.hbm, 690, rfl⟩
abbrev main_v411 : Ref sig .tc := ⟨.hbm, 691, rfl⟩
abbrev main_v412 : Ref sig .tc := ⟨.hbm, 692, rfl⟩
abbrev main_v413 : Ref sig .tc := ⟨.hbm, 693, rfl⟩
abbrev main_v414 : Ref sig .tc := ⟨.hbm, 694, rfl⟩
abbrev main_v415 : Ref sig .tc := ⟨.hbm, 695, rfl⟩
abbrev main_v416 : Ref sig .tc := ⟨.hbm, 696, rfl⟩
abbrev main_v417 : Ref sig .tc := ⟨.hbm, 697, rfl⟩
abbrev main_v418 : Ref sig .tc := ⟨.hbm, 698, rfl⟩
abbrev main_v419 : Ref sig .tc := ⟨.hbm, 699, rfl⟩
abbrev main_call24_cst : Ref sig .tc := ⟨.hbm, 700, rfl⟩
abbrev main_call24_v0 : Ref sig .tc := ⟨.hbm, 701, rfl⟩
abbrev main_v420 : Ref sig .tc := ⟨.hbm, 702, rfl⟩
abbrev main_v421 : Ref sig .tc := ⟨.hbm, 703, rfl⟩
abbrev main_v422 : Ref sig .tc := ⟨.hbm, 704, rfl⟩
abbrev main_v423 : Ref sig .tc := ⟨.hbm, 705, rfl⟩
abbrev main_v424 : Ref sig .tc := ⟨.hbm, 706, rfl⟩
abbrev main_call25_cst : Ref sig .tc := ⟨.hbm, 707, rfl⟩
abbrev main_call25_v0 : Ref sig .tc := ⟨.hbm, 708, rfl⟩
abbrev main_v425 : Ref sig .tc := ⟨.hbm, 709, rfl⟩
abbrev main_v426 : Ref sig .tc := ⟨.hbm, 710, rfl⟩
abbrev main_v427 : Ref sig .tc := ⟨.hbm, 711, rfl⟩
abbrev main_v428 : Ref sig .tc := ⟨.hbm, 712, rfl⟩
abbrev main_v429 : Ref sig .tc := ⟨.hbm, 713, rfl⟩
abbrev main_v430 : Ref sig .tc := ⟨.hbm, 714, rfl⟩

abbrev nD : Nat := 1
abbrev τ : Topo := Topo.v7x

variable {F : FTy → Type} [FloatOps F]

class Facts₀ : Prop where
  shapeCasts_S35937x32_S32x33x33x33 : S35937x32.ShapeCasts S32x33x33x33
  transposes_S32x33x33x33_S33x33x33x32_1_2_3_0 : S32x33x33x33.Transposes [1, 2, 3, 0] S33x33x33x32
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576x1_S1048576x32_0_1 : S1048576x1.BroadcastsInDim S1048576x32 (![0, 1] : Fin 2 → Fin S1048576x32.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  gather_S33x33x33x32_S1048576x3_S1048576x32_1_012_n_n_012_1_11132_wf : GatherDims.WF S33x33x33x32 S1048576x3 S1048576x32 [1] [0, 1, 2] [] [0, 1, 2] [] 1 ![1, 1, 1, 32]
  dot_S1048576x32_S32x128_S1048576x128_1_0_0_1_n_n_wf : DotDims.WF S1048576x32 S32x128 S1048576x128 [1] [0] [0] [1] [] []
  dot_S1048576x128_S128x128_S1048576x128_1_0_0_1_n_n_wf : DotDims.WF S1048576x128 S128x128 S1048576x128 [1] [0] [0] [1] [] []
  dot_S1048576x128_S128x1_S1048576x1_1_0_0_1_n_n_wf : DotDims.WF S1048576x128 S128x1 S1048576x1 [1] [0] [0] [1] [] []

variable [Facts₀]

def gather_S33x33x33x32_S1048576x3_S1048576x32_1_012_n_n_012_1_11132 : GatherDims S33x33x33x32 S1048576x3 S1048576x32 where
  offsetDims := [1]
  collapsedSliceDims := [0, 1, 2]
  operandBatchingDims := []
  startIndicesBatchingDims := []
  startIndexMap := [0, 1, 2]
  indexVectorDim := 1
  sliceSizes := ![1, 1, 1, 32]
  wf := gather_S33x33x33x32_S1048576x3_S1048576x32_1_012_n_n_012_1_11132_wf
def dot_S1048576x32_S32x128_S1048576x128_1_0_0_1_n_n : DotDims S1048576x32 S32x128 S1048576x128 where
  lhsContracting := [1]
  rhsContracting := [0]
  lhsNonContracting := [0]
  rhsNonContracting := [1]
  lhsBatch := []
  rhsBatch := []
  wf := dot_S1048576x32_S32x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf

class Facts : Prop extends Facts₀ where

variable [Facts]
-- ==== Proof.EntryK.lean ====
/-
  Where the region of `Kernel` finds its arrays. Before its one region @main runs forty-nine stretches of host
  operations (the trilinear sample of the embedding grid at the points, the cast of the sampled rows, and the two
  re-laid weights); after it, one (the re-lay of the [8192, 128] result as a column). `V0 m c` is core `c`'s buffer
  contents when the region is entered: the launch memory `m` folded through those forty-nine stretches, in order.
-/
import proofs.«132478_j19215683682576_2_alg».proof.Proof.LaunchKP

noncomputable section

namespace Cert.Kernel.Hand

open Idealize.ShloMosaic Idealize.ShloMosaic.TcCoe
open Idealize.SL Idealize.SL.Sem
open Cert.Kernel Cert.Kernel.Gen

variable {F : FTy → Type} [FloatOps F]

/-- The stretches of host operations @main runs before the region, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]

variable (m : (ℓ : Loc nD τ sig) → Buf (Elt F) ℓ)

/-- Core `c`'s TensorCore buffer contents when the region is entered, as a valuation. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.HostLinesK.lean ====
/-
  The host lines of `Kernel`'s @main around its one region. None of them allocates a buffer, each touches TensorCore
  references only, and the one line after the region (the re-lay of the result) writes no array the region's
  windows stage. With these, @main reduces to: the forty-nine stretches before the region (leaving core `c`'s
  buffers at `V0 m c`), the region, and the last line.
-/
import proofs.«132478_j19215683682576_2_alg».proof.Proof.EntryK
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## No host line allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every stretch before the region touches TensorCore references only. -/
theorem pre_sub : List.Forall (fun ops : List (HloOp τ sig (Elt F)) => ops.Forall fun op => op.bufs ⊆ StableHlo.tcRefs τ sig)
    [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub⟩

/-- No stretch before the region allocates. -/
theorem pre_fresh : List.Forall (fun ops : List (HloOp τ sig (Elt F)) => ops.Forall fun op => op.fresh = ∅)
    [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] := by
  simp only [List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh⟩

/-- @main around the region: the host lines before it, the region, the host line after it. It reduces to the region
    continued by the last line, entered with core `c`'s buffers at `V m c`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

end Cert.Kernel.Hand

end
-- ==== Proof.ArgsAK.lean ====
/-
  The region of `Kernel` finds the argument arrays main_arg0, main_arg1, main_arg2, main_arg3 as launched: none of the host
  operations before the region writes one of them (each writes its own result buffer only).
-/
import proofs.«132478_j19215683682576_2_alg».proof.Proof.EntryK
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

set_option maxHeartbeats 4000000 in
/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

end Cert.Kernel.Hand

end
-- ==== Proof.ArgsBK.lean ====
/-
  The region of `Kernel` finds the argument arrays main_arg4, main_arg5, main_arg6, main_arg7 as launched: none of the host
  operations before the region writes one of them (each writes its own result buffer only).
-/
import proofs.«132478_j19215683682576_2_alg».proof.Proof.EntryK
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

set_option maxHeartbeats 4000000 in
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

end Cert.Kernel.Hand

end
-- ==== Proof.BodyK.lean ====
/-
  The body of `Kernel`'s kernel at one grid point, as a triple. The body loads its seven input blocks whole (the latent
  rows, the two layers' weights and biases, the output weights as a row, the output bias), computes the network of
  every row, and stores the [64, 128] result block whole; it also loads the result block's old contents, which it never
  uses. So from any contents of the result block it ends with that block at `out0_7` of the input blocks — the one
  store's value, the skeleton's payload of the seven loads — and the input blocks as they were.
-/
import proofs.«132478_j19215683682576_2_alg».proof.Proof.Gen.Kernel.Skeleton
import proofs.«132478_j19215683682576_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each buffer whole -/

abbrev rLat : Rect S8192x32 := Rect.unit (s := S8192x32) ![0, 0] S8192x32.size inb_S8192x32_S8192x32_0_0
abbrev rW1 : Rect S32x128 := Rect.unit (s := S32x128) ![0, 0] S32x128.size inb_S32x128_S32x128_0_0
abbrev rB : Rect S128 := Rect.unit (s := S128) ![0] S128.size inb_S128_S128_0
abbrev rW2 : Rect S128x128 := Rect.unit (s := S128x128) ![0, 0] S128x128.size inb_S128x128_S128x128_0_0
abbrev rW3 : Rect S1x128 := Rect.unit (s := S1x128) ![0, 0] S1x128.size inb_S1x128_S1x128_0_0
abbrev rB3 : Rect S1x1 := Rect.unit (s := S1x1) ![0, 0] S1x1.size inb_S1x1_S1x1_0_0
abbrev rOut : Rect S64x128 := Rect.unit (s := S64x128) ![0, 0] S64x128.size inb_S64x128_S64x128_0_0

/-- The result block after the body, from the input blocks: its one store, of the network of the loaded blocks. -/
def out0_7 (x0 : Vec F S8192x32 .bf16) (x1 : Vec F S32x128 .f32) (x2 : Vec F S128 .f32) (x3 : Vec F S128x128 .f32) (x4 : Vec F S128 .f32) (x5 : Vec F S1x128 .f32) (x6 : Vec F S1x1 .f32) : Vec F S64x128 .f32 :=
  View.canon [⟨rOut, k0_pay1 (View.ld x0 rLat) (View.ld x1 rW1) (View.ld x2 rB) (View.ld x3 rW2) (View.ld x4 rB) (View.ld x5 rW3) (View.ld x6 rB3)⟩]

/-- The one store covers the result block. -/
theorem cover0_7 (p0 : Vec F S64x128 .f32) (y : S64x128.Idx) :
    ∃ pc ∈ ([⟨rOut, p0⟩] : List (View.Piece (Elt F) S64x128 .f32)), y ∈ pc.1.set :=
  View.cover_of_tiled [⟨rOut, p0⟩] S64x128.size (by rfl) y

set_option maxHeartbeats 4000000 in
/-- The kernel body on whole staging memrefs, the inputs' at contents `x0 … x6` and the result's at anything, runs to
    the continuation holding the inputs' as they were and the result's at `out0_7` of them. -/
theorem sound_kernel (c : Dev nD) (E : Set ℕ) (i : grid0.Coords)
    (arg1 : Memref sig .tc .vmem S8192x32 .bf16) (harg1 : arg1.IsWhole) (arg2 : Memref sig .tc .vmem S32x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S1x128 .f32) (harg6 : arg6.IsWhole)
    (arg7 : Memref sig .tc .vmem S1x1 .f32) (harg7 : arg7.IsWhole) (arg8 : Memref sig .tc .vmem S64x128 .f32) (harg8 : arg8.IsWhole)
    (x0 : Vec F S8192x32 .bf16) (x1 : Vec F S32x128 .f32) (x2 : Vec F S128 .f32) (x3 : Vec F S128x128 .f32) (x4 : Vec F S128 .f32) (x5 : Vec F S1x128 .f32) (x6 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.Kernel.Hand

end
-- ==== Proof.FrameK.lean ====
/-
  The frame of `Kernel`: under any launch memory every weakly fair execution of @main terminates, nothing faults, and
  the eight argument arrays end as launched. The proof data of the one pipeline: each window's array is what the host
  lines before the region leave (`V m c`); at grid point `t` the body finds each input window's block of its array
  (`iblk`: the latent rows 8192 t … 8192 t + 8191; the weights and biases whole at every point) and leaves the result
  window's buffer at `out0_7` of those blocks; the invariant is the scoped rest and the generator register, untouched.
  The run's post has the result array at what the write-backs leave and every other buffer as the last host line
  leaves it; the argument arrays are read off it.
-/
import proofs.«132478_j19215683682576_2_alg».proof.Proof.HostLinesK
import proofs.«132478_j19215683682576_2_alg».proof.Proof.ArgsAK
import proofs.«132478_j19215683682576_2_alg».proof.Proof.ArgsBK
import proofs.«132478_j19215683682576_2_alg».proof.Proof.BodyK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays no window stages end as launched -/

/-- The host line after the region does not write `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- The host line after the region does not write `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- The host line after the region does not write `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- The host line after the region does not write `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post, read at the argument
    arrays — a staged one (the two layers' weights and biases) by the fact that an input window's array is never
    written back, one no window stages by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).1 4).trans (((dats 0 c).arrAt_in 4 rfl _).trans ((hA c 4).trans (V_main_arg5 m c))),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the write-backs leave of the proof data and every other
    unscoped buffer as the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.EntryKI.lean ====
/-
  Where the region of `KernelIdeal` finds its arrays. Before its one region @main runs forty-nine stretches of host
  operations (the trilinear sample of the embedding grid at the points, the cast of the sampled rows, and the two
  re-laid weights); after it, one (the re-lay of the [8192, 128] result as a column). `V0 m c` is core `c`'s buffer
  contents when the region is entered: the launch memory `m` folded through those forty-nine stretches, in order.
-/
import proofs.«132478_j19215683682576_2_alg».proof.Proof.LaunchKIP

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The stretches of host operations @main runs before the region, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]

variable (m : (ℓ : Loc nD τ sig) → Buf (Elt F) ℓ)

/-- Core `c`'s TensorCore buffer contents when the region is entered, as a valuation. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.HostLinesKI.lean ====
/-
  The host lines of `KernelIdeal`'s @main around its one region. None of them allocates a buffer, each touches TensorCore
  references only, and the one line after the region (the re-lay of the result) writes no array the region's
  windows stage. With these, @main reduces to: the forty-nine stretches before the region (leaving core `c`'s
  buffers at `V0 m c`), the region, and the last line.
-/
import proofs.«132478_j19215683682576_2_alg».proof.Proof.EntryKI
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## No host line allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every stretch before the region touches TensorCore references only. -/
theorem pre_sub : List.Forall (fun ops : List (HloOp τ sig (Elt F)) => ops.Forall fun op => op.bufs ⊆ StableHlo.tcRefs τ sig)
    [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub⟩

/-- No stretch before the region allocates. -/
theorem pre_fresh : List.Forall (fun ops : List (HloOp τ sig (Elt F)) => ops.Forall fun op => op.fresh = ∅)
    [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] := by
  simp only [List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh⟩

/-- @main around the region: the host lines before it, the region, the host line after it. It reduces to the region
    continued by the last line, entered with core `c`'s buffers at `V m c`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

end Cert.KernelIdeal.Hand

end
-- ==== Proof.ArgsAKI.lean ====
/-
  The region of `KernelIdeal` finds the argument arrays main_arg0, main_arg1, main_arg2, main_arg3 as launched: none of the host
  operations before the region writes one of them (each writes its own result buffer only).
-/
import proofs.«132478_j19215683682576_2_alg».proof.Proof.EntryKI
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

set_option maxHeartbeats 4000000 in
/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

end Cert.KernelIdeal.Hand

end
-- ==== Proof.ArgsBKI.lean ====
/-
  The region of `KernelIdeal` finds the argument arrays main_arg4, main_arg5, main_arg6, main_arg7 as launched: none of the host
  operations before the region writes one of them (each writes its own result buffer only).
-/
import proofs.«132478_j19215683682576_2_alg».proof.Proof.EntryKI
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

set_option maxHeartbeats 4000000 in
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

end Cert.KernelIdeal.Hand

end
-- ==== Proof.BodyKI.lean ====
/-
  The body of `KernelIdeal`'s kernel at one grid point, as a triple. The body loads its seven input blocks whole (the latent
  rows, the two layers' weights and biases, the output weights as a row, the output bias), computes the network of
  every row, and stores the [64, 128] result block whole; it also loads the result block's old contents, which it never
  uses. So from any contents of the result block it ends with that block at `out0_7` of the input blocks — the one
  store's value, the skeleton's payload of the seven loads — and the input blocks as they were.
-/
import proofs.«132478_j19215683682576_2_alg».proof.Proof.Gen.KernelIdeal.Skeleton
import proofs.«132478_j19215683682576_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each buffer whole -/

abbrev rLat : Rect S8192x32 := Rect.unit (s := S8192x32) ![0, 0] S8192x32.size inb_S8192x32_S8192x32_0_0
abbrev rW1 : Rect S32x128 := Rect.unit (s := S32x128) ![0, 0] S32x128.size inb_S32x128_S32x128_0_0
abbrev rB : Rect S128 := Rect.unit (s := S128) ![0] S128.size inb_S128_S128_0
abbrev rW2 : Rect S128x128 := Rect.unit (s := S128x128) ![0, 0] S128x128.size inb_S128x128_S128x128_0_0
abbrev rW3 : Rect S1x128 := Rect.unit (s := S1x128) ![0, 0] S1x128.size inb_S1x128_S1x128_0_0
abbrev rB3 : Rect S1x1 := Rect.unit (s := S1x1) ![0, 0] S1x1.size inb_S1x1_S1x1_0_0
abbrev rOut : Rect S64x128 := Rect.unit (s := S64x128) ![0, 0] S64x128.size inb_S64x128_S64x128_0_0

/-- The result block after the body, from the input blocks: its one store, of the network of the loaded blocks. -/
def out0_7 (x0 : Vec F S8192x32 .bf16) (x1 : Vec F S32x128 .f32) (x2 : Vec F S128 .f32) (x3 : Vec F S128x128 .f32) (x4 : Vec F S128 .f32) (x5 : Vec F S1x128 .f32) (x6 : Vec F S1x1 .f32) : Vec F S64x128 .f32 :=
  View.canon [⟨rOut, k0_pay1 (View.ld x0 rLat) (View.ld x1 rW1) (View.ld x2 rB) (View.ld x3 rW2) (View.ld x4 rB) (View.ld x5 rW3) (View.ld x6 rB3)⟩]

/-- The one store covers the result block. -/
theorem cover0_7 (p0 : Vec F S64x128 .f32) (y : S64x128.Idx) :
    ∃ pc ∈ ([⟨rOut, p0⟩] : List (View.Piece (Elt F) S64x128 .f32)), y ∈ pc.1.set :=
  View.cover_of_tiled [⟨rOut, p0⟩] S64x128.size (by rfl) y

set_option maxHeartbeats 4000000 in
/-- The kernel body on whole staging memrefs, the inputs' at contents `x0 … x6` and the result's at anything, runs to
    the continuation holding the inputs' as they were and the result's at `out0_7` of them. -/
theorem sound_kernel (c : Dev nD) (E : Set ℕ) (i : grid0.Coords)
    (arg1 : Memref sig .tc .vmem S8192x32 .bf16) (harg1 : arg1.IsWhole) (arg2 : Memref sig .tc .vmem S32x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S1x128 .f32) (harg6 : arg6.IsWhole)
    (arg7 : Memref sig .tc .vmem S1x1 .f32) (harg7 : arg7.IsWhole) (arg8 : Memref sig .tc .vmem S64x128 .f32) (harg8 : arg8.IsWhole)
    (x0 : Vec F S8192x32 .bf16) (x1 : Vec F S32x128 .f32) (x2 : Vec F S128 .f32) (x3 : Vec F S128x128 .f32) (x4 : Vec F S128 .f32) (x5 : Vec F S1x128 .f32) (x6 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.KernelIdeal.Hand

end
-- ==== Proof.FrameKI.lean ====
/-
  The frame of `KernelIdeal`: under any launch memory every weakly fair execution of @main terminates, nothing faults, and
  the eight argument arrays end as launched. The proof data of the one pipeline: each window's array is what the host
  lines before the region leave (`V m c`); at grid point `t` the body finds each input window's block of its array
  (`iblk`: the latent rows 8192 t … 8192 t + 8191; the weights and biases whole at every point) and leaves the result
  window's buffer at `out0_7` of those blocks; the invariant is the scoped rest and the generator register, untouched.
  The run's post has the result array at what the write-backs leave and every other buffer as the last host line
  leaves it; the argument arrays are read off it.
-/
import proofs.«132478_j19215683682576_2_alg».proof.Proof.HostLinesKI
import proofs.«132478_j19215683682576_2_alg».proof.Proof.ArgsAKI
import proofs.«132478_j19215683682576_2_alg».proof.Proof.ArgsBKI
import proofs.«132478_j19215683682576_2_alg».proof.Proof.BodyKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays no window stages end as launched -/

/-- The host line after the region does not write `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- The host line after the region does not write `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- The host line after the region does not write `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- The host line after the region does not write `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post, read at the argument
    arrays — a staged one (the two layers' weights and biases) by the fact that an input window's array is never
    written back, one no window stages by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).1 4).trans (((dats 0 c).arrAt_in 4 rfl _).trans ((hA c 4).trans (V_main_arg5 m c))),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the write-backs leave of the proof data and every other
    unscoped buffer as the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.PointNet.lean ====
/-
  One point of the network, as a closed formula on the extended reals.

  A point is a vector `x` of 32 latent features. The network is two dense layers of width 128 with a
  rectified-linear activation, then a linear read-out to one number and a hyperbolic tangent:

    h₁ j = max (∑ i, x i · w₁ i j + b₁ j) 0          (j < 128)
    h₂ k = max (∑ j, h₁ j · w₂ j k + b₂ k) 0         (k < 128)
    out  = tanh (∑ k, h₂ k · w₃ k + b₃)

  Every operation is the exact one on the extended reals, so nothing here depends on the order or the
  grouping in which a program takes the sums: only the commutative-monoid laws of addition are ever used
  to compare two programs against this formula.
-/
import Idealize.ShloMosaic.PureOps.Ideal
import Idealize.ShloMosaic.PureOps.Ideal.Laws
import Idealize.ShloMosaic.Lib.ValueIdx

noncomputable section

open scoped BigOperators

namespace Cert.PointNet

open Idealize.ShloMosaic

/-- The network at one point: `tanh (∑ k, relu (∑ j, relu (∑ i, x i · w₁ i j + b₁ j) · w₂ j k + b₂ k) · w₃ k + b₃)`,
    with `relu t = max t 0`. -/
noncomputable def point (x : Fin 32 → EReal) (w1 : Fin 32 → Fin 128 → EReal) (b1 : Fin 128 → EReal)
    (w2 : Fin 128 → Fin 128 → EReal) (b2 : Fin 128 → EReal) (w3 : Fin 128 → EReal) (b3 : EReal) : EReal :=
  Ideal.tanh ((∑ k, max ((∑ j, max ((∑ i, x i * w1 i j) + b1 j) 0 * w2 j k) + b2 k) 0 * w3 k) + b3)

/-- The formula, as an equation to rewrite with. -/
theorem point_def (x : Fin 32 → EReal) (w1 : Fin 32 → Fin 128 → EReal) (b1 : Fin 128 → EReal)
    (w2 : Fin 128 → Fin 128 → EReal) (b2 : Fin 128 → EReal) (w3 : Fin 128 → EReal) (b3 : EReal) :
    point x w1 b1 w2 b2 w3 b3 =
      Ideal.tanh ((∑ k, max ((∑ j, max ((∑ i, x i * w1 i j) + b1 j) 0 * w2 j k) + b2 k) 0 * w3 k) + b3) := rfl

/-- The zero a rectified-linear activation compares against — the 32-bit float word of all zero bits — is the
    extended real `0`. -/
theorem relu_zero : Ideal.ofBits .f32 0x00000000#32 = 0 := Ideal.ofBits_zero_f32

end Cert.PointNet

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.BodyPoint.lean ====
/-
  The kernel body's stored value, entry by entry, is the network at one point.

  The body holds a block of 8192 points as the rows of an [8192, 32] array. It takes the two dense layers as matrix
  products of the whole block — row r of a product is the product of row r, so each row goes through the layers by
  itself —, regroups the 8192 rows of the second layer's output as [64, 128] rows (row a·128 + b becomes position
  (a, b)), multiplies each by the read-out row and sums over the 128 features, adds the last bias and takes the
  hyperbolic tangent. So entry (a, b) of what it stores is the network of PointNet.lean at the block's row a·128 + b.

  Changes of float format are the identity on the extended reals, the accumulator of each product and of the feature
  sum is the zero word, which denotes 0, and every sum below is matched term by term with the specification's: no
  law of arithmetic beyond 0 + t = t is used.
-/
import proofs.«132478_j19215683682576_2_alg».proof.Proof.Gen.KernelIdeal.Skeleton
import proofs.«132478_j19215683682576_2_alg».proof.Proof.PointNet
import proofs.«132478_j19215683682576_2_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.BodyPoint

open Cert.KernelIdeal Cert.KernelIdeal.Gen Idealize.ShloMosaic Idealize.ShloMosaic.ValueIdx

/-! ## One dense layer with its activation -/

/-- A dense layer as the body spells it — the product of an [M, K] block with a [K, N] weight matrix into the zero
    accumulator, plus the bias [N] viewed as a row [1, N] and repeated over the M rows, then the maximum with zero —
    read at row r and column e: max (∑ k, x[r, k] · w[k, e] + bias[e]) 0. -/
theorem dense_relu_apply {M K N : ℕ} {φ₁ : FTy} (d : DotDims ⟨2, ![M, K]⟩ ⟨2, ![K, N]⟩ ⟨2, ![M, N]⟩)
    (hd : d = DotDims.plain M K N)
    (x : FVec Ideal ⟨2, ![M, K]⟩ φ₁) (w : FVec Ideal ⟨2, ![K, N]⟩ .f32) (bias : FVec Ideal ⟨1, ![N]⟩ .f32)
    (hlt : FTy.bits .bf16 < FTy.bits .f32)
    (hc : (⟨1, ![N]⟩ : Shape).ShapeCasts ⟨2, ![1, N]⟩) (hb : (⟨2, ![1, N]⟩ : Shape).Broadcasts ⟨2, ![M, N]⟩)
    (r : Fin M) (e : Fin N) :
    maximumf (addf (matmul d none x (truncf .bf16 w hlt) (constant (F := Ideal) ⟨2, ![M, N]⟩ .f32 0x00000000#32))
        (broadcastTo ⟨2, ![M, N]⟩ (shapeCast ⟨2, ![1, N]⟩ bias hc) hb))
      (broadcast ⟨2, ![M, N]⟩ (Scalar.ofBits (F := Ideal) .f32 0x00000000#32)) (ix2 r e)
    = max ((∑ k : Fin K, x (ix2 r k) * w (ix2 k e)) + bias (ix1 e)) 0 := by
  show max (FloatOps.matmul d none x (truncf .bf16 w hlt) (constant (F := Ideal) ⟨2, ![M, N]⟩ .f32 0x00000000#32) (ix2 r e)
      + broadcastTo ⟨2, ![M, N]⟩ (shapeCast ⟨2, ![1, N]⟩ bias hc) hb (ix2 r e)) (Ideal.ofBits .f32 0x00000000#32) = _
  rw [matmul_plain_zero_apply d hd, broadcastTo_1b_ab_apply, shapeCast_a_1a_apply, Ideal.ofBits_zero_f32]
  rfl

/-- The same layer narrowed to the 16-bit format on its way into the next product, which changes no value. -/
theorem dense_relu_trunc_apply {M K N : ℕ} {φ₁ : FTy} (d : DotDims ⟨2, ![M, K]⟩ ⟨2, ![K, N]⟩ ⟨2, ![M, N]⟩)
    (hd : d = DotDims.plain M K N)
    (x : FVec Ideal ⟨2, ![M, K]⟩ φ₁) (w : FVec Ideal ⟨2, ![K, N]⟩ .f32) (bias : FVec Ideal ⟨1, ![N]⟩ .f32)
    (hlt hlt' : FTy.bits .bf16 < FTy.bits .f32)
    (hc : (⟨1, ![N]⟩ : Shape).ShapeCasts ⟨2, ![1, N]⟩) (hb : (⟨2, ![1, N]⟩ : Shape).Broadcasts ⟨2, ![M, N]⟩)
    (r : Fin M) (e : Fin N) :
    (truncf .bf16 (maximumf (addf (matmul d none x (truncf .bf16 w hlt) (constant (F := Ideal) ⟨2, ![M, N]⟩ .f32 0x00000000#32))
        (broadcastTo ⟨2, ![M, N]⟩ (shapeCast ⟨2, ![1, N]⟩ bias hc) hb))
      (broadcast ⟨2, ![M, N]⟩ (Scalar.ofBits (F := Ideal) .f32 0x00000000#32))) hlt' : FVec Ideal ⟨2, ![M, N]⟩ .bf16) (ix2 r e)
    = max ((∑ k : Fin K, x (ix2 r k) * w (ix2 k e)) + bias (ix1 e)) 0 :=
  dense_relu_apply d hd x w bias hlt hc hb r e

/-! ## The regrouping of the rows, the read-out row, the feature sum, the last bias -/

/-- The 8192 rows of an [8192, 128] array regrouped as [64, 128, 128] (and widened, which changes no value): entry
    (a, b, k) is row a·128 + b, column k — both are position (a·128 + b)·128 + k in row-major order. -/
theorem rows_split_apply (x : FVec Ideal ⟨2, ![8192, 128]⟩ .bf16)
    (h : (⟨2, ![8192, 128]⟩ : Shape).ShapeCasts ⟨3, ![64, 128, 128]⟩) (hlt : FTy.bits .bf16 < FTy.bits .f32)
    (a : Fin 64) (b : Fin 128) (k : Fin 128) :
    (extf .f32 (shapeCast ⟨3, ![64, 128, 128]⟩ x h : FVec Ideal ⟨3, ![64, 128, 128]⟩ .bf16) hlt
        : FVec Ideal ⟨3, ![64, 128, 128]⟩ .f32) (ix3 a b k)
      = x (ix2 (⟨a.val * 128 + b.val, by omega⟩ : Fin 8192) k) :=
  shapeCast_apply x h _ _ (by
    rw [Shape.rowMajor_val_two, Shape.rowMajor_val_three]
    rfl)

/-- The read-out row [1, 128], viewed [1, 1, 128] and repeated over [64, 128, 128]: entry (a, b, k) is the row at k. -/
theorem readout_row_apply {α : Type} (v : (⟨2, ![1, 128]⟩ : Shape).Idx → α)
    (hs : (⟨2, ![1, 128]⟩ : Shape).ShapeCasts ⟨2, ![1, 128]⟩)
    (h1 : (⟨2, ![1, 128]⟩ : Shape).ShapeCasts ⟨3, ![1, 1, 128]⟩)
    (h2 : (⟨3, ![1, 1, 128]⟩ : Shape).Broadcasts ⟨3, ![64, 128, 128]⟩) (a : Fin 64) (b : Fin 128) (k : Fin 128) :
    broadcastTo ⟨3, ![64, 128, 128]⟩ (shapeCast ⟨3, ![1, 1, 128]⟩ (shapeCast ⟨2, ![1, 128]⟩ v hs) h1) h2 (ix3 a b k)
      = v (ix2 (0 : Fin 1) k) := by
  rw [shapeCast_self]
  refine (broadcastTo_apply _ h2 (ix3 a b k) (ix3 (0 : Fin 1) (0 : Fin 1) k) fun ax => ?_).trans ?_
  · match ax with
    | ⟨0, _⟩ => rfl
    | ⟨1, _⟩ => rfl
    | ⟨2, _⟩ => rfl
  · exact shapeCast_apply v h1 _ _ (by
      rw [Shape.rowMajor_val_two, Shape.rowMajor_val_three]
      rfl)

/-- The sum over the last axis of a [64, 128, 128] array from the zero word, at (a, b): ∑ k, src (a, b, k). -/
theorem lane_sum_apply (src : FVec Ideal ⟨3, ![64, 128, 128]⟩ .f32)
    (h : Shape.Reduces ⟨3, ![64, 128, 128]⟩ [2] ⟨2, ![64, 128]⟩) (hφ : FKind.Formats .f32)
    (hacc : (0x00000000#32 : BitVec 32) = FKind.add.neutral .f32 hφ) (a : Fin 64) (b : Fin 128) :
    multiReduction (F := Ideal) .add [2] ⟨2, ![64, 128]⟩ src 0x00000000#32 h hφ hacc (ix2 a b)
      = ∑ k : Fin 128, src (ix3 a b k) := by
  refine (Ideal.multiReduction_add_single src 0x00000000#32 h hφ hacc (ix2 a b)).trans ?_
  refine Finset.sum_congr rfl fun k _ => congrArg src ?_
  funext d
  refine Fin.ext ?_
  match d with
  | ⟨0, _⟩ => rfl
  | ⟨1, _⟩ => rfl
  | ⟨2, _⟩ => rfl

/-- The last bias [1, 1] repeated over [64, 128]: every entry is the one number. -/
theorem bias_scalar_apply {α : Type} (v : (⟨2, ![1, 1]⟩ : Shape).Idx → α)
    (hs : (⟨2, ![1, 1]⟩ : Shape).ShapeCasts ⟨2, ![1, 1]⟩)
    (hb : (⟨2, ![1, 1]⟩ : Shape).Broadcasts ⟨2, ![64, 128]⟩) (a : Fin 64) (b : Fin 128) :
    broadcastTo ⟨2, ![64, 128]⟩ (shapeCast ⟨2, ![1, 1]⟩ v hs) hb (ix2 a b) = v (ix2 (0 : Fin 1) (0 : Fin 1)) := by
  rw [shapeCast_self]
  refine broadcastTo_apply v hb (ix2 a b) (ix2 (0 : Fin 1) (0 : Fin 1)) fun ax => ?_
  match ax with
  | ⟨0, _⟩ => rfl
  | ⟨1, _⟩ => rfl

/-! ## The stored value at (a, b) -/

/-- Entry (a, b) of the [64, 128] array the body stores is the network at row a·128 + b of the block of points: from
    the outside in, the hyperbolic tangent; the feature sum plus the last bias; each term the second layer's output at
    that row times the read-out weight; the second layer over the first layer's output at that row; the first layer
    over the row of the block. -/
theorem body_is_point (v0 : Vec Ideal S8192x32 .bf16) (v2 : Vec Ideal S32x128 .f32) (v5 : Vec Ideal S128 .f32) (v11 : Vec Ideal S128x128 .f32) (v15 : Vec Ideal S128 .f32) (v24 : Vec Ideal S1x128 .f32) (v30 : Vec Ideal S1x1 .f32) (a : Fin 64) (b : Fin 128) :
    k0_pay1 (F := Ideal) v0 v2 v5 v11 v15 v24 v30 (ix2 a b) =
      Cert.PointNet.point (fun i => v0 (ix2 (⟨a.val * 128 + b.val, by omega⟩ : Fin 8192) i)) (fun i j => v2 (ix2 i j)) (fun j => v5 (ix1 j)) (fun j k => v11 (ix2 j k)) (fun k => v15 (ix1 k)) (fun k => v24 (ix2 (0 : Fin 1) k)) (v30 (ix2 (0 : Fin 1) (0 : Fin 1))) := by
  unfold k0_pay1 Cert.PointNet.point
  refine congrArg Ideal.tanh ?_
  refine congrArg₂ (· + ·) ?_ (bias_scalar_apply v30 _ _ a b)
  refine (lane_sum_apply _ _ _ _ a b).trans ?_
  refine Finset.sum_congr rfl fun k _ => ?_
  refine congrArg₂ (· * ·) ?_ (readout_row_apply v24 _ _ _ a b k)
  refine (rows_split_apply _ _ _ a b k).trans ?_
  refine (dense_relu_trunc_apply _ rfl _ _ _ _ _ _ _ _ k).trans ?_
  refine congrArg (fun t => max (t + v15 (ix1 k)) 0) ?_
  refine Finset.sum_congr rfl fun j _ => ?_
  refine congrArg (· * v11 (ix2 j k)) ?_
  refine (dense_relu_trunc_apply _ rfl _ _ _ _ _ _ _ _ j).trans ?_
  refine congrArg (fun t => max (t + v5 (ix1 j)) 0) ?_
  refine Finset.sum_congr rfl fun i _ => ?_
  refine congrArg (· * v2 (ix2 i j)) ?_
  exact congrFun (shapeCast_self v0 _) _

end Cert.KernelIdeal.BodyPoint

end
-- ==== Proof.ValueKI.lean ====
/-
  The value of `KernelIdeal`'s run: the result, point by point, is the network at one point.

  The region's result array is [8192, 128]; grid point t writes back its rows 64 t … 64 t + 63, and entry (a, b) of that
  block is the network at row a·128 + b of the block of 8192 latent rows the point was given, which are rows
  8192 t … 8192 t + 8191 of the sampled array. Entry (r, b) of the whole result array is therefore the network at sampled
  row r·128 + b: with r = 64 t + a, 8192 t + a·128 + b = r·128 + b. The 128 blocks tile the array (row r lies in the
  block of point r / 64), so this describes every entry. The weights and biases are staged whole at every point. The one
  host line after the region re-lays the [8192, 128] array as a column [1048576, 1], which keeps the row-major
  position: entry (n, 0) of the column is entry (n / 128, n % 128) of the array, the network at sampled row n.
-/
import proofs.«132478_j19215683682576_2_alg».proof.Proof.FrameKI
import proofs.«132478_j19215683682576_2_alg».proof.Proof.BodyPoint
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Idealize.ShloMosaic.StableHlo
open Cert.KernelIdeal Cert.KernelIdeal.Gen

/-! ## The body's result block is its one store's value -/

theorem hz1 : (![0] : Fin 1 → Nat) = fun _ => 0 := funext fun a => by fin_cases a <;> rfl
theorem hz2 : (![0, 0] : Fin 2 → Nat) = fun _ => 0 := funext fun a => by fin_cases a <;> rfl

/-- Every access of the body is of a whole buffer at offset zero, so the result block after the body is the store's
    value as a function of the input blocks themselves. -/
theorem out0_7_eq {F : FTy → Type} [FloatOps F] (x0 : Vec F S8192x32 .bf16) (x1 : Vec F S32x128 .f32) (x2 : Vec F S128 .f32)
    (x3 : Vec F S128x128 .f32) (x4 : Vec F S128 .f32) (x5 : Vec F S1x128 .f32) (x6 : Vec F S1x1 .f32) :
    out0_7 x0 x1 x2 x3 x4 x5 x6 = k0_pay1 x0 x1 x2 x3 x4 x5 x6 := by
  unfold out0_7
  rw [View.canon_unit_zero hz2]
  simp only [View.ld_unit_zero (S := S8192x32) hz2, View.ld_unit_zero (S := S32x128) hz2, View.ld_unit_zero (S := S128) hz1,
    View.ld_unit_zero (S := S128x128) hz2, View.ld_unit_zero (S := S1x128) hz2, View.ld_unit_zero (S := S1x1) hz2]

/-! ## Two networks over equal data are equal -/

theorem point_congr {x x' : Fin 32 → EReal} {w1 w1' : Fin 32 → Fin 128 → EReal} {b1 b1' : Fin 128 → EReal}
    {w2 w2' : Fin 128 → Fin 128 → EReal} {b2 b2' : Fin 128 → EReal} {w3 w3' : Fin 128 → EReal} {b3 b3' : EReal}
    (hx : ∀ i, x i = x' i) (hw1 : ∀ i j, w1 i j = w1' i j) (hb1 : ∀ j, b1 j = b1' j) (hw2 : ∀ j k, w2 j k = w2' j k)
    (hb2 : ∀ k, b2 k = b2' k) (hw3 : ∀ k, w3 k = w3' k) (hb3 : b3 = b3') :
    Cert.PointNet.point x w1 b1 w2 b2 w3 b3 = Cert.PointNet.point x' w1' b1' w2' b2' w3' b3' := by
  obtain rfl : x = x' := funext hx
  obtain rfl : w1 = w1' := funext fun i => funext (hw1 i)
  obtain rfl : b1 = b1' := funext hb1
  obtain rfl : w2 = w2' := funext fun j => funext (hw2 j)
  obtain rfl : b2 = b2' := funext hb2
  obtain rfl : w3 = w3' := funext hw3
  subst hb3
  rfl

variable (m : (ℓ : Loc nD τ sig) → Buf (Elt Ideal) ℓ) (ρ : Dev nD → PrngReg)

/-! ## The result array, entry by entry -/

/-- The network at sampled row n, over the arrays as the region finds them. -/
def net (c : Dev nD) (n : Fin 1048576) : EReal :=
  Cert.PointNet.point (fun i => (V m c main_v416 : S1048576x32.Idx → EReal) (ix2 n i))
    (fun i j => (V m c main_arg2 : S32x128.Idx → EReal) (ix2 i j)) (fun j => (V m c main_arg3 : S128.Idx → EReal) (ix1 j))
    (fun j k => (V m c main_arg4 : S128x128.Idx → EReal) (ix2 j k)) (fun k => (V m c main_arg5 : S128.Idx → EReal) (ix1 k))
    (fun k => (V m c main_v417 : S1x128.Idx → EReal) (ix2 (0 : Fin 1) k))
    ((V m c main_v418 : S1x1.Idx → EReal) (ix2 (0 : Fin 1) (0 : Fin 1)))

/-- The sampled row an entry of the [8192, 128] result array belongs to: entry (r, b) is row r·128 + b. -/
def rowOf (i : S8192x128.Idx) : Fin 1048576 :=
  ⟨(i 0).val * 128 + (i 1).val, by
    have h0 : (i 0).val < 8192 := (i 0).isLt
    have h1 : (i 1).val < 128 := (i 1).isLt
    omega⟩

/-- The result array the region leaves: entry (r, b) is the network at sampled row r·128 + b. -/
def outArr (c : Dev nD) : S8192x128.Idx → EReal := fun i => net m c (rowOf i)

/-! ## The printed index maps over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks at a point -/

/-- The block of latent rows at point t is rows 8192 t … 8192 t + 8191 of the sampled array. -/
theorem iblk0_apply (c : Dev nD) (t : Fin cfg0.N) (r : Fin 8192) (i : Fin 32) (n : Fin 1048576)
    (hn : n.val = t.val * 8192 + r.val) :
    (iblk m c 0 t : Vec Ideal S8192x32 .bf16) (ix2 r i) = (V m c main_v416 : S1048576x32.Idx → EReal) (ix2 n i) := by
  obtain ⟨e0, e1, -⟩ := idx_facts t
  show V m c main_v416 (((cfg0.win 0).blk t).view.emb (ix2 r i)) = V m c main_v416 (ix2 n i)
  refine congrArg (V m c main_v416) (funext fun a => Fin.ext ?_)
  match a with
  | ⟨0, _⟩ => show win0_0.index t (0 : Fin 2) * 8192 + 1 * r.val = n.val; omega
  | ⟨1, _⟩ => show win0_0.index t (1 : Fin 2) * 32 + 1 * i.val = i.val; omega

/-- The first layer's weights are staged whole at every point. -/
theorem iblk1_apply (c : Dev nD) (t : Fin cfg0.N) (y : S32x128.Idx) :
    (iblk m c 1 t : Vec Ideal S32x128 .f32) y = (V m c main_arg2 : S32x128.Idx → EReal) y := by
  obtain ⟨-, -, e0, e1, -⟩ := idx_facts t
  show V m c main_arg2 (((cfg0.win 1).blk t).view.emb y) = V m c main_arg2 y
  refine congrArg (V m c main_arg2) (funext fun a => Fin.ext ?_)
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- The first layer's bias is staged whole at every point. -/
theorem iblk2_apply (c : Dev nD) (t : Fin cfg0.N) (y : S128.Idx) :
    (iblk m c 2 t : Vec Ideal S128 .f32) y = (V m c main_arg3 : S128.Idx → EReal) y := by
  obtain ⟨-, -, -, -, e0, -⟩ := idx_facts t
  show V m c main_arg3 (((cfg0.win 2).blk t).view.emb y) = V m c main_arg3 y
  refine congrArg (V m c main_arg3) (funext fun a => Fin.ext ?_)
  match a with
  | ⟨0, _⟩ => show win0_2.index t (0 : Fin 1) * 128 + 1 * (y 0).val = (y 0).val; omega

/-- The second layer's weights are staged whole at every point. -/
theorem iblk3_apply (c : Dev nD) (t : Fin cfg0.N) (y : S128x128.Idx) :
    (iblk m c 3 t : Vec Ideal S128x128 .f32) y = (V m c main_arg4 : S128x128.Idx → EReal) y := by
  obtain ⟨-, -, -, -, -, e0, e1, -⟩ := idx_facts t
  show V m c main_arg4 (((cfg0.win 3).blk t).view.emb y) = V m c main_arg4 y
  refine congrArg (V m c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second layer's bias is staged whole at every point. -/
theorem iblk4_apply (c : Dev nD) (t : Fin cfg0.N) (y : S128.Idx) :
    (iblk m c 4 t : Vec Ideal S128 .f32) y = (V m c main_arg5 : S128.Idx → EReal) y := by
  obtain ⟨-, -, -, -, -, -, -, e0, -⟩ := idx_facts t
  show V m c main_arg5 (((cfg0.win 4).blk t).view.emb y) = V m c main_arg5 y
  refine congrArg (V m c main_arg5) (funext fun a => Fin.ext ?_)
  match a with
  | ⟨0, _⟩ => show win0_4.index t (0 : Fin 1) * 128 + 1 * (y 0).val = (y 0).val; omega

/-- The read-out row is staged whole at every point. -/
theorem iblk5_apply (c : Dev nD) (t : Fin cfg0.N) (y : S1x128.Idx) :
    (iblk m c 5 t : Vec Ideal S1x128 .f32) y = (V m c main_v417 : S1x128.Idx → EReal) y := by
  obtain ⟨-, -, -, -, -, -, -, -, e0, e1, -⟩ := idx_facts t
  show V m c main_v417 (((cfg0.win 5).blk t).view.emb y) = V m c main_v417 y
  refine congrArg (V m c main_v417) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The last bias is staged whole at every point. -/
theorem iblk6_apply (c : Dev nD) (t : Fin cfg0.N) (y : S1x1.Idx) :
    (iblk m c 6 t : Vec Ideal S1x1 .f32) y = (V m c main_v418 : S1x1.Idx → EReal) y := by
  obtain ⟨-, -, -, -, -, -, -, -, -, -, e0, e1, -⟩ := idx_facts t
  show V m c main_v418 (((cfg0.win 6).blk t).view.emb y) = V m c main_v418 y
  refine congrArg (V m c main_v418) (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-! ## What a point writes back -/

/-- Entry (a, b) of the result block of point t sits at entry (64 t + a, b) of the result array, whose sampled row is
    8192 t + a·128 + b. -/
theorem rowOf_emb (t : Fin cfg0.N) (a : Fin 64) (b : Fin 128) :
    (rowOf (((cfg0.win 7).blk t).view.emb (ix2 a b))).val = t.val * 8192 + (a.val * 128 + b.val) := by
  obtain ⟨-, -, -, -, -, -, -, -, -, -, -, -, e0, e1⟩ := idx_facts t
  show (win0_7.index t (0 : Fin 2) * 64 + 1 * a.val) * 128 + (win0_7.index t (1 : Fin 2) * 128 + 1 * b.val) = _
  omega

/-- The store's value at entry j of the block of point t is the result array at the entry the block puts j at. -/
theorem pay_at (c : Dev nD) (t : Fin cfg0.N) (j : S64x128.Idx) :
    k0_pay1 (F := Ideal) (iblk m c 0 t) (iblk m c 1 t) (iblk m c 2 t) (iblk m c 3 t) (iblk m c 4 t) (iblk m c 5 t) (iblk m c 6 t) j
      = outArr m c (((cfg0.win 7).blk t).view.emb j) := by
  obtain ⟨a, b, rfl⟩ : ∃ (a : Fin 64) (b : Fin 128), j = ix2 a b := ⟨j 0, j 1, eq_ix2 j⟩
  refine (Cert.KernelIdeal.BodyPoint.body_is_point (iblk m c 0 t) (iblk m c 1 t) (iblk m c 2 t) (iblk m c 3 t) (iblk m c 4 t) (iblk m c 5 t) (iblk m c 6 t) a b).trans ?_
  unfold outArr net
  exact point_congr (fun i => iblk0_apply m c t _ i _ (rowOf_emb t a b))
    (fun i j => iblk1_apply m c t (ix2 i j)) (fun j => iblk2_apply m c t (ix1 j)) (fun j k => iblk3_apply m c t (ix2 j k))
    (fun k => iblk4_apply m c t (ix1 k)) (fun k => iblk5_apply m c t (ix2 (0 : Fin 1) k)) (iblk6_apply m c t (ix2 (0 : Fin 1) (0 : Fin 1)))

/-! ## The blocks tile the result array -/

/-- An entry of the result array is in the block of point t iff each coordinate is in the block's range on its axis. -/
theorem mem_blk7 (t : Fin cfg0.N) (i : S8192x128.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v419).slice (win0_7.rect t)).set ↔ _
  rw [View.set_slice_whole, Rect.mem_set_unit]
  exact Iff.rfl

/-- Row r of the result array lies in the block of point r / 64, which is written back. -/
theorem cover7 (i : S8192x128.Idx) :
    ∃ t : Fin cfg0.N, (cfg0.win 7).flush t = true ∧ i ∈ ((cfg0.win 7).blk t).view.set := by
  have h0 : (i 0).val < 8192 := (i 0).isLt
  have h1 : (i 1).val < 128 := (i 1).isLt
  obtain ⟨t, ht⟩ : ∃ t : Fin cfg0.N, t.val = (i 0).val / 64 :=
    ⟨⟨(i 0).val / 64, by rw [show cfg0.N = 128 from N_0]; omega⟩, rfl⟩
  obtain ⟨-, -, -, -, -, -, -, -, -, -, -, -, e0, e1⟩ := idx_facts t
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

end Cert.KernelIdeal.Hand

end
-- ==== Proof.RunKI.lean ====
/-
  The run of `KernelIdeal`, read. What each grid point writes back is its block of the result array whose entry (r, b)
  is the network at sampled row r·128 + b, and the blocks tile the array, so the array ends holding exactly that. The
  one host line after the region re-lays the [8192, 128] array as a column [1048576, 1], which keeps the row-major
  position: entry (n, 0) of the column is entry (n / 128, n % 128) of the array, the network at sampled row n.
-/
import proofs.«132478_j19215683682576_2_alg».proof.Proof.ValueKI

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Idealize.ShloMosaic.StableHlo
open Cert.KernelIdeal Cert.KernelIdeal.Gen

variable (m : (ℓ : Loc nD τ sig) → Buf (Elt Ideal) ℓ) (ρ : Dev nD → PrngReg)

/-- A result block that agrees entry by entry with an array, read where the block of point t puts its entries, is
    block t of that array (the blocks of this window are never clipped, so the block is written back whole). -/
theorem block_of_pointwise (t : Fin cfg0.N) (X : Vec Ideal S64x128 .f32) (G : S8192x128.Idx → EReal)
    (h : ∀ j : S64x128.Idx, X j = G (((cfg0.win 7).blk t).view.emb j)) :
    (cfg0.win 7).cut (grid0.coords t) X = ((cfg0.win 7).blk t).view.read (Elt Ideal) G := by
  funext j
  exact h j

/-- What point t writes back is block t of the result array. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7, out0_7_eq]
  exact block_of_pointwise t _ (outArr m c) (pay_at m c t)

/-- The result array after the run. -/
theorem final7 (c : Dev nD) : (dats m 0 c).arrAt 7 cfg0.N = outArr m c :=
  (dats m 0 c).arrAt_eq_of_cover 7 (outArr m c) (fun t _ => flushed_eq m c t) cover7

/-! ## The host line after the region -/

/-- The column the last host line leaves: the result array re-laid. -/
theorem tail_eq (c : Dev nD) :
    (Pipeline.afterTail₀ cfgs (dats m) 0 (V0 m) [hostOps1] c main_v420 : S1048576x1.Idx → EReal)
      = shapeCast S1048576x1 (outArr m c) shapeCasts_S8192x128_S1048576x1 := by
  unfold Pipeline.afterTail₀
  show StableHlo.after hostOps1 _ (Proc.devRef .tc main_v420) = _
  after_results
  exact congrArg (fun x : S8192x128.Idx → EReal => shapeCast S1048576x1 x shapeCasts_S8192x128_S1048576x1)
    ((Pipeline.withArrays_arr spec0 launch0.win.arr_inj c _ _ 7).trans (final7 m c))

/-- Entry (n, 0) of the column is the network at sampled row n. -/
theorem tail_apply (c : Dev nD) (n : Fin 1048576) :
    (Pipeline.afterTail₀ cfgs (dats m) 0 (V0 m) [hostOps1] c main_v420 : S1048576x1.Idx → EReal) (ix2 n (0 : Fin 1)) = net m c n := by
  rw [tail_eq]
  have hn : n.val < 1048576 := n.isLt
  refine (shapeCast_apply (s := S8192x128) (t := S1048576x1) (outArr m c) shapeCasts_S8192x128_S1048576x1 (ix2 n (0 : Fin 1))
    (ix2 (⟨n.val / 128, by omega⟩ : Fin 8192) (⟨n.val % 128, Nat.mod_lt _ (by decide)⟩ : Fin 128)) ?_).trans ?_
  · rw [Shape.rowMajor_val_two, Shape.rowMajor_val_two]
    show n.val / 128 * 128 + n.val % 128 = n.val * 1 + 0
    omega
  · unfold outArr
    refine congrArg (net m c) (Fin.ext ?_)
    show n.val / 128 * 128 + n.val % 128 = n.val
    omega

/-! ## The run, read -/

/-- Every weakly fair execution of @main terminates with the result column at the network of each sampled row and the
    argument arrays as launched. -/
theorem run_value : θ_run defs (onTc (τ := τ) (main (F := Ideal))) ⟨m, fun _ => 0, ρ⟩ (fun r => ∀ c : Dev nD,
      (∀ n : Fin 1048576, (r.2.mem ((c.tc : Thread nD τ).loc main_v420) : S1048576x1.Idx → EReal) (ix2 n (0 : Fin 1)) = net m c n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨fun n => (congrFun ((h c).2 main_v420 (Pipeline.mem_restRefs_of main_v420 (by decide) (by decide))) (ix2 n (0 : Fin 1))).trans (tail_apply m c n),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Hand

end
-- ==== Proof.EntryLatKI.lean ====
/-
  The sampled latent rows the region finds. The host prefix of the kernel program performs the same trilinear sampling,
  operation for operation, as the reference; folded through, the array it leaves is the reference's sampled array, cast
  to the narrower format (the identity on extended reals).
-/
import proofs.«132478_j19215683682576_2_alg».proof.Proof.EntryKI
import proofs.«132478_j19215683682576_2_alg».proof.Proof.RefReadP
import Idealize.ShloMosaic.Lib.StableHlo.Run
import Idealize.ShloMosaic.Lib.StableHlo.RunLoop
import Idealize.ShloMosaic.Lib.Pipeline.Regions
import Idealize.ShloMosaic.Lib.ValueIdx
import Idealize.ShloMosaic.Lib.Pipeline.Value
import Idealize.ShloMosaic.PureOps.Ideal

noncomputable section

namespace Cert.KernelIdeal.Hand

open Cert.KernelIdeal Cert.KernelIdeal.Gen Idealize.ShloMosaic Idealize.ShloMosaic.TcCoe ValueIdx
open Idealize.ShloMosaic.StableHlo

section Three

variable {τ' : Topo} {sig' : RefSig} {Val : EltTy → Type}
variable {x a b y : Ref sig' .tc}

/-- An operation of three operands given as a literal family, read at its result: the function applied to the three
    operands' contents, each at its own reference. -/
theorem nary3_result
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewriting index, so that one rewriting pass can use it. -/
theorem nary3_result'
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Three

variable (m : (ℓ : Loc nD τ sig) → Buf (Elt Ideal) ℓ) (c : Dev nD)

/-- The whole sampled array: the reference's eight-corner weighted sum of gathered rows, as a function of the points and
    the table, then the format change. The host lines before the region are, operation for operation, the reference's
    sampling; folding the launch memory through them and reading the array they leave gives the reference's stages composed,
    which is a computation: both sides unfold to the same term. -/
theorem V_lat_eq :
    @Eq (S1048576x32.Idx → EReal) (V m c main_v416)
      (truncf .bf16 (Cert.ReferenceIdeal.Read.val_main_v415 (F := Ideal) (m ((c.tc : Thread nD τ).loc main_arg0)) (m ((c.tc : Thread nD τ).loc main_arg1)) : FVec Ideal S1048576x32 .f32) bitsLt_bf16_f32 : FVec Ideal S1048576x32 .bf16) := by
  chain_rfl

end Cert.KernelIdeal.Hand

end
-- ==== Proof.EntryValuesKI.lean ====
/-
  What the region finds in three of its operand arrays: the sampled latent rows (the reference's sampled array), the
  last layer's weights re-laid from a column [128, 1] to a row [1, 128], and its bias re-laid from [1] to [1, 1].
  A re-lay keeps the row-major position: entry (0, k) of the row is entry (k, 0) of the column.
-/
import proofs.«132478_j19215683682576_2_alg».proof.Proof.EntryKI
import proofs.«132478_j19215683682576_2_alg».proof.Proof.RefReadP
import Idealize.ShloMosaic.Lib.StableHlo.Run
import Idealize.ShloMosaic.Lib.StableHlo.RunLoop
import Idealize.ShloMosaic.Lib.ValueIdx
import Idealize.ShloMosaic.Lib.Pipeline.Value
import Idealize.ShloMosaic.PureOps.Ideal
import proofs.«132478_j19215683682576_2_alg».proof.Proof.EntryLatKI

noncomputable section

namespace Cert.KernelIdeal.Hand

open Cert.KernelIdeal Cert.KernelIdeal.Gen Idealize.ShloMosaic Idealize.ShloMosaic.TcCoe ValueIdx
open Idealize.ShloMosaic.StableHlo

variable (m : (ℓ : Loc nD τ sig) → Buf (Elt Ideal) ℓ) (c : Dev nD)

/-- The sampled latent rows at an index: the format change is the identity on extended reals. -/
theorem V_lat_apply (i : S1048576x32.Idx) :
    V m c main_v416 i = Cert.ReferenceIdeal.Read.val_main_v415 (F := Ideal) (m ((c.tc : Thread nD τ).loc main_arg0)) (m ((c.tc : Thread nD τ).loc main_arg1)) i :=
  (congrFun (V_lat_eq m c) i).trans rfl

set_option maxRecDepth 65536 in
set_option maxHeartbeats 400000000 in
/-- The weight row at (0, k) is the weight column at (k, 0): nothing before the re-lay writes the column. -/
theorem V_w3row_apply (k : Fin 128) :
    V m c main_v417 (ix2 (0 : Fin 1) k) = m ((c.tc : Thread nD τ).loc main_arg6) (ix2 k (0 : Fin 1)) := by
  dsimp only [V, V0, pre]
  rw [← afterL_eq_after_flatten]
  simp only [afterL_cons, afterL_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']
  refine (shapeCast_apply (s := S128x1) (t := S1x128) _ shapeCasts_S128x1_S1x128 (ix2 (0 : Fin 1) k) (ix2 k (0 : Fin 1)) ?_)
  rw [Shape.rowMajor_val_two, Shape.rowMajor_val_two]
  show k.val * 1 + 0 = 0 * 128 + k.val
  omega

set_option maxRecDepth 65536 in
set_option maxHeartbeats 400000000 in
/-- The bias at (0, 0) is the bias at (0): nothing before the re-lay writes it. -/
theorem V_b3_apply :
    V m c main_v418 (ix2 (0 : Fin 1) (0 : Fin 1)) = m ((c.tc : Thread nD τ).loc main_arg7) (ix1 (0 : Fin 1)) := by
  dsimp only [V, V0, pre]
  rw [← afterL_eq_after_flatten]
  simp only [afterL_cons, afterL_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]
  simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']
  refine (shapeCast_apply (s := S1) (t := S1x1) _ shapeCasts_S1_S1x1 (ix2 (0 : Fin 1) (0 : Fin 1)) (ix1 (0 : Fin 1)) ?_)
  rw [Shape.rowMajor_val_one, Shape.rowMajor_val_two]
  rfl

end Cert.KernelIdeal.Hand

end
-- ==== Proof.RefPoint.lean ====
/-
  The reference's result, point by point, is the network at one point.

  After sampling the embedding grid the reference holds the latent vectors of all 1,048,576 points as the rows of one
  array, and applies the network to the whole array: a product with the first weight matrix, the bias repeated over
  the rows, the maximum with zero; the same again with the second layer; a product with the [128, 1] read-out column,
  the one bias, and the hyperbolic tangent. Row n of a matrix product is the product of row n, so the result at point
  n is the network of PointNet.lean over the latent vector of point n. The sampling itself is never opened: the latent
  array stays one opaque function of the two arguments it is computed from.

  Each product's sum over its contraction index is matched term by term with the specification's sum, and the zero of
  each activation is the zero word, which denotes 0: no law of arithmetic is used at all.
-/
import proofs.«132478_j19215683682576_2_alg».proof.Proof.RefReadP
import proofs.«132478_j19215683682576_2_alg».proof.Proof.PointNet
import Idealize.ShloMosaic.Lib.ValueIdx
import Idealize.ShloMosaic.PureOps.Ideal.Laws

noncomputable section

open scoped BigOperators

namespace Cert.ReferenceIdeal.RefPoint

open Cert.ReferenceIdeal Cert.ReferenceIdeal.Read Idealize.ShloMosaic Idealize.ShloMosaic.ValueIdx

/-! ## The two hidden layers at a point and a feature -/

/-- One dense layer of the reference with its activation, at point n and feature j: the first layer over the
    sampled latent vector of the point. -/
theorem hidden1_apply (x0 : (⟨S1048576x3, .f32⟩ : BufTy).Contents (Elt Ideal)) (x1 : (⟨S35937x32, .f32⟩ : BufTy).Contents (Elt Ideal)) (x2 : (⟨S32x128, .f32⟩ : BufTy).Contents (Elt Ideal)) (x3 : (⟨S128, .f32⟩ : BufTy).Contents (Elt Ideal)) (n : Fin 1048576) (j : Fin 128) :
    val_main_v420 (F := Ideal) x0 x1 x2 x3 (ix2 n j)
      = max ((∑ i : Fin 32, val_main_v415 (F := Ideal) x0 x1 (ix2 n i) * x2 (ix2 i j)) + x3 (ix1 j)) 0 := by
  rw [val_main_v420_apply, val_main_v419_apply, val_main_v416_apply, val_main_v418_apply, val_main_v417_apply,
    val_main_call24_v0_apply, val_main_call24_cst_apply]
  refine congrArg₂ max ?_ Ideal.ofBits_zero_f32
  refine congrArg₂ (· + ·) ?_ (congrArg x3 ?_)
  · refine Finset.sum_congr rfl fun i _ => ?_
    refine congrArg₂ (· * ·) (congrArg _ ?_) (congrArg x2 ?_)
    · funext a
      refine Fin.ext ?_
      match a with
      | ⟨0, _⟩ => rfl
      | ⟨1, _⟩ => rfl
    · funext a
      refine Fin.ext ?_
      match a with
      | ⟨0, _⟩ => rfl
      | ⟨1, _⟩ => rfl
  · funext a
    refine Fin.ext ?_
    match a with
    | ⟨0, _⟩ => rfl

/-- The second layer with its activation, at point n and feature k, over the first layer's output at that point. -/
theorem hidden2_apply (x0 : (⟨S1048576x3, .f32⟩ : BufTy).Contents (Elt Ideal)) (x1 : (⟨S35937x32, .f32⟩ : BufTy).Contents (Elt Ideal)) (x2 : (⟨S32x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (n : Fin 1048576) (k : Fin 128) :
    val_main_v425 (F := Ideal) x0 x1 x2 x3 x4 x5 (ix2 n k)
      = max ((∑ j : Fin 128, val_main_v420 (F := Ideal) x0 x1 x2 x3 (ix2 n j) * x4 (ix2 j k)) + x5 (ix1 k)) 0 := by
  rw [val_main_v425_apply, val_main_v424_apply, val_main_v421_apply, val_main_v423_apply, val_main_v422_apply,
    val_main_call25_v0_apply, val_main_call25_cst_apply]
  refine congrArg₂ max ?_ Ideal.ofBits_zero_f32
  refine congrArg₂ (· + ·) ?_ (congrArg x5 ?_)
  · refine Finset.sum_congr rfl fun j _ => ?_
    refine congrArg₂ (· * ·) (congrArg _ ?_) (congrArg x4 ?_)
    · funext a
      refine Fin.ext ?_
      match a with
      | ⟨0, _⟩ => rfl
      | ⟨1, _⟩ => rfl
    · funext a
      refine Fin.ext ?_
      match a with
      | ⟨0, _⟩ => rfl
      | ⟨1, _⟩ => rfl
  · funext a
    refine Fin.ext ?_
    match a with
    | ⟨0, _⟩ => rfl

/-! ## The result at a point -/

/-- The reference's result at point n is the network of PointNet.lean over the point's sampled latent vector: the
    read-out is a product with the [128, 1] column, whose one column is the read-out weights, plus the one bias, and
    the hyperbolic tangent of that. -/
theorem ref_is_point (x0 : (⟨S1048576x3, .f32⟩ : BufTy).Contents (Elt Ideal)) (x1 : (⟨S35937x32, .f32⟩ : BufTy).Contents (Elt Ideal)) (x2 : (⟨S32x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) (x7 : (⟨S1, .f32⟩ : BufTy).Contents (Elt Ideal)) (n : Fin 1048576) :
    val_main_v430 (F := Ideal) x0 x1 x2 x3 x4 x5 x6 x7 (ix2 n (0 : Fin 1)) =
      Cert.PointNet.point (fun i => val_main_v415 (F := Ideal) x0 x1 (ix2 n i)) (fun i j => x2 (ix2 i j)) (fun j => x3 (ix1 j)) (fun j k => x4 (ix2 j k)) (fun k => x5 (ix1 k)) (fun k => x6 (ix2 k (0 : Fin 1))) (x7 (ix1 (0 : Fin 1))) := by
  unfold Cert.PointNet.point
  rw [val_main_v430_apply, val_main_v429_apply, val_main_v426_apply, val_main_v428_apply, val_main_v427_apply]
  refine congrArg Ideal.tanh ?_
  refine congrArg₂ (· + ·) ?_ (congrArg x7 ?_)
  · refine Finset.sum_congr rfl fun k _ => ?_
    refine congrArg₂ (· * ·) ?_ (congrArg x6 ?_)
    · refine (congrArg (val_main_v425 (F := Ideal) x0 x1 x2 x3 x4 x5) (?_ : _ = ix2 n k)).trans ?_
      · funext a
        refine Fin.ext ?_
        match a with
        | ⟨0, _⟩ => rfl
        | ⟨1, _⟩ => rfl
      · refine (hidden2_apply x0 x1 x2 x3 x4 x5 n k).trans ?_
        refine congrArg (fun t => max (t + x5 (ix1 k)) 0) ?_
        refine Finset.sum_congr rfl fun j _ => ?_
        exact congrArg (· * x4 (ix2 j k)) (hidden1_apply x0 x1 x2 x3 n j)
    · funext a
      refine Fin.ext ?_
      match a with
      | ⟨0, _⟩ => rfl
      | ⟨1, _⟩ => rfl
  · funext a
    refine Fin.ext ?_
    match a with
    | ⟨0, _⟩ => rfl

end Cert.ReferenceIdeal.RefPoint

end
-- ==== Proof.Bridge.lean ====
/-
  The two idealized programs compute the same column.

  Both sample the embedding grid at the points by the same operations, so the region of the kernel program finds, as its
  array of latent rows, the reference's sampled array (the kernel program's change to the narrower float format is the
  identity on extended reals); the read-out weights it finds as a row are the reference's column re-laid, and the last
  bias likewise. Entry (n, 0) of the kernel program's result column is the network at sampled row n over the arrays the
  region finds; entry (n, 0) of the reference's result is the network at sampled row n over the argument arrays. These
  are the same seven pieces of data, so the same number. No law of arithmetic is used, and no finiteness of the inputs.
-/
import proofs.«132478_j19215683682576_2_alg».proof.Proof.RunKI
import proofs.«132478_j19215683682576_2_alg».proof.Proof.EntryValuesKI
import proofs.«132478_j19215683682576_2_alg».proof.Proof.RefPoint

noncomputable section

namespace Cert.Proof.Bridge

open Idealize.ShloMosaic Idealize.ShloMosaic.TcCoe Idealize.ShloMosaic.ValueIdx Idealize.SL.Sem
open Cert.KernelIdeal Cert.KernelIdeal.Hand

variable (m : (ℓ : Loc nD τ sig) → Buf (Elt Ideal) ℓ)

/-- The common result: the reference's last stage over the kernel program's argument arrays. -/
def result (c : Dev nD) : S1048576x1.Idx → EReal :=
  Cert.ReferenceIdeal.Read.val_main_v430 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The network at sampled row n over the arrays the region finds is the reference's result at (n, 0). -/
theorem net_eq (c : Dev nD) (n : Fin 1048576) : net m c n = result m c (ix2 n (0 : Fin 1)) := by
  unfold result
  rw [Cert.ReferenceIdeal.RefPoint.ref_is_point]
  unfold net
  exact point_congr (fun i => V_lat_apply m c (ix2 n i)) (fun i j => congrFun (V_main_arg2 m c) (ix2 i j))
    (fun j => congrFun (V_main_arg3 m c) (ix1 j)) (fun j k => congrFun (V_main_arg4 m c) (ix2 j k))
    (fun k => congrFun (V_main_arg5 m c) (ix1 k)) (fun k => V_w3row_apply m c k) (V_b3_apply m c)

/-- Every index of a column [1048576, 1] is (n, 0). -/
theorem col_idx (i : S1048576x1.Idx) : i = ix2 (i 0) (0 : Fin 1) :=
  (eq_ix2 i).trans (congrArg (ix2 (i 0)) (Fin.eq_zero (i 1)))

/-- The kernel program's result column is the common result. -/
theorem column_eq (c : Dev nD) (v : S1048576x1.Idx → EReal)
    (hv : ∀ n : Fin 1048576, v (ix2 n (0 : Fin 1)) = net m c n) : v = result m c := by
  funext i
  rw [col_idx i]
  exact (hv (i 0)).trans (net_eq m c (i 0))

end Cert.Proof.Bridge

end
-- ==== Proof.RefOpsA.lean ====
/-
  The reference program's @main, windows 0 … 3 of ten, each as a straight line of host operations. The program is
  printed in windows of sixty statements; a call of an outlined function (a clip, a rectified-linear activation) stands
  for that function's operations on the call's own buffers, listed here in its place. Each window equals the straight
  line of its operations by unfolding, none of the operations allocates, and each touches TensorCore buffers only.
-/
import proofs.«132478_j19215683682576_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … of @main (its window 0), a called function's operations in place of the call. -/
abbrev ops0 : List (HloOp τ sig (Elt F)) :=
  [ reshape main_arg1 main_v0 rfl shapeCasts_S35937x32_S32x33x33x33,
    unary main_v0 main_v1 ((transpose S33x33x33x32 [1, 2, 3, 0] · transposes_S32x33x33x33_S33x33x33x32_1_2_3_0) : (⟨S32x33x33x33, .f32⟩ : BufTy).Contents (Elt F) → (⟨S33x33x33x32, .f32⟩ : BufTy).Contents (Elt F)),
    nullary main_cst (constant S_ .f32 0x3F800000#32),
    unary main_cst main_v2 (broadcastInDim S1048576x3 ![] bcast_S_S1048576x3 : (⟨S_, .f32⟩ : BufTy).Contents (Elt F) → (⟨S1048576x3, .f32⟩ : BufTy).Contents (Elt F)),
    binary main_arg0 main_v2 main_v3 (addf : (⟨S1048576x3, .f32⟩ : BufTy).Contents (Elt F) → (⟨S1048576x3, .f32⟩ : BufTy).Contents (Elt F) → (⟨S1048576x3, .f32⟩ : BufTy).Contents (Elt F)),
    nullary main_cst_0 (constant S_ .f32 0x41800000#32),
    unary main_cst_0 main_v4 (broadcastInDim S1048576x3 ![] bcast_S_S1048576x3 : (⟨S_, .f32⟩ : BufTy).Contents (Elt F) → (⟨S1048576x3, .f32⟩ : BufTy).Contents (Elt F)),
    binary main_v3 main_v4 main_v5 (mulf : (⟨S1048576x3, .f32⟩ : BufTy).Contents (Elt F) → (⟨S1048576x3, .f32⟩ : BufTy).Contents (Elt F) → (⟨S1048576x3, .f32⟩ : BufTy).Contents (Elt F)),
    unary main_v5 main_v6 ((extractStridedSlice S1048576x1 ![0, 0] · slices_S1048576x3_S1048576x1_0_0) : (⟨S1048576x3, .f32⟩ : BufTy).Contents (Elt F) → (⟨S1048576x1, .f32⟩ : BufTy).Contents (Elt F)),
    reshape main_v6 main_v7 rfl shapeCasts_S1048576x1_S1048576,
    unary main_v5 main_v8 ((extractStridedSlice S1048576x1 ![0, 1] · slices_S1048576x3_S1048576x1_0_1) : (⟨S1048576x3, .f32⟩ : BufTy).Contents (Elt F) → (⟨S1048576x1, .f32⟩ : BufTy).Contents (Elt F)),
    reshape main_v8 main_v9 rfl shapeCasts_S1048576x1_S1048576,
    unary main_v5 main_v10 ((extractStridedSlice S1048576x1 ![0, 2] · slices_S1048576x3_S1048576x1_0_2) : (⟨S1048576x3, .f32⟩ : BufTy).Contents (Elt F) → (⟨S1048576x1, .f32⟩ : BufTy).Contents (Elt F)),
    reshape main_v10 main_v11 rfl shapeCasts_S1048576x1_S1048576,
    unary main_v7 main_v12 (Host.floor : (⟨S1048576, .f32⟩ : BufTy).Contents (Elt F) → (⟨S1048576, .f32⟩ : BufTy).Contents (Elt F)),
    unary main_v9 main_v13 (Host.floor : (⟨S1048576, .f32⟩ : BufTy).Contents (Elt F) → (⟨S1048576, .f32⟩ : BufTy).Contents (Elt F)),
    unary main_v11 main_v14 (Host.floor : (⟨S1048576, .f32⟩ : BufTy).Contents (Elt F) → (⟨S1048576, .f32⟩ : BufTy).Contents (Elt F)),
    binary main_v7 main_v12 main_v15 (subf : (⟨S1048576, .f32⟩ : BufTy).Contents (Elt F) → (⟨S1048576, .f32⟩ : BufTy).Contents (Elt F) → (⟨S1048576, .f32⟩ : BufTy).Contents (Elt F)),
    binary main_v9 main_v13 main_v16 (subf : (⟨S1048576, .f32⟩ : BufTy).Contents (Elt F) → (⟨S1048576, .f32⟩ : BufTy).Contents (Elt F) → (⟨S1048576, .f32⟩ : BufTy).Contents (Elt F)),
    binary main_v11 main_v14 main_v17 (subf : (⟨S1048576, .f32⟩ : BufTy).Contents (Elt F) → (⟨S1048576, .f32⟩ : BufTy).Contents (Elt F) → (⟨S1048576, .f32⟩ : BufTy).Contents (Elt F)),
    unary main_v12 main_v18 (fptosi 32 : (⟨S1048576, .f32⟩ : BufTy).Contents (Elt F) → (⟨S1048576, .i32⟩ : BufTy).Contents (Elt F)),
    unary main_v13 main_v19 (fptosi 32 : (⟨S1048576, .f32⟩ : BufTy).Contents (Elt F) → (⟨S1048576, .i32⟩ : BufTy).Contents (Elt F)),
    unary main_v14 main_v20 (fptosi 32 : (⟨S1048576, .f32⟩ : BufTy).Contents (Elt F) → (⟨S1048576, .i32⟩ : BufTy).Contents (Elt F)),
    nullary main_c (constantI S_ 32 1#32),
    unary main_c main_v21 (broadcastInDim S1048576 ![] bcast_S_S1048576 : (⟨S_, .i32⟩ : BufTy).Contents (Elt F) → (⟨S1048576, .i32⟩ : BufTy).Contents (Elt F)),
    binary main_v18 main_v21 main_v22 (addi : (⟨S1048576, .i32⟩ : BufTy).Contents (Elt F) → (⟨S1048576, .i32⟩ : BufTy).Contents (Elt F) → (⟨S1048576, .i32⟩ : BufTy).Contents (Elt F)),
    nullary main_c_1 (constantI S_ 32 1#32),
    unary main_c_1 main_v23 (broadcastInDim S1048576 ![] bcast_S_S1048576 : (⟨S_, .i32⟩ : BufTy).Contents (Elt F) → (⟨S1048576, .i32⟩ : BufTy).Contents (Elt F)),
    binary main_v19 main_v23 main_v24 (addi : (⟨S1048576, .i32⟩ : BufTy).Contents (Elt F) → (⟨S1048576, .i32⟩ : BufTy).Contents (Elt F) → (⟨S1048576, .i32⟩ : BufTy).Contents (Elt F)),
    nullary main_c_2 (constantI S_ 32 1#32),
    unary main_c_2 main_v25 (broadcastInDim S1048576 ![] bcast_S_S1048576 : (⟨S_, .i32⟩ : BufTy).Contents (Elt F) → (⟨S1048576, .i32⟩ : BufTy).Contents (Elt F)),
    binary main_v20 main_v25 main_v26 (addi : (⟨S1048576, .i32⟩ : BufTy).Contents (Elt F) → (⟨S1048576, .i32⟩ : BufTy).Contents (Elt F) → (⟨S1048576, .i32⟩ : BufTy).Contents (Elt F)),
    nullary main_cst_3 (constant S_ .f32 0x3F800000#32),
    unary main_cst_3 main_v27 (broadcastInDim S1048576 ![] bcast_S_S1048576 : (⟨S_, .f32⟩ : BufTy).Contents (Elt F) → (⟨S1048576, .f32⟩ : BufTy).Contents (Elt F)),
    binary main_v27 main_v15 main_v28 (subf : (⟨S1048576, .f32⟩ : BufTy).Contents (Elt F) → (⟨S1048576, .f32⟩ : BufTy).Contents (Elt F) → (⟨S1048576, .f32⟩ : BufTy).Contents (Elt F)),
    nullary main_cst_4 (constant S_ .f32 0x3F800000#32),
    unary main_cst_4 main_v29 (broadcastInDim S1048576 ![] bcast_S_S1048576 : (⟨S_, .f32⟩ : BufTy).Contents (Elt F) → (⟨S1048576, .f32⟩ : BufTy).Contents (Elt F)),
    binary main_v29 main_v16 main_v30 (subf : (⟨S1048576, .f32⟩ : BufTy).Contents (Elt F) → (⟨S1048576, .f32⟩ : BufTy).Contents (Elt F) → (⟨S1048576, .f32⟩ : BufTy).Contents (Elt F)),
    nullary main_cst_5 (constant S_ .f32 0x3F800000#32),
    unary main_cst_5 main_v31 (broadcastInDim S1048576 ![] bcast_S_S1048576 : (⟨S_, .f32⟩ : BufTy).Contents (Elt F) → (⟨S1048576, .f32⟩ : BufTy).Contents (Elt F)),
    binary main_v31 main_v17 main_v32 (subf : (⟨S1048576, .f32⟩ : BufTy).Contents (Elt F) → (⟨S1048576, .f32⟩ : BufTy).Contents (Elt F) → (⟨S1048576, .f32⟩ : BufTy).Contents (Elt F)),
    binary main_v32 main_v30 main_v33 (mulf : (⟨S1048576, .f32⟩ : BufTy).Contents (Elt F) → (⟨S1048576, .f32⟩ : BufTy).Contents (Elt F) → (⟨S1048576, .f32⟩ : BufTy).Contents (Elt F)),
    binary main_v33 main_v28 main_v34 (mulf : (⟨S1048576, .f32⟩ : BufTy).Contents (Elt F) → (⟨S1048576, .f32⟩ : BufTy).Contents (Elt F) → (⟨S1048576, .f32⟩ : BufTy).Contents (Elt F)),
    nullary main_c_6 (constantI S_ 32 0#32),
    unary main_c_6 main_v35 (broadcastInDim S1048576 ![] bcast_S_S1048576 : (⟨S_, .i32⟩ : BufTy).Contents (Elt F) → (⟨S1048576, .i32⟩ : BufTy).Contents (Elt F)),
    binary main_v20 main_v35 main_v36 (cmpi .sge : (⟨S1048576, .i32⟩ : BufTy).Contents (Elt F) → (⟨S1048576, .i32⟩ : BufTy).Contents (Elt F) → (⟨S1048576, .i1⟩ : BufTy).Contents (Elt F)),
    nullary main_c_7 (constantI S_ 32 33#32),
    unary main_c_7 main_v37 (broadcastInDim S1048576 ![] bcast_S_S1048576 : (⟨S_, .i32⟩ : BufTy).Contents (Elt F) → (⟨S1048576, .i32⟩ : BufTy).Contents (Elt F)),
    binary main_v20 main_v37 main_v38 (cmpi .slt : (⟨S1048576, .i32⟩ : BufTy).Contents (Elt F) → (⟨S1048576, .i32⟩ : BufTy).Contents (Elt F) → (⟨S1048576, .i1⟩ : BufTy).Contents (Elt F)),
    binary main_v36 main_v38 main_v39 (andi : (⟨S1048576, .i1⟩ : BufTy).Contents (Elt F) → (⟨S1048576, .i1⟩ : BufTy).Contents (Elt F) → (⟨S1048576, .i1⟩ : BufTy).Contents (Elt F)),
    nullary main_c_8 (constantI S_ 32 0#32),
    unary main_c_8 main_v40 (broadcastInDim S1048576 ![] bcast_S_S1048576 : (⟨S_, .i32⟩ : BufTy).Contents (Elt F) → (⟨S1048576, .i32⟩ : BufTy).Contents (Elt F)),
    binary main_v19 main_v40 main_v41 (cmpi .sge : (⟨S1048576, .i32⟩ : BufTy).Contents (Elt F) → (⟨S1048576, .i32⟩ : BufTy).Contents (Elt F) → (⟨S1048576, .i1⟩ : BufTy).Contents (Elt F)),
    binary main_v39 main_v41 main_v42 (andi : (⟨S1048576, .i1⟩ : BufTy).Contents (Elt F) → (⟨S1048576, .i1⟩ : BufTy).Contents (Elt F) → (⟨S1048576, .i1⟩ : BufTy).Contents (Elt F)),
    nullary main_c_9 (constantI S_ 32 33#32),
    unary main_c_9 main_v43 (broadcastInDim S1048576 ![] bcast_S_S1048576 : (⟨S_, .i32⟩ : BufTy).Contents (Elt F) → (⟨S1048576, .i32⟩ : BufTy).Contents (Elt F)),
    binary main_v19 main_v43 main_v44 (cmpi .slt : (⟨S1048576, .i32⟩ : BufTy).Contents (Elt F) → (⟨S1048576, .i32⟩ : BufTy).Contents (Elt F) → (⟨S1048576, .i1⟩ : BufTy).Contents (Elt F)),
    binary main_v42 main_v44 main_v45 (andi : (⟨S1048576, .i1⟩ : BufTy).Contents (Elt F) → (⟨S1048576, .i1⟩ : BufTy).Contents (Elt F) → (⟨S1048576, .i1⟩ : BufTy).Contents (Elt F)),
    nullary main_c_10 (constantI S_ 32 0#32),
    unary main_c_10 main_v46 (broadcastInDim S1048576 ![] bcast_S_S1048576 : (⟨S_, .i32⟩ : BufTy).Contents (Elt F) → (⟨S1048576, .i32⟩ : BufTy).Contents (Elt F)) ]
/-- Each touches TensorCore references only. -/
theorem ops0_sub : (ops0 : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., unary_bufs_sub .., unary_bufs_sub .., binary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩
/-- None allocates a buffer. -/
theorem ops0_fresh : (ops0 : List (HloOp τ sig (Elt F))).Forall fun op => op.fresh = ∅ := by
  simp only [List.Forall]; repeat' constructor
/-- Window 0 of @main is the straight line of these operations: both sides unfold to the same sequence of steps. -/
theorem main_part0_eq (c : Dev nD) : main_part0 (F := F) c = seq ops0 := by
  chain_rfl

/-- The operations of statements 61 … of @main (its window 1), a called function's operations in place of the call. -/
abbrev ops1 : List (HloOp τ sig (Elt F)) :=
  [ binary main_v18 main_v46 main_v47 (cmpi .sge : (⟨S1048576, .i32⟩ : BufTy).Contents (Elt F) → (⟨S1048576, .i32⟩ : BufTy).Contents (Elt F) → (⟨S1048576, .i1⟩ : BufTy).Contents (Elt F)),
    binary main_v45 main_v47 main_v48 (andi : (⟨S1048576, .i1⟩ : BufTy).Contents (Elt F) → (⟨S1048576, .i1⟩ : BufTy).Contents (Elt F) → (⟨S1048576, .i1⟩ : BufTy).Contents (Elt F)),
    nullary main_c_11 (constantI S_ 32 33#32),
    unary main_c_11 main_v49 (broadcastInDim S1048576 ![] bcast_S_S1048576 : (⟨S_, .i32⟩ : BufTy).Contents (Elt F) → (⟨S1048576, .i32⟩ : BufTy).Contents (Elt F)),
    binary main_v18 main_v49 main_v50 (cmpi .slt : (⟨S1048576, .i32⟩ : BufTy).Contents (Elt F) → (⟨S1048576, .i32⟩ : BufTy).Contents (Elt F) → (⟨S1048576, .i1⟩ : BufTy).Contents (Elt F)),
    binary main_v48 main_v50 main_v51 (andi : (⟨S1048576, .i1⟩ : BufTy).Contents (Elt F) → (⟨S1048576, .i1⟩ : BufTy).Contents (Elt F) → (⟨S1048576, .i1⟩ : BufTy).Contents (Elt F)),
    nullary main_c_12 (constantI S_ 32 0#32),
    nullary main_c_13 (constantI S_ 32 32#32),
    TRef.unary (TRef.of (T := ⟨S_, .i32⟩) main_c_12) (TRef.of (T := ⟨S_, .i32⟩) main_call0_v0) id,
    TRef.unary (TRef.of (T := ⟨S_, .i32⟩) main_call0_v0) (TRef.of (T := ⟨S1048576, .i32⟩) main_call0_v1) (broadcastInDim S1048576 ![] bcast_S_S1048576),
    TRef.binary (TRef.of (T := ⟨S1048576, .i32⟩) main_call0_v1) (TRef.of (T := ⟨S1048576, .i32⟩) main_v20) (TRef.of (T := ⟨S1048576, .i32⟩) main_call0_v2) maxsi,
    TRef.unary (TRef.of (T := ⟨S_, .i32⟩) main_c_13) (TRef.of (T := ⟨S_, .i32⟩) main_call0_v3) id,
    TRef.unary (TRef.of (T := ⟨S_, .i32⟩) main_call0_v3) (TRef.of (T := ⟨S1048576, .i32⟩) main_call0_v4) (broadcastInDim S1048576 ![] bcast_S_S1048576),
    TRef.binary (TRef.of (T := ⟨S1048576, .i32⟩) main_call0_v4) (TRef.of (T := ⟨S1048576, .i32⟩) main_call0_v2) (TRef.of (T := ⟨S1048576, .i32⟩) main_v52) minsi,
    nullary main_c_14 (constantI S_ 32 0#32),
    nullary main_c_15 (constantI S_ 32 32#32),
    TRef.unary (TRef.of (T := ⟨S_, .i32⟩) main_c_14) (TRef.of (T := ⟨S_, .i32⟩) main_call1_v0) id,
    TRef.unary (TRef.of (T := ⟨S_, .i32⟩) main_call1_v0) (TRef.of (T := ⟨S1048576, .i32⟩) main_call1_v1) (broadcastInDim S1048576 ![] bcast_S_S1048576),
    TRef.binary (TRef.of (T := ⟨S1048576, .i32⟩) main_call1_v1) (TRef.of (T := ⟨S1048576, .i32⟩) main_v19) (TRef.of (T := ⟨S1048576, .i32⟩) main_call1_v2) maxsi,
    TRef.unary (TRef.of (T := ⟨S_, .i32⟩) main_c_15) (TRef.of (T := ⟨S_, .i32⟩) main_call1_v3) id,
    TRef.unary (TRef.of (T := ⟨S_, .i32⟩) main_call1_v3) (TRef.of (T := ⟨S1048576, .i32⟩) main_call1_v4) (broadcastInDim S1048576 ![] bcast_S_S1048576),
    TRef.binary (TRef.of (T := ⟨S1048576, .i32⟩) main_call1_v4) (TRef.of (T := ⟨S1048576, .i32⟩) main_call1_v2) (TRef.of (T := ⟨S1048576, .i32⟩) main_v53) minsi,
    nullary main_c_16 (constantI S_ 32 0#32),
    nullary main_c_17 (constantI S_ 32 32#32),
    TRef.unary (TRef.of (T := ⟨S_, .i32⟩) main_c_16) (TRef.of (T := ⟨S_, .i32⟩) main_call2_v0) id,
    TRef.unary (TRef.of (T := ⟨S_, .i32⟩) main_call2_v0) (TRef.of (T := ⟨S1048576, .i32⟩) main_call2_v1) (broadcastInDim S1048576 ![] bcast_S_S1048576),
    TRef.binary (TRef.of (T := ⟨S1048576, .i32⟩) main_call2_v1) (TRef.of (T := ⟨S1048576, .i32⟩) main_v18) (TRef.of (T := ⟨S1048576, .i32⟩) main_call2_v2) maxsi,
    TRef.unary (TRef.of (T := ⟨S_, .i32⟩) main_c_17) (TRef.of (T := ⟨S_, .i32⟩) main_call2_v3) id,
    TRef.unary (TRef.of (T := ⟨S_, .i32⟩) main_call2_v3) (TRef.of (T := ⟨S1048576, .i32⟩) main_call2_v4) (broadcastInDim S1048576 ![] bcast_S_S1048576),
    TRef.binary (TRef.of (T := ⟨S1048576, .i32⟩) main_call2_v4) (TRef.of (T := ⟨S1048576, .i32⟩) main_call2_v2) (TRef.of (T := ⟨S1048576, .i32⟩) main_v54) minsi,
    nullary main_c_18 (constantI S_ 32 0#32),
    unary main_c_18 main_v55 (broadcastInDim S1048576 ![] bcast_S_S1048576 : (⟨S_, .i32⟩ : BufTy).Contents (Elt F) → (⟨S1048576, .i32⟩ : BufTy).Contents (Elt F)),
    binary main_v52 main_v55 main_v56 (cmpi .slt : (⟨S1048576, .i32⟩ : BufTy).Contents (Elt F) → (⟨S1048576, .i32⟩ : BufTy).Contents (Elt F) → (⟨S1048576, .i1⟩ : BufTy).Contents (Elt F)),
    nullary main_c_19 (constantI S_ 32 33#32),
    unary main_c_19 main_v57 (broadcastInDim S1048576 ![] bcast_S_S1048576 : (⟨S_, .i32⟩ : BufTy).Contents (Elt F) → (⟨S1048576, .i32⟩ : BufTy).Contents (Elt F)),
    binary main_v52 main_v57 main_v58 (addi : (⟨S1048576, .i32⟩ : BufTy).Contents (Elt F) → (⟨S1048576, .i32⟩ : BufTy).Contents (Elt F) → (⟨S1048576, .i32⟩ : BufTy).Contents (Elt F)),
    ternary main_v56 main_v58 main_v52 main_v59 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_20 (constantI S_ 32 0#32),
    unary main_c_20 main_v60 (broadcastInDim S1048576 ![] bcast_S_S1048576 : (⟨S_, .i32⟩ : BufTy).Contents (Elt F) → (⟨S1048576, .i32⟩ : BufTy).Contents (Elt F)),
    binary main_v53 main_v60 main_v61 (cmpi .slt : (⟨S1048576, .i32⟩ : BufTy).Contents (Elt F) → (⟨S1048576, .i32⟩ : BufTy).Contents (Elt F) → (⟨S1048576, .i1⟩ : BufTy).Contents (Elt F)),
    nullary main_c_21 (constantI S_ 32 33#32),
    unary main_c_21 main_v62 (broadcastInDim S1048576 ![] bcast_S_S1048576 : (⟨S_, .i32⟩ : BufTy).Contents (Elt F) → (⟨S1048576, .i32⟩ : BufTy).Contents (Elt F)),
    binary main_v53 main_v62 main_v63 (addi : (⟨S1048576, .i32⟩ : BufTy).Contents (Elt F) → (⟨S1048576, .i32⟩ : BufTy).Contents (Elt F) → (⟨S1048576, .i32⟩ : BufTy).Contents (Elt F)),
    ternary main_v61 main_v63 main_v53 main_v64 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_22 (constantI S_ 32 0#32),
    unary main_c_22 main_v65 (broadcastInDim S1048576 ![] bcast_S_S1048576 : (⟨S_, .i32⟩ : BufTy).Contents (Elt F) → (⟨S1048576, .i32⟩ : BufTy).Contents (Elt F)),
    binary main_v54 main_v65 main_v66 (cmpi .slt : (⟨S1048576, .i32⟩ : BufTy).Contents (Elt F) → (⟨S1048576, .i32⟩ : BufTy).Contents (Elt F) → (⟨S1048576, .i1⟩ : BufTy).Contents (Elt F)),
    nullary main_c_23 (constantI S_ 32 33#32),
    unary main_c_23 main_v67 (broadcastInDim S1048576 ![] bcast_S_S1048576 : (⟨S_, .i32⟩ : BufTy).Contents (Elt F) → (⟨S1048576, .i32⟩ : BufTy).Contents (Elt F)),
    binary main_v54 main_v67 main_v68 (addi : (⟨S1048576, .i32⟩ : BufTy).Contents (Elt F) → (⟨S1048576, .i32⟩ : BufTy).Contents (Elt F) → (⟨S1048576, .i32⟩ : BufTy).Contents (Elt F)),
    ternary main_v66 main_v68 main_v54 main_v69 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v59 main_v70 (broadcastInDim S1048576x1 ![0] bcast_S1048576_S1048576x1_0 : (⟨S1048576, .i32⟩ : BufTy).Contents (Elt F) → (⟨S1048576x1, .i32⟩ : BufTy).Contents (Elt F)),
    unary main_v64 main_v71 (broadcastInDim S1048576x1 ![0] bcast_S1048576_S1048576x1_0 : (⟨S1048576, .i32⟩ : BufTy).Contents (Elt F) → (⟨S1048576x1, .i32⟩ : BufTy).Contents (Elt F)),
    unary main_v69 main_v72 (broadcastInDim S1048576x1 ![0] bcast_S1048576_S1048576x1_0 : (⟨S1048576, .i32⟩ : BufTy).Contents (Elt F) → (⟨S1048576x1, .i32⟩ : BufTy).Contents (Elt F)),
    nary ![main_v70, main_v71, main_v72] main_v73 (fun u => concatenate S1048576x3 1 [⟨S1048576x1, u 0⟩, ⟨S1048576x1, u 1⟩, ⟨S1048576x1, u 2⟩] concatenates_S1048576x1_S1048576x1_S1048576x1_S1048576x3_d1),
    binary main_v1 main_v73 main_v74 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v51 main_v75 (uitofp .f32 : (⟨S1048576, .i1⟩ : BufTy).Contents (Elt F) → (⟨S1048576, .f32⟩ : BufTy).Contents (Elt F)),
    binary main_v34 main_v75 main_v76 (mulf : (⟨S1048576, .f32⟩ : BufTy).Contents (Elt F) → (⟨S1048576, .f32⟩ : BufTy).Contents (Elt F) → (⟨S1048576, .f32⟩ : BufTy).Contents (Elt F)),
    unary main_v76 main_v77 (broadcastInDim S1048576x1 ![0] bcast_S1048576_S1048576x1_0 : (⟨S1048576, .f32⟩ : BufTy).Contents (Elt F) → (⟨S1048576x1, .f32⟩ : BufTy).Contents (Elt F)),
    unary main_v77 main_v78 (broadcastInDim S1048576x32 ![0, 1] bcast_S1048576x1_S1048576x32_0_1 : (⟨S1048576x1, .f32⟩ : BufTy).Contents (Elt F) → (⟨S1048576x32, .f32⟩ : BufTy).Contents (Elt F)),
    binary main_v74 main_v78 main_v79 (mulf : (⟨S1048576x32, .f32⟩ : BufTy).Contents (Elt F) → (⟨S1048576x32, .f32⟩ : BufTy).Contents (Elt F) → (⟨S1048576x32, .f32⟩ : BufTy).Contents (Elt F)),
    binary main_v32 main_v30 main_v80 (mulf : (⟨S1048576, .f32⟩ : BufTy).Contents (Elt F) → (⟨S1048576, .f32⟩ : BufTy).Contents (Elt F) → (⟨S1048576, .f32⟩ : BufTy).Contents (Elt F)),
    binary main_v80 main_v15 main_v81 (mulf : (⟨S1048576, .f32⟩ : BufTy).Contents (Elt F) → (⟨S1048576, .f32⟩ : BufTy).Contents (Elt F) → (⟨S1048576, .f32⟩ : BufTy).Contents (Elt F)),
    nullary main_c_24 (constantI S_ 32 0#32),
    unary main_c_24 main_v82 (broadcastInDim S1048576 ![] bcast_S_S1048576 : (⟨S_, .i32⟩ : BufTy).Contents (Elt F) → (⟨S1048576, .i32⟩ : BufTy).Contents (Elt F)),
    binary main_v20 main_v82 main_v83 (cmpi .sge : (⟨S1048576, .i32⟩ : BufTy).Contents (Elt F) → (⟨S1048576, .i32⟩ : BufTy).Contents (Elt F) → (⟨S1048576, .i1⟩ : BufTy).Contents (Elt F)),
    nullary main_c_25 (constantI S_ 32 33#32),
    unary main_c_25 main_v84 (broadcastInDim S1048576 ![] bcast_S_S1048576 : (⟨S_, .i32⟩ : BufTy).Contents (Elt F) → (⟨S1048576, .i32⟩ : BufTy).Contents (Elt F)),
    binary main_v20 main_v84 main_v85 (cmpi .slt : (⟨S1048576, .i32⟩ : BufTy).Contents (Elt F) → (⟨S1048576, .i32⟩ : BufTy).Contents (Elt F) → (⟨S1048576, .i1⟩ : BufTy).Contents (Elt F)),
    binary main_v83 main_v85 main_v86 (andi : (⟨S1048576, .i1⟩ : BufTy).Contents (Elt F) → (⟨S1048576, .i1⟩ : BufTy).Contents (Elt F) → (⟨S1048576, .i1⟩ : BufTy).Contents (Elt F)),
    nullary main_c_26 (constantI S_ 32 0#32),
    unary main_c_26 main_v87 (broadcastInDim S1048576 ![] bcast_S_S1048576 : (⟨S_, .i32⟩ : BufTy).Contents (Elt F) → (⟨S1048576, .i32⟩ : BufTy).Contents (Elt F)),
    binary main_v19 main_v87 main_v88 (cmpi .sge : (⟨S1048576, .i32⟩ : BufTy).Contents (Elt F) → (⟨S1048576, .i32⟩ : BufTy).Contents (Elt F) → (⟨S1048576, .i1⟩ : BufTy).Contents (Elt F)),
    binary main_v86 main_v88 main_v89 (andi : (⟨S1048576, .i1⟩ : BufTy).Contents (Elt F) → (⟨S1048576, .i1⟩ : BufTy).Contents (Elt F) → (⟨S1048576, .i1⟩ : BufTy).Contents (Elt F)),
    nullary main_c_27 (constantI S_ 32 33#32) ]
/-- Each touches TensorCore references only. -/
theorem ops1_sub : (ops1 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩
/-- None allocates a buffer. -/
theorem ops1_fresh : (ops1 : List (HloOp τ sig (Elt F))).Forall fun op => op.fresh = ∅ := by
  simp only [List.Forall]; repeat' constructor
/-- Window 1 of @main is the straight line of these operations: both sides unfold to the same sequence of steps. -/
theorem main_part1_eq (c : Dev nD) : main_part1 (F := F) c = seq ops1 := by
  chain_rfl

/-- The operations of statements 121 … of @main (its window 2), a called function's operations in place of the call. -/
abbrev ops2 : List (HloOp τ sig (Elt F)) :=
  [ unary main_c_27 main_v90 (broadcastInDim S1048576 ![] bcast_S_S1048576 : (⟨S_, .i32⟩ : BufTy).Contents (Elt F) → (⟨S1048576, .i32⟩ : BufTy).Contents (Elt F)),
    binary main_v19 main_v90 main_v91 (cmpi .slt : (⟨S1048576, .i32⟩ : BufTy).Contents (Elt F) → (⟨S1048576, .i32⟩ : BufTy).Contents (Elt F) → (⟨S1048576, .i1⟩ : BufTy).Contents (Elt F)),
    binary main_v89 main_v91 main_v92 (andi : (⟨S1048576, .i1⟩ : BufTy).Contents (Elt F) → (⟨S1048576, .i1⟩ : BufTy).Contents (Elt F) → (⟨S1048576, .i1⟩ : BufTy).Contents (Elt F)),
    nullary main_c_28 (constantI S_ 32 0#32),
    unary main_c_28 main_v93 (broadcastInDim S1048576 ![] bcast_S_S1048576 : (⟨S_, .i32⟩ : BufTy).Contents (Elt F) → (⟨S1048576, .i32⟩ : BufTy).Contents (Elt F)),
    binary main_v22 main_v93 main_v94 (cmpi .sge : (⟨S1048576, .i32⟩ : BufTy).Contents (Elt F) → (⟨S1048576, .i32⟩ : BufTy).Contents (Elt F) → (⟨S1048576, .i1⟩ : BufTy).Contents (Elt F)),
    binary main_v92 main_v94 main_v95 (andi : (⟨S1048576, .i1⟩ : BufTy).Contents (Elt F) → (⟨S1048576, .i1⟩ : BufTy).Contents (Elt F) → (⟨S1048576, .i1⟩ : BufTy).Contents (Elt F)),
    nullary main_c_29 (constantI S_ 32 33#32),
    unary main_c_29 main_v96 (broadcastInDim S1048576 ![] bcast_S_S1048576 : (⟨S_, .i32⟩ : BufTy).Contents (Elt F) → (⟨S1048576, .i32⟩ : BufTy).Contents (Elt F)),
    binary main_v22 main_v96 main_v97 (cmpi .slt : (⟨S1048576, .i32⟩ : BufTy).Contents (Elt F) → (⟨S1048576, .i32⟩ : BufTy).Contents (Elt F) → (⟨S1048576, .i1⟩ : BufTy).Contents (Elt F)),
    binary main_v95 main_v97 main_v98 (andi : (⟨S1048576, .i1⟩ : BufTy).Contents (Elt F) → (⟨S1048576, .i1⟩ : BufTy).Contents (Elt F) → (⟨S1048576, .i1⟩ : BufTy).Contents (Elt F)),
    nullary main_c_30 (constantI S_ 32 0#32),
    nullary main_c_31 (constantI S_ 32 32#32),
    TRef.unary (TRef.of (T := ⟨S_, .i32⟩) main_c_30) (TRef.of (T := ⟨S_, .i32⟩) main_call3_v0) id,
    TRef.unary (TRef.of (T := ⟨S_, .i32⟩) main_call3_v0) (TRef.of (T := ⟨S1048576, .i32⟩) main_call3_v1) (broadcastInDim S1048576 ![] bcast_S_S1048576),
    TRef.binary (TRef.of (T := ⟨S1048576, .i32⟩) main_call3_v1) (TRef.of (T := ⟨S1048576, .i32⟩) main_v20) (TRef.of (T := ⟨S1048576, .i32⟩) main_call3_v2) maxsi,
    TRef.unary (TRef.of (T := ⟨S_, .i32⟩) main_c_31) (TRef.of (T := ⟨S_, .i32⟩) main_call3_v3) id,
    TRef.unary (TRef.of (T := ⟨S_, .i32⟩) main_call3_v3) (TRef.of (T := ⟨S1048576, .i32⟩) main_call3_v4) (broadcastInDim S1048576 ![] bcast_S_S1048576),
    TRef.binary (TRef.of (T := ⟨S1048576, .i32⟩) main_call3_v4) (TRef.of (T := ⟨S1048576, .i32⟩) main_call3_v2) (TRef.of (T := ⟨S1048576, .i32⟩) main_v99) minsi,
    nullary main_c_32 (constantI S_ 32 0#32),
    nullary main_c_33 (constantI S_ 32 32#32),
    TRef.unary (TRef.of (T := ⟨S_, .i32⟩) main_c_32) (TRef.of (T := ⟨S_, .i32⟩) main_call4_v0) id,
    TRef.unary (TRef.of (T := ⟨S_, .i32⟩) main_call4_v0) (TRef.of (T := ⟨S1048576, .i32⟩) main_call4_v1) (broadcastInDim S1048576 ![] bcast_S_S1048576),
    TRef.binary (TRef.of (T := ⟨S1048576, .i32⟩) main_call4_v1) (TRef.of (T := ⟨S1048576, .i32⟩) main_v19) (TRef.of (T := ⟨S1048576, .i32⟩) main_call4_v2) maxsi,
    TRef.unary (TRef.of (T := ⟨S_, .i32⟩) main_c_33) (TRef.of (T := ⟨S_, .i32⟩) main_call4_v3) id,
    TRef.unary (TRef.of (T := ⟨S_, .i32⟩) main_call4_v3) (TRef.of (T := ⟨S1048576, .i32⟩) main_call4_v4) (broadcastInDim S1048576 ![] bcast_S_S1048576),
    TRef.binary (TRef.of (T := ⟨S1048576, .i32⟩) main_call4_v4) (TRef.of (T := ⟨S1048576, .i32⟩) main_call4_v2) (TRef.of (T := ⟨S1048576, .i32⟩) main_v100) minsi,
    nullary main_c_34 (constantI S_ 32 0#32),
    nullary main_c_35 (constantI S_ 32 32#32),
    TRef.unary (TRef.of (T := ⟨S_, .i32⟩) main_c_34) (TRef.of (T := ⟨S_, .i32⟩) main_call5_v0) id,
    TRef.unary (TRef.of (T := ⟨S_, .i32⟩) main_call5_v0) (TRef.of (T := ⟨S1048576, .i32⟩) main_call5_v1) (broadcastInDim S1048576 ![] bcast_S_S1048576),
    TRef.binary (TRef.of (T := ⟨S1048576, .i32⟩) main_call5_v1) (TRef.of (T := ⟨S1048576, .i32⟩) main_v22) (TRef.of (T := ⟨S1048576, .i32⟩) main_call5_v2) maxsi,
    TRef.unary (TRef.of (T := ⟨S_, .i32⟩) main_c_35) (TRef.of (T := ⟨S_, .i32⟩) main_call5_v3) id,
    TRef.unary (TRef.of (T := ⟨S_, .i32⟩) main_call5_v3) (TRef.of (T := ⟨S1048576, .i32⟩) main_call5_v4) (broadcastInDim S1048576 ![] bcast_S_S1048576),
    TRef.binary (TRef.of (T := ⟨S1048576, .i32⟩) main_call5_v4) (TRef.of (T := ⟨S1048576, .i32⟩) main_call5_v2) (TRef.of (T := ⟨S1048576, .i32⟩) main_v101) minsi,
    nullary main_c_36 (constantI S_ 32 0#32),
    unary main_c_36 main_v102 (broadcastInDim S1048576 ![] bcast_S_S1048576 : (⟨S_, .i32⟩ : BufTy).Contents (Elt F) → (⟨S1048576, .i32⟩ : BufTy).Contents (Elt F)),
    binary main_v99 main_v102 main_v103 (cmpi .slt : (⟨S1048576, .i32⟩ : BufTy).Contents (Elt F) → (⟨S1048576, .i32⟩ : BufTy).Contents (Elt F) → (⟨S1048576, .i1⟩ : BufTy).Contents (Elt F)),
    nullary main_c_37 (constantI S_ 32 33#32),
    unary main_c_37 main_v104 (broadcastInDim S1048576 ![] bcast_S_S1048576 : (⟨S_, .i32⟩ : BufTy).Contents (Elt F) → (⟨S1048576, .i32⟩ : BufTy).Contents (Elt F)),
    binary main_v99 main_v104 main_v105 (addi : (⟨S1048576, .i32⟩ : BufTy).Contents (Elt F) → (⟨S1048576, .i32⟩ : BufTy).Contents (Elt F) → (⟨S1048576, .i32⟩ : BufTy).Contents (Elt F)),
    ternary main_v103 main_v105 main_v99 main_v106 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_38 (constantI S_ 32 0#32),
    unary main_c_38 main_v107 (broadcastInDim S1048576 ![] bcast_S_S1048576 : (⟨S_, .i32⟩ : BufTy).Contents (Elt F) → (⟨S1048576, .i32⟩ : BufTy).Contents (Elt F)),
    binary main_v100 main_v107 main_v108 (cmpi .slt : (⟨S1048576, .i32⟩ : BufTy).Contents (Elt F) → (⟨S1048576, .i32⟩ : BufTy).Contents (Elt F) → (⟨S1048576, .i1⟩ : BufTy).Contents (Elt F)),
    nullary main_c_39 (constantI S_ 32 33#32),
    unary main_c_39 main_v109 (broadcastInDim S1048576 ![] bcast_S_S1048576 : (⟨S_, .i32⟩ : BufTy).Contents (Elt F) → (⟨S1048576, .i32⟩ : BufTy).Contents (Elt F)),
    binary main_v100 main_v109 main_v110 (addi : (⟨S1048576, .i32⟩ : BufTy).Contents (Elt F) → (⟨S1048576, .i32⟩ : BufTy).Contents (Elt F) → (⟨S1048576, .i32⟩ : BufTy).Contents (Elt F)),
    ternary main_v108 main_v110 main_v100 main_v111 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_40 (constantI S_ 32 0#32),
    unary main_c_40 main_v112 (broadcastInDim S1048576 ![] bcast_S_S1048576 : (⟨S_, .i32⟩ : BufTy).Contents (Elt F) → (⟨S1048576, .i32⟩ : BufTy).Contents (Elt F)),
    binary main_v101 main_v112 main_v113 (cmpi .slt : (⟨S1048576, .i32⟩ : BufTy).Contents (Elt F) → (⟨S1048576, .i32⟩ : BufTy).Contents (Elt F) → (⟨S1048576, .i1⟩ : BufTy).Contents (Elt F)),
    nullary main_c_41 (constantI S_ 32 33#32),
    unary main_c_41 main_v114 (broadcastInDim S1048576 ![] bcast_S_S1048576 : (⟨S_, .i32⟩ : BufTy).Contents (Elt F) → (⟨S1048576, .i32⟩ : BufTy).Contents (Elt F)),
    binary main_v101 main_v114 main_v115 (addi : (⟨S1048576, .i32⟩ : BufTy).Contents (Elt F) → (⟨S1048576, .i32⟩ : BufTy).Contents (Elt F) → (⟨S1048576, .i32⟩ : BufTy).Contents (Elt F)),
    ternary main_v113 main_v115 main_v101 main_v116 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v106 main_v117 (broadcastInDim S1048576x1 ![0] bcast_S1048576_S1048576x1_0 : (⟨S1048576, .i32⟩ : BufTy).Contents (Elt F) → (⟨S1048576x1, .i32⟩ : BufTy).Contents (Elt F)),
    unary main_v111 main_v118 (broadcastInDim S1048576x1 ![0] bcast_S1048576_S1048576x1_0 : (⟨S1048576, .i32⟩ : BufTy).Contents (Elt F) → (⟨S1048576x1, .i32⟩ : BufTy).Contents (Elt F)),
    unary main_v116 main_v119 (broadcastInDim S1048576x1 ![0] bcast_S1048576_S1048576x1_0 : (⟨S1048576, .i32⟩ : BufTy).Contents (Elt F) → (⟨S1048576x1, .i32⟩ : BufTy).Contents (Elt F)),
    nary ![main_v117, main_v118, main_v119] main_v120 (fun u => concatenate S1048576x3 1 [⟨S1048576x1, u 0⟩, ⟨S1048576x1, u 1⟩, ⟨S1048576x1, u 2⟩] concatenates_S1048576x1_S1048576x1_S1048576x1_S1048576x3_d1),
    binary main_v1 main_v120 main_v121 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v98 main_v122 (uitofp .f32 : (⟨S1048576, .i1⟩ : BufTy).Contents (Elt F) → (⟨S1048576, .f32⟩ : BufTy).Contents (Elt F)),
    binary main_v81 main_v122 main_v123 (mulf : (⟨S1048576, .f32⟩ : BufTy).Contents (Elt F) → (⟨S1048576, .f32⟩ : BufTy).Contents (Elt F) → (⟨S1048576, .f32⟩ : BufTy).Contents (Elt F)),
    unary main_v123 main_v124 (broadcastInDim S1048576x1 ![0] bcast_S1048576_S1048576x1_0 : (⟨S1048576, .f32⟩ : BufTy).Contents (Elt F) → (⟨S1048576x1, .f32⟩ : BufTy).Contents (Elt F)),
    unary main_v124 main_v125 (broadcastInDim S1048576x32 ![0, 1] bcast_S1048576x1_S1048576x32_0_1 : (⟨S1048576x1, .f32⟩ : BufTy).Contents (Elt F) → (⟨S1048576x32, .f32⟩ : BufTy).Contents (Elt F)),
    binary main_v121 main_v125 main_v126 (mulf : (⟨S1048576x32, .f32⟩ : BufTy).Contents (Elt F) → (⟨S1048576x32, .f32⟩ : BufTy).Contents (Elt F) → (⟨S1048576x32, .f32⟩ : BufTy).Contents (Elt F)),
    binary main_v79 main_v126 main_v127 (addf : (⟨S1048576x32, .f32⟩ : BufTy).Contents (Elt F) → (⟨S1048576x32, .f32⟩ : BufTy).Contents (Elt F) → (⟨S1048576x32, .f32⟩ : BufTy).Contents (Elt F)),
    binary main_v32 main_v16 main_v128 (mulf : (⟨S1048576, .f32⟩ : BufTy).Contents (Elt F) → (⟨S1048576, .f32⟩ : BufTy).Contents (Elt F) → (⟨S1048576, .f32⟩ : BufTy).Contents (Elt F)),
    binary main_v128 main_v28 main_v129 (mulf : (⟨S1048576, .f32⟩ : BufTy).Contents (Elt F) → (⟨S1048576, .f32⟩ : BufTy).Contents (Elt F) → (⟨S1048576, .f32⟩ : BufTy).Contents (Elt F)),
    nullary main_c_42 (constantI S_ 32 0#32),
    unary main_c_42 main_v130 (broadcastInDim S1048576 ![] bcast_S_S1048576 : (⟨S_, .i32⟩ : BufTy).Contents (Elt F) → (⟨S1048576, .i32⟩ : BufTy).Contents (Elt F)),
    binary main_v20 main_v130 main_v131 (cmpi .sge : (⟨S1048576, .i32⟩ : BufTy).Contents (Elt F) → (⟨S1048576, .i32⟩ : BufTy).Contents (Elt F) → (⟨S1048576, .i1⟩ : BufTy).Contents (Elt F)),
    nullary main_c_43 (constantI S_ 32 33#32),
    unary main_c_43 main_v132 (broadcastInDim S1048576 ![] bcast_S_S1048576 : (⟨S_, .i32⟩ : BufTy).Contents (Elt F) → (⟨S1048576, .i32⟩ : BufTy).Contents (Elt F)),
    binary main_v20 main_v132 main_v133 (cmpi .slt : (⟨S1048576, .i32⟩ : BufTy).Contents (Elt F) → (⟨S1048576, .i32⟩ : BufTy).Contents (Elt F) → (⟨S1048576, .i1⟩ : BufTy).Contents (Elt F)) ]
/-- Each touches TensorCore references only. -/
theorem ops2_sub : (ops2 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
/-- None allocates a buffer. -/
theorem ops2_fresh : (ops2 : List (HloOp τ sig (Elt F))).Forall fun op => op.fresh = ∅ := by
  simp only [List.Forall]; repeat' constructor
/-- Window 2 of @main is the straight line of these operations: both sides unfold to the same sequence of steps. -/
theorem main_part2_eq (c : Dev nD) : main_part2 (F := F) c = seq ops2 := by
  chain_rfl

/-- The operations of statements 181 … of @main (its window 3), a called function's operations in place of the call. -/
abbrev ops3 : List (HloOp τ sig (Elt F)) :=
  [ binary main_v131 main_v133 main_v134 (andi : (⟨S1048576, .i1⟩ : BufTy).Contents (Elt F) → (⟨S1048576, .i1⟩ : BufTy).Contents (Elt F) → (⟨S1048576, .i1⟩ : BufTy).Contents (Elt F)),
    nullary main_c_44 (constantI S_ 32 0#32),
    unary main_c_44 main_v135 (broadcastInDim S1048576 ![] bcast_S_S1048576 : (⟨S_, .i32⟩ : BufTy).Contents (Elt F) → (⟨S1048576, .i32⟩ : BufTy).Contents (Elt F)),
    binary main_v24 main_v135 main_v136 (cmpi .sge : (⟨S1048576, .i32⟩ : BufTy).Contents (Elt F) → (⟨S1048576, .i32⟩ : BufTy).Contents (Elt F) → (⟨S1048576, .i1⟩ : BufTy).Contents (Elt F)),
    binary main_v134 main_v136 main_v137 (andi : (⟨S1048576, .i1⟩ : BufTy).Contents (Elt F) → (⟨S1048576, .i1⟩ : BufTy).Contents (Elt F) → (⟨S1048576, .i1⟩ : BufTy).Contents (Elt F)),
    nullary main_c_45 (constantI S_ 32 33#32),
    unary main_c_45 main_v138 (broadcastInDim S1048576 ![] bcast_S_S1048576 : (⟨S_, .i32⟩ : BufTy).Contents (Elt F) → (⟨S1048576, .i32⟩ : BufTy).Contents (Elt F)),
    binary main_v24 main_v138 main_v139 (cmpi .slt : (⟨S1048576, .i32⟩ : BufTy).Contents (Elt F) → (⟨S1048576, .i32⟩ : BufTy).Contents (Elt F) → (⟨S1048576, .i1⟩ : BufTy).Contents (Elt F)),
    binary main_v137 main_v139 main_v140 (andi : (⟨S1048576, .i1⟩ : BufTy).Contents (Elt F) → (⟨S1048576, .i1⟩ : BufTy).Contents (Elt F) → (⟨S1048576, .i1⟩ : BufTy).Contents (Elt F)),
    nullary main_c_46 (constantI S_ 32 0#32),
    unary main_c_46 main_v141 (broadcastInDim S1048576 ![] bcast_S_S1048576 : (⟨S_, .i32⟩ : BufTy).Contents (Elt F) → (⟨S1048576, .i32⟩ : BufTy).Contents (Elt F)),
    binary main_v18 main_v141 main_v142 (cmpi .sge : (⟨S1048576, .i32⟩ : BufTy).Contents (Elt F) → (⟨S1048576, .i32⟩ : BufTy).Contents (Elt F) → (⟨S1048576, .i1⟩ : BufTy).Contents (Elt F)),
    binary main_v140 main_v142 main_v143 (andi : (⟨S1048576, .i1⟩ : BufTy).Contents (Elt F) → (⟨S1048576, .i1⟩ : BufTy).Contents (Elt F) → (⟨S1048576, .i1⟩ : BufTy).Contents (Elt F)),
    nullary main_c_47 (constantI S_ 32 33#32),
    unary main_c_47 main_v144 (broadcastInDim S1048576 ![] bcast_S_S1048576 : (⟨S_, .i32⟩ : BufTy).Contents (Elt F) → (⟨S1048576, .i32⟩ : BufTy).Contents (Elt F)),
    binary main_v18 main_v144 main_v145 (cmpi .slt : (⟨S1048576, .i32⟩ : BufTy).Contents (Elt F) → (⟨S1048576, .i32⟩ : BufTy).Contents (Elt F) → (⟨S1048576, .i1⟩ : BufTy).Contents (Elt F)),
    binary main_v143 main_v145 main_v146 (andi : (⟨S1048576, .i1⟩ : BufTy).Contents (Elt F) → (⟨S1048576, .i1⟩ : BufTy).Contents (Elt F) → (⟨S1048576, .i1⟩ : BufTy).Contents (Elt F)),
    nullary main_c_48 (constantI S_ 32 0#32),
    nullary main_c_49 (constantI S_ 32 32#32),
    TRef.unary (TRef.of (T := ⟨S_, .i32⟩) main_c_48) (TRef.of (T := ⟨S_, .i32⟩) main_call6_v0) id,
    TRef.unary (TRef.of (T := ⟨S_, .i32⟩) main_call6_v0) (TRef.of (T := ⟨S1048576, .i32⟩) main_call6_v1) (broadcastInDim S1048576 ![] bcast_S_S1048576),
    TRef.binary (TRef.of (T := ⟨S1048576, .i32⟩) main_call6_v1) (TRef.of (T := ⟨S1048576, .i32⟩) main_v20) (TRef.of (T := ⟨S1048576, .i32⟩) main_call6_v2) maxsi,
    TRef.unary (TRef.of (T := ⟨S_, .i32⟩) main_c_49) (TRef.of (T := ⟨S_, .i32⟩) main_call6_v3) id,
    TRef.unary (TRef.of (T := ⟨S_, .i32⟩) main_call6_v3) (TRef.of (T := ⟨S1048576, .i32⟩) main_call6_v4) (broadcastInDim S1048576 ![] bcast_S_S1048576),
    TRef.binary (TRef.of (T := ⟨S1048576, .i32⟩) main_call6_v4) (TRef.of (T := ⟨S1048576, .i32⟩) main_call6_v2) (TRef.of (T := ⟨S1048576, .i32⟩) main_v147) minsi,
    nullary main_c_50 (constantI S_ 32 0#32),
    nullary main_c_51 (constantI S_ 32 32#32),
    TRef.unary (TRef.of (T := ⟨S_, .i32⟩) main_c_50) (TRef.of (T := ⟨S_, .i32⟩) main_call7_v0) id,
    TRef.unary (TRef.of (T := ⟨S_, .i32⟩) main_call7_v0) (TRef.of (T := ⟨S1048576, .i32⟩) main_call7_v1) (broadcastInDim S1048576 ![] bcast_S_S1048576),
    TRef.binary (TRef.of (T := ⟨S1048576, .i32⟩) main_call7_v1) (TRef.of (T := ⟨S1048576, .i32⟩) main_v24) (TRef.of (T := ⟨S1048576, .i32⟩) main_call7_v2) maxsi,
    TRef.unary (TRef.of (T := ⟨S_, .i32⟩) main_c_51) (TRef.of (T := ⟨S_, .i32⟩) main_call7_v3) id,
    TRef.unary (TRef.of (T := ⟨S_, .i32⟩) main_call7_v3) (TRef.of (T := ⟨S1048576, .i32⟩) main_call7_v4) (broadcastInDim S1048576 ![] bcast_S_S1048576),
    TRef.binary (TRef.of (T := ⟨S1048576, .i32⟩) main_call7_v4) (TRef.of (T := ⟨S1048576, .i32⟩) main_call7_v2) (TRef.of (T := ⟨S1048576, .i32⟩) main_v148) minsi,
    nullary main_c_52 (constantI S_ 32 0#32),
    nullary main_c_53 (constantI S_ 32 32#32),
    TRef.unary (TRef.of (T := ⟨S_, .i32⟩) main_c_52) (TRef.of (T := ⟨S_, .i32⟩) main_call8_v0) id,
    TRef.unary (TRef.of (T := ⟨S_, .i32⟩) main_call8_v0) (TRef.of (T := ⟨S1048576, .i32⟩) main_call8_v1) (broadcastInDim S1048576 ![] bcast_S_S1048576),
    TRef.binary (TRef.of (T := ⟨S1048576, .i32⟩) main_call8_v1) (TRef.of (T := ⟨S1048576, .i32⟩) main_v18) (TRef.of (T := ⟨S1048576, .i32⟩) main_call8_v2) maxsi,
    TRef.unary (TRef.of (T := ⟨S_, .i32⟩) main_c_53) (TRef.of (T := ⟨S_, .i32⟩) main_call8_v3) id,
    TRef.unary (TRef.of (T := ⟨S_, .i32⟩) main_call8_v3) (TRef.of (T := ⟨S1048576, .i32⟩) main_call8_v4) (broadcastInDim S1048576 ![] bcast_S_S1048576),
    TRef.binary (TRef.of (T := ⟨S1048576, .i32⟩) main_call8_v4) (TRef.of (T := ⟨S1048576, .i32⟩) main_call8_v2) (TRef.of (T := ⟨S1048576, .i32⟩) main_v149) minsi,
    nullary main_c_54 (constantI S_ 32 0#32),
    unary main_c_54 main_v150 (broadcastInDim S1048576 ![] bcast_S_S1048576 : (⟨S_, .i32⟩ : BufTy).Contents (Elt F) → (⟨S1048576, .i32⟩ : BufTy).Contents (Elt F)),
    binary main_v147 main_v150 main_v151 (cmpi .slt : (⟨S1048576, .i32⟩ : BufTy).Contents (Elt F) → (⟨S1048576, .i32⟩ : BufTy).Contents (Elt F) → (⟨S1048576, .i1⟩ : BufTy).Contents (Elt F)),
    nullary main_c_55 (constantI S_ 32 33#32),
    unary main_c_55 main_v152 (broadcastInDim S1048576 ![] bcast_S_S1048576 : (⟨S_, .i32⟩ : BufTy).Contents (Elt F) → (⟨S1048576, .i32⟩ : BufTy).Contents (Elt F)),
    binary main_v147 main_v152 main_v153 (addi : (⟨S1048576, .i32⟩ : BufTy).Contents (Elt F) → (⟨S1048576, .i32⟩ : BufTy).Contents (Elt F) → (⟨S1048576, .i32⟩ : BufTy).Contents (Elt F)),
    ternary main_v151 main_v153 main_v147 main_v154 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_56 (constantI S_ 32 0#32),
    unary main_c_56 main_v155 (broadcastInDim S1048576 ![] bcast_S_S1048576 : (⟨S_, .i32⟩ : BufTy).Contents (Elt F) → (⟨S1048576, .i32⟩ : BufTy).Contents (Elt F)),
    binary main_v148 main_v155 main_v156 (cmpi .slt : (⟨S1048576, .i32⟩ : BufTy).Contents (Elt F) → (⟨S1048576, .i32⟩ : BufTy).Contents (Elt F) → (⟨S1048576, .i1⟩ : BufTy).Contents (Elt F)),
    nullary main_c_57 (constantI S_ 32 33#32),
    unary main_c_57 main_v157 (broadcastInDim S1048576 ![] bcast_S_S1048576 : (⟨S_, .i32⟩ : BufTy).Contents (Elt F) → (⟨S1048576, .i32⟩ : BufTy).Contents (Elt F)),
    binary main_v148 main_v157 main_v158 (addi : (⟨S1048576, .i32⟩ : BufTy).Contents (Elt F) → (⟨S1048576, .i32⟩ : BufTy).Contents (Elt F) → (⟨S1048576, .i32⟩ : BufTy).Contents (Elt F)),
    ternary main_v156 main_v158 main_v148 main_v159 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_58 (constantI S_ 32 0#32),
    unary main_c_58 main_v160 (broadcastInDim S1048576 ![] bcast_S_S1048576 : (⟨S_, .i32⟩ : BufTy).Contents (Elt F) → (⟨S1048576, .i32⟩ : BufTy).Contents (Elt F)),
    binary main_v149 main_v160 main_v161 (cmpi .slt : (⟨S1048576, .i32⟩ : BufTy).Contents (Elt F) → (⟨S1048576, .i32⟩ : BufTy).Contents (Elt F) → (⟨S1048576, .i1⟩ : BufTy).Contents (Elt F)),
    nullary main_c_59 (constantI S_ 32 33#32),
    unary main_c_59 main_v162 (broadcastInDim S1048576 ![] bcast_S_S1048576 : (⟨S_, .i32⟩ : BufTy).Contents (Elt F) → (⟨S1048576, .i32⟩ : BufTy).Contents (Elt F)),
    binary main_v149 main_v162 main_v163 (addi : (⟨S1048576, .i32⟩ : BufTy).Contents (Elt F) → (⟨S1048576, .i32⟩ : BufTy).Contents (Elt F) → (⟨S1048576, .i32⟩ : BufTy).Contents (Elt F)),
    ternary main_v161 main_v163 main_v149 main_v164 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v154 main_v165 (broadcastInDim S1048576x1 ![0] bcast_S1048576_S1048576x1_0 : (⟨S1048576, .i32⟩ : BufTy).Contents (Elt F) → (⟨S1048576x1, .i32⟩ : BufTy).Contents (Elt F)),
    unary main_v159 main_v166 (broadcastInDim S1048576x1 ![0] bcast_S1048576_S1048576x1_0 : (⟨S1048576, .i32⟩ : BufTy).Contents (Elt F) → (⟨S1048576x1, .i32⟩ : BufTy).Contents (Elt F)),
    unary main_v164 main_v167 (broadcastInDim S1048576x1 ![0] bcast_S1048576_S1048576x1_0 : (⟨S1048576, .i32⟩ : BufTy).Contents (Elt F) → (⟨S1048576x1, .i32⟩ : BufTy).Contents (Elt F)),
    nary ![main_v165, main_v166, main_v167] main_v168 (fun u => concatenate S1048576x3 1 [⟨S1048576x1, u 0⟩, ⟨S1048576x1, u 1⟩, ⟨S1048576x1, u 2⟩] concatenates_S1048576x1_S1048576x1_S1048576x1_S1048576x3_d1),
    binary main_v1 main_v168 main_v169 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v146 main_v170 (uitofp .f32 : (⟨S1048576, .i1⟩ : BufTy).Contents (Elt F) → (⟨S1048576, .f32⟩ : BufTy).Contents (Elt F)),
    binary main_v129 main_v170 main_v171 (mulf : (⟨S1048576, .f32⟩ : BufTy).Contents (Elt F) → (⟨S1048576, .f32⟩ : BufTy).Contents (Elt F) → (⟨S1048576, .f32⟩ : BufTy).Contents (Elt F)),
    unary main_v171 main_v172 (broadcastInDim S1048576x1 ![0] bcast_S1048576_S1048576x1_0 : (⟨S1048576, .f32⟩ : BufTy).Contents (Elt F) → (⟨S1048576x1, .f32⟩ : BufTy).Contents (Elt F)),
    unary main_v172 main_v173 (broadcastInDim S1048576x32 ![0, 1] bcast_S1048576x1_S1048576x32_0_1 : (⟨S1048576x1, .f32⟩ : BufTy).Contents (Elt F) → (⟨S1048576x32, .f32⟩ : BufTy).Contents (Elt F)),
    binary main_v169 main_v173 main_v174 (mulf : (⟨S1048576x32, .f32⟩ : BufTy).Contents (Elt F) → (⟨S1048576x32, .f32⟩ : BufTy).Contents (Elt F) → (⟨S1048576x32, .f32⟩ : BufTy).Contents (Elt F)),
    binary main_v127 main_v174 main_v175 (addf : (⟨S1048576x32, .f32⟩ : BufTy).Contents (Elt F) → (⟨S1048576x32, .f32⟩ : BufTy).Contents (Elt F) → (⟨S1048576x32, .f32⟩ : BufTy).Contents (Elt F)),
    binary main_v32 main_v16 main_v176 (mulf : (⟨S1048576, .f32⟩ : BufTy).Contents (Elt F) → (⟨S1048576, .f32⟩ : BufTy).Contents (Elt F) → (⟨S1048576, .f32⟩ : BufTy).Contents (Elt F)),
    binary main_v176 main_v15 main_v177 (mulf : (⟨S1048576, .f32⟩ : BufTy).Contents (Elt F) → (⟨S1048576, .f32⟩ : BufTy).Contents (Elt F) → (⟨S1048576, .f32⟩ : BufTy).Contents (Elt F)) ]
/-- Each touches TensorCore references only. -/
theorem ops3_sub : (ops3 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., binary_bufs_sub .., binary_bufs_sub ..⟩
/-- None allocates a buffer. -/
theorem ops3_fresh : (ops3 : List (HloOp τ sig (Elt F))).Forall fun op => op.fresh = ∅ := by
  simp only [List.Forall]; repeat' constructor
/-- Window 3 of @main is the straight line of these operations: both sides unfold to the same sequence of steps. -/
theorem main_part3_eq (c : Dev nD) : main_part3 (F := F) c = seq ops3 := by
  chain_rfl

end Cert.ReferenceIdeal.RefRun

end
-- ==== Proof.RefOpsB.lean ====
/-
  The reference program's @main, windows 4 … 6 of ten, each as a straight line of host operations. The program is
  printed in windows of sixty statements; a call of an outlined function (a clip, a rectified-linear activation) stands
  for that function's operations on the call's own buffers, listed here in its place. Each window equals the straight
  line of its operations by unfolding, none of the operations allocates, and each touches TensorCore buffers only.
-/
import proofs.«132478_j19215683682576_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 241 … of @main (its window 4), a called function's operations in place of the call. -/
abbrev ops4 : List (HloOp τ sig (Elt F)) :=
  [ nullary main_c_60 (constantI S_ 32 0#32),
    unary main_c_60 main_v178 (broadcastInDim S1048576 ![] bcast_S_S1048576 : (⟨S_, .i32⟩ : BufTy).Contents (Elt F) → (⟨S1048576, .i32⟩ : BufTy).Contents (Elt F)),
    binary main_v20 main_v178 main_v179 (cmpi .sge : (⟨S1048576, .i32⟩ : BufTy).Contents (Elt F) → (⟨S1048576, .i32⟩ : BufTy).Contents (Elt F) → (⟨S1048576, .i1⟩ : BufTy).Contents (Elt F)),
    nullary main_c_61 (constantI S_ 32 33#32),
    unary main_c_61 main_v180 (broadcastInDim S1048576 ![] bcast_S_S1048576 : (⟨S_, .i32⟩ : BufTy).Contents (Elt F) → (⟨S1048576, .i32⟩ : BufTy).Contents (Elt F)),
    binary main_v20 main_v180 main_v181 (cmpi .slt : (⟨S1048576, .i32⟩ : BufTy).Contents (Elt F) → (⟨S1048576, .i32⟩ : BufTy).Contents (Elt F) → (⟨S1048576, .i1⟩ : BufTy).Contents (Elt F)),
    binary main_v179 main_v181 main_v182 (andi : (⟨S1048576, .i1⟩ : BufTy).Contents (Elt F) → (⟨S1048576, .i1⟩ : BufTy).Contents (Elt F) → (⟨S1048576, .i1⟩ : BufTy).Contents (Elt F)),
    nullary main_c_62 (constantI S_ 32 0#32),
    unary main_c_62 main_v183 (broadcastInDim S1048576 ![] bcast_S_S1048576 : (⟨S_, .i32⟩ : BufTy).Contents (Elt F) → (⟨S1048576, .i32⟩ : BufTy).Contents (Elt F)),
    binary main_v24 main_v183 main_v184 (cmpi .sge : (⟨S1048576, .i32⟩ : BufTy).Contents (Elt F) → (⟨S1048576, .i32⟩ : BufTy).Contents (Elt F) → (⟨S1048576, .i1⟩ : BufTy).Contents (Elt F)),
    binary main_v182 main_v184 main_v185 (andi : (⟨S1048576, .i1⟩ : BufTy).Contents (Elt F) → (⟨S1048576, .i1⟩ : BufTy).Contents (Elt F) → (⟨S1048576, .i1⟩ : BufTy).Contents (Elt F)),
    nullary main_c_63 (constantI S_ 32 33#32),
    unary main_c_63 main_v186 (broadcastInDim S1048576 ![] bcast_S_S1048576 : (⟨S_, .i32⟩ : BufTy).Contents (Elt F) → (⟨S1048576, .i32⟩ : BufTy).Contents (Elt F)),
    binary main_v24 main_v186 main_v187 (cmpi .slt : (⟨S1048576, .i32⟩ : BufTy).Contents (Elt F) → (⟨S1048576, .i32⟩ : BufTy).Contents (Elt F) → (⟨S1048576, .i1⟩ : BufTy).Contents (Elt F)),
    binary main_v185 main_v187 main_v188 (andi : (⟨S1048576, .i1⟩ : BufTy).Contents (Elt F) → (⟨S1048576, .i1⟩ : BufTy).Contents (Elt F) → (⟨S1048576, .i1⟩ : BufTy).Contents (Elt F)),
    nullary main_c_64 (constantI S_ 32 0#32),
    unary main_c_64 main_v189 (broadcastInDim S1048576 ![] bcast_S_S1048576 : (⟨S_, .i32⟩ : BufTy).Contents (Elt F) → (⟨S1048576, .i32⟩ : BufTy).Contents (Elt F)),
    binary main_v22 main_v189 main_v190 (cmpi .sge : (⟨S1048576, .i32⟩ : BufTy).Contents (Elt F) → (⟨S1048576, .i32⟩ : BufTy).Contents (Elt F) → (⟨S1048576, .i1⟩ : BufTy).Contents (Elt F)),
    binary main_v188 main_v190 main_v191 (andi : (⟨S1048576, .i1⟩ : BufTy).Contents (Elt F) → (⟨S1048576, .i1⟩ : BufTy).Contents (Elt F) → (⟨S1048576, .i1⟩ : BufTy).Contents (Elt F)),
    nullary main_c_65 (constantI S_ 32 33#32),
    unary main_c_65 main_v192 (broadcastInDim S1048576 ![] bcast_S_S1048576 : (⟨S_, .i32⟩ : BufTy).Contents (Elt F) → (⟨S1048576, .i32⟩ : BufTy).Contents (Elt F)),
    binary main_v22 main_v192 main_v193 (cmpi .slt : (⟨S1048576, .i32⟩ : BufTy).Contents (Elt F) → (⟨S1048576, .i32⟩ : BufTy).Contents (Elt F) → (⟨S1048576, .i1⟩ : BufTy).Contents (Elt F)),
    binary main_v191 main_v193 main_v194 (andi : (⟨S1048576, .i1⟩ : BufTy).Contents (Elt F) → (⟨S1048576, .i1⟩ : BufTy).Contents (Elt F) → (⟨S1048576, .i1⟩ : BufTy).Contents (Elt F)),
    nullary main_c_66 (constantI S_ 32 0#32),
    nullary main_c_67 (constantI S_ 32 32#32),
    TRef.unary (TRef.of (T := ⟨S_, .i32⟩) main_c_66) (TRef.of (T := ⟨S_, .i32⟩) main_call9_v0) id,
    TRef.unary (TRef.of (T := ⟨S_, .i32⟩) main_call9_v0) (TRef.of (T := ⟨S1048576, .i32⟩) main_call9_v1) (broadcastInDim S1048576 ![] bcast_S_S1048576),
    TRef.binary (TRef.of (T := ⟨S1048576, .i32⟩) main_call9_v1) (TRef.of (T := ⟨S1048576, .i32⟩) main_v20) (TRef.of (T := ⟨S1048576, .i32⟩) main_call9_v2) maxsi,
    TRef.unary (TRef.of (T := ⟨S_, .i32⟩) main_c_67) (TRef.of (T := ⟨S_, .i32⟩) main_call9_v3) id,
    TRef.unary (TRef.of (T := ⟨S_, .i32⟩) main_call9_v3) (TRef.of (T := ⟨S1048576, .i32⟩) main_call9_v4) (broadcastInDim S1048576 ![] bcast_S_S1048576),
    TRef.binary (TRef.of (T := ⟨S1048576, .i32⟩) main_call9_v4) (TRef.of (T := ⟨S1048576, .i32⟩) main_call9_v2) (TRef.of (T := ⟨S1048576, .i32⟩) main_v195) minsi,
    nullary main_c_68 (constantI S_ 32 0#32),
    nullary main_c_69 (constantI S_ 32 32#32),
    TRef.unary (TRef.of (T := ⟨S_, .i32⟩) main_c_68) (TRef.of (T := ⟨S_, .i32⟩) main_call10_v0) id,
    TRef.unary (TRef.of (T := ⟨S_, .i32⟩) main_call10_v0) (TRef.of (T := ⟨S1048576, .i32⟩) main_call10_v1) (broadcastInDim S1048576 ![] bcast_S_S1048576),
    TRef.binary (TRef.of (T := ⟨S1048576, .i32⟩) main_call10_v1) (TRef.of (T := ⟨S1048576, .i32⟩) main_v24) (TRef.of (T := ⟨S1048576, .i32⟩) main_call10_v2) maxsi,
    TRef.unary (TRef.of (T := ⟨S_, .i32⟩) main_c_69) (TRef.of (T := ⟨S_, .i32⟩) main_call10_v3) id,
    TRef.unary (TRef.of (T := ⟨S_, .i32⟩) main_call10_v3) (TRef.of (T := ⟨S1048576, .i32⟩) main_call10_v4) (broadcastInDim S1048576 ![] bcast_S_S1048576),
    TRef.binary (TRef.of (T := ⟨S1048576, .i32⟩) main_call10_v4) (TRef.of (T := ⟨S1048576, .i32⟩) main_call10_v2) (TRef.of (T := ⟨S1048576, .i32⟩) main_v196) minsi,
    nullary main_c_70 (constantI S_ 32 0#32),
    nullary main_c_71 (constantI S_ 32 32#32),
    TRef.unary (TRef.of (T := ⟨S_, .i32⟩) main_c_70) (TRef.of (T := ⟨S_, .i32⟩) main_call11_v0) id,
    TRef.unary (TRef.of (T := ⟨S_, .i32⟩) main_call11_v0) (TRef.of (T := ⟨S1048576, .i32⟩) main_call11_v1) (broadcastInDim S1048576 ![] bcast_S_S1048576),
    TRef.binary (TRef.of (T := ⟨S1048576, .i32⟩) main_call11_v1) (TRef.of (T := ⟨S1048576, .i32⟩) main_v22) (TRef.of (T := ⟨S1048576, .i32⟩) main_call11_v2) maxsi,
    TRef.unary (TRef.of (T := ⟨S_, .i32⟩) main_c_71) (TRef.of (T := ⟨S_, .i32⟩) main_call11_v3) id,
    TRef.unary (TRef.of (T := ⟨S_, .i32⟩) main_call11_v3) (TRef.of (T := ⟨S1048576, .i32⟩) main_call11_v4) (broadcastInDim S1048576 ![] bcast_S_S1048576),
    TRef.binary (TRef.of (T := ⟨S1048576, .i32⟩) main_call11_v4) (TRef.of (T := ⟨S1048576, .i32⟩) main_call11_v2) (TRef.of (T := ⟨S1048576, .i32⟩) main_v197) minsi,
    nullary main_c_72 (constantI S_ 32 0#32),
    unary main_c_72 main_v198 (broadcastInDim S1048576 ![] bcast_S_S1048576 : (⟨S_, .i32⟩ : BufTy).Contents (Elt F) → (⟨S1048576, .i32⟩ : BufTy).Contents (Elt F)),
    binary main_v195 main_v198 main_v199 (cmpi .slt : (⟨S1048576, .i32⟩ : BufTy).Contents (Elt F) → (⟨S1048576, .i32⟩ : BufTy).Contents (Elt F) → (⟨S1048576, .i1⟩ : BufTy).Contents (Elt F)),
    nullary main_c_73 (constantI S_ 32 33#32),
    unary main_c_73 main_v200 (broadcastInDim S1048576 ![] bcast_S_S1048576 : (⟨S_, .i32⟩ : BufTy).Contents (Elt F) → (⟨S1048576, .i32⟩ : BufTy).Contents (Elt F)),
    binary main_v195 main_v200 main_v201 (addi : (⟨S1048576, .i32⟩ : BufTy).Contents (Elt F) → (⟨S1048576, .i32⟩ : BufTy).Contents (Elt F) → (⟨S1048576, .i32⟩ : BufTy).Contents (Elt F)),
    ternary main_v199 main_v201 main_v195 main_v202 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_74 (constantI S_ 32 0#32),
    unary main_c_74 main_v203 (broadcastInDim S1048576 ![] bcast_S_S1048576 : (⟨S_, .i32⟩ : BufTy).Contents (Elt F) → (⟨S1048576, .i32⟩ : BufTy).Contents (Elt F)),
    binary main_v196 main_v203 main_v204 (cmpi .slt : (⟨S1048576, .i32⟩ : BufTy).Contents (Elt F) → (⟨S1048576, .i32⟩ : BufTy).Contents (Elt F) → (⟨S1048576, .i1⟩ : BufTy).Contents (Elt F)),
    nullary main_c_75 (constantI S_ 32 33#32),
    unary main_c_75 main_v205 (broadcastInDim S1048576 ![] bcast_S_S1048576 : (⟨S_, .i32⟩ : BufTy).Contents (Elt F) → (⟨S1048576, .i32⟩ : BufTy).Contents (Elt F)),
    binary main_v196 main_v205 main_v206 (addi : (⟨S1048576, .i32⟩ : BufTy).Contents (Elt F) → (⟨S1048576, .i32⟩ : BufTy).Contents (Elt F) → (⟨S1048576, .i32⟩ : BufTy).Contents (Elt F)),
    ternary main_v204 main_v206 main_v196 main_v207 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_76 (constantI S_ 32 0#32),
    unary main_c_76 main_v208 (broadcastInDim S1048576 ![] bcast_S_S1048576 : (⟨S_, .i32⟩ : BufTy).Contents (Elt F) → (⟨S1048576, .i32⟩ : BufTy).Contents (Elt F)),
    binary main_v197 main_v208 main_v209 (cmpi .slt : (⟨S1048576, .i32⟩ : BufTy).Contents (Elt F) → (⟨S1048576, .i32⟩ : BufTy).Contents (Elt F) → (⟨S1048576, .i1⟩ : BufTy).Contents (Elt F)),
    nullary main_c_77 (constantI S_ 32 33#32),
    unary main_c_77 main_v210 (broadcastInDim S1048576 ![] bcast_S_S1048576 : (⟨S_, .i32⟩ : BufTy).Contents (Elt F) → (⟨S1048576, .i32⟩ : BufTy).Contents (Elt F)),
    binary main_v197 main_v210 main_v211 (addi : (⟨S1048576, .i32⟩ : BufTy).Contents (Elt F) → (⟨S1048576, .i32⟩ : BufTy).Contents (Elt F) → (⟨S1048576, .i32⟩ : BufTy).Contents (Elt F)),
    ternary main_v209 main_v211 main_v197 main_v212 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v202 main_v213 (broadcastInDim S1048576x1 ![0] bcast_S1048576_S1048576x1_0 : (⟨S1048576, .i32⟩ : BufTy).Contents (Elt F) → (⟨S1048576x1, .i32⟩ : BufTy).Contents (Elt F)),
    unary main_v207 main_v214 (broadcastInDim S1048576x1 ![0] bcast_S1048576_S1048576x1_0 : (⟨S1048576, .i32⟩ : BufTy).Contents (Elt F) → (⟨S1048576x1, .i32⟩ : BufTy).Contents (Elt F)),
    unary main_v212 main_v215 (broadcastInDim S1048576x1 ![0] bcast_S1048576_S1048576x1_0 : (⟨S1048576, .i32⟩ : BufTy).Contents (Elt F) → (⟨S1048576x1, .i32⟩ : BufTy).Contents (Elt F)),
    nary ![main_v213, main_v214, main_v215] main_v216 (fun u => concatenate S1048576x3 1 [⟨S1048576x1, u 0⟩, ⟨S1048576x1, u 1⟩, ⟨S1048576x1, u 2⟩] concatenates_S1048576x1_S1048576x1_S1048576x1_S1048576x3_d1),
    binary main_v1 main_v216 main_v217 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v194 main_v218 (uitofp .f32 : (⟨S1048576, .i1⟩ : BufTy).Contents (Elt F) → (⟨S1048576, .f32⟩ : BufTy).Contents (Elt F)),
    binary main_v177 main_v218 main_v219 (mulf : (⟨S1048576, .f32⟩ : BufTy).Contents (Elt F) → (⟨S1048576, .f32⟩ : BufTy).Contents (Elt F) → (⟨S1048576, .f32⟩ : BufTy).Contents (Elt F)) ]
/-- Each touches TensorCore references only. -/
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub ..⟩
/-- None allocates a buffer. -/
theorem ops4_fresh : (ops4 : List (HloOp τ sig (Elt F))).Forall fun op => op.fresh = ∅ := by
  simp only [List.Forall]; repeat' constructor
/-- Window 4 of @main is the straight line of these operations: both sides unfold to the same sequence of steps. -/
theorem main_part4_eq (c : Dev nD) : main_part4 (F := F) c = seq ops4 := by
  chain_rfl

/-- The operations of statements 301 … of @main (its window 5), a called function's operations in place of the call. -/
abbrev ops5 : List (HloOp τ sig (Elt F)) :=
  [ unary main_v219 main_v220 (broadcastInDim S1048576x1 ![0] bcast_S1048576_S1048576x1_0 : (⟨S1048576, .f32⟩ : BufTy).Contents (Elt F) → (⟨S1048576x1, .f32⟩ : BufTy).Contents (Elt F)),
    unary main_v220 main_v221 (broadcastInDim S1048576x32 ![0, 1] bcast_S1048576x1_S1048576x32_0_1 : (⟨S1048576x1, .f32⟩ : BufTy).Contents (Elt F) → (⟨S1048576x32, .f32⟩ : BufTy).Contents (Elt F)),
    binary main_v217 main_v221 main_v222 (mulf : (⟨S1048576x32, .f32⟩ : BufTy).Contents (Elt F) → (⟨S1048576x32, .f32⟩ : BufTy).Contents (Elt F) → (⟨S1048576x32, .f32⟩ : BufTy).Contents (Elt F)),
    binary main_v175 main_v222 main_v223 (addf : (⟨S1048576x32, .f32⟩ : BufTy).Contents (Elt F) → (⟨S1048576x32, .f32⟩ : BufTy).Contents (Elt F) → (⟨S1048576x32, .f32⟩ : BufTy).Contents (Elt F)),
    binary main_v17 main_v30 main_v224 (mulf : (⟨S1048576, .f32⟩ : BufTy).Contents (Elt F) → (⟨S1048576, .f32⟩ : BufTy).Contents (Elt F) → (⟨S1048576, .f32⟩ : BufTy).Contents (Elt F)),
    binary main_v224 main_v28 main_v225 (mulf : (⟨S1048576, .f32⟩ : BufTy).Contents (Elt F) → (⟨S1048576, .f32⟩ : BufTy).Contents (Elt F) → (⟨S1048576, .f32⟩ : BufTy).Contents (Elt F)),
    nullary main_c_78 (constantI S_ 32 0#32),
    unary main_c_78 main_v226 (broadcastInDim S1048576 ![] bcast_S_S1048576 : (⟨S_, .i32⟩ : BufTy).Contents (Elt F) → (⟨S1048576, .i32⟩ : BufTy).Contents (Elt F)),
    binary main_v26 main_v226 main_v227 (cmpi .sge : (⟨S1048576, .i32⟩ : BufTy).Contents (Elt F) → (⟨S1048576, .i32⟩ : BufTy).Contents (Elt F) → (⟨S1048576, .i1⟩ : BufTy).Contents (Elt F)),
    nullary main_c_79 (constantI S_ 32 33#32),
    unary main_c_79 main_v228 (broadcastInDim S1048576 ![] bcast_S_S1048576 : (⟨S_, .i32⟩ : BufTy).Contents (Elt F) → (⟨S1048576, .i32⟩ : BufTy).Contents (Elt F)),
    binary main_v26 main_v228 main_v229 (cmpi .slt : (⟨S1048576, .i32⟩ : BufTy).Contents (Elt F) → (⟨S1048576, .i32⟩ : BufTy).Contents (Elt F) → (⟨S1048576, .i1⟩ : BufTy).Contents (Elt F)),
    binary main_v227 main_v229 main_v230 (andi : (⟨S1048576, .i1⟩ : BufTy).Contents (Elt F) → (⟨S1048576, .i1⟩ : BufTy).Contents (Elt F) → (⟨S1048576, .i1⟩ : BufTy).Contents (Elt F)),
    nullary main_c_80 (constantI S_ 32 0#32),
    unary main_c_80 main_v231 (broadcastInDim S1048576 ![] bcast_S_S1048576 : (⟨S_, .i32⟩ : BufTy).Contents (Elt F) → (⟨S1048576, .i32⟩ : BufTy).Contents (Elt F)),
    binary main_v19 main_v231 main_v232 (cmpi .sge : (⟨S1048576, .i32⟩ : BufTy).Contents (Elt F) → (⟨S1048576, .i32⟩ : BufTy).Contents (Elt F) → (⟨S1048576, .i1⟩ : BufTy).Contents (Elt F)),
    binary main_v230 main_v232 main_v233 (andi : (⟨S1048576, .i1⟩ : BufTy).Contents (Elt F) → (⟨S1048576, .i1⟩ : BufTy).Contents (Elt F) → (⟨S1048576, .i1⟩ : BufTy).Contents (Elt F)),
    nullary main_c_81 (constantI S_ 32 33#32),
    unary main_c_81 main_v234 (broadcastInDim S1048576 ![] bcast_S_S1048576 : (⟨S_, .i32⟩ : BufTy).Contents (Elt F) → (⟨S1048576, .i32⟩ : BufTy).Contents (Elt F)),
    binary main_v19 main_v234 main_v235 (cmpi .slt : (⟨S1048576, .i32⟩ : BufTy).Contents (Elt F) → (⟨S1048576, .i32⟩ : BufTy).Contents (Elt F) → (⟨S1048576, .i1⟩ : BufTy).Contents (Elt F)),
    binary main_v233 main_v235 main_v236 (andi : (⟨S1048576, .i1⟩ : BufTy).Contents (Elt F) → (⟨S1048576, .i1⟩ : BufTy).Contents (Elt F) → (⟨S1048576, .i1⟩ : BufTy).Contents (Elt F)),
    nullary main_c_82 (constantI S_ 32 0#32),
    unary main_c_82 main_v237 (broadcastInDim S1048576 ![] bcast_S_S1048576 : (⟨S_, .i32⟩ : BufTy).Contents (Elt F) → (⟨S1048576, .i32⟩ : BufTy).Contents (Elt F)),
    binary main_v18 main_v237 main_v238 (cmpi .sge : (⟨S1048576, .i32⟩ : BufTy).Contents (Elt F) → (⟨S1048576, .i32⟩ : BufTy).Contents (Elt F) → (⟨S1048576, .i1⟩ : BufTy).Contents (Elt F)),
    binary main_v236 main_v238 main_v239 (andi : (⟨S1048576, .i1⟩ : BufTy).Contents (Elt F) → (⟨S1048576, .i1⟩ : BufTy).Contents (Elt F) → (⟨S1048576, .i1⟩ : BufTy).Contents (Elt F)),
    nullary main_c_83 (constantI S_ 32 33#32),
    unary main_c_83 main_v240 (broadcastInDim S1048576 ![] bcast_S_S1048576 : (⟨S_, .i32⟩ : BufTy).Contents (Elt F) → (⟨S1048576, .i32⟩ : BufTy).Contents (Elt F)),
    binary main_v18 main_v240 main_v241 (cmpi .slt : (⟨S1048576, .i32⟩ : BufTy).Contents (Elt F) → (⟨S1048576, .i32⟩ : BufTy).Contents (Elt F) → (⟨S1048576, .i1⟩ : BufTy).Contents (Elt F)),
    binary main_v239 main_v241 main_v242 (andi : (⟨S1048576, .i1⟩ : BufTy).Contents (Elt F) → (⟨S1048576, .i1⟩ : BufTy).Contents (Elt F) → (⟨S1048576, .i1⟩ : BufTy).Contents (Elt F)),
    nullary main_c_84 (constantI S_ 32 0#32),
    nullary main_c_85 (constantI S_ 32 32#32),
    TRef.unary (TRef.of (T := ⟨S_, .i32⟩) main_c_84) (TRef.of (T := ⟨S_, .i32⟩) main_call12_v0) id,
    TRef.unary (TRef.of (T := ⟨S_, .i32⟩) main_call12_v0) (TRef.of (T := ⟨S1048576, .i32⟩) main_call12_v1) (broadcastInDim S1048576 ![] bcast_S_S1048576),
    TRef.binary (TRef.of (T := ⟨S1048576, .i32⟩) main_call12_v1) (TRef.of (T := ⟨S1048576, .i32⟩) main_v26) (TRef.of (T := ⟨S1048576, .i32⟩) main_call12_v2) maxsi,
    TRef.unary (TRef.of (T := ⟨S_, .i32⟩) main_c_85) (TRef.of (T := ⟨S_, .i32⟩) main_call12_v3) id,
    TRef.unary (TRef.of (T := ⟨S_, .i32⟩) main_call12_v3) (TRef.of (T := ⟨S1048576, .i32⟩) main_call12_v4) (broadcastInDim S1048576 ![] bcast_S_S1048576),
    TRef.binary (TRef.of (T := ⟨S1048576, .i32⟩) main_call12_v4) (TRef.of (T := ⟨S1048576, .i32⟩) main_call12_v2) (TRef.of (T := ⟨S1048576, .i32⟩) main_v243) minsi,
    nullary main_c_86 (constantI S_ 32 0#32),
    nullary main_c_87 (constantI S_ 32 32#32),
    TRef.unary (TRef.of (T := ⟨S_, .i32⟩) main_c_86) (TRef.of (T := ⟨S_, .i32⟩) main_call13_v0) id,
    TRef.unary (TRef.of (T := ⟨S_, .i32⟩) main_call13_v0) (TRef.of (T := ⟨S1048576, .i32⟩) main_call13_v1) (broadcastInDim S1048576 ![] bcast_S_S1048576),
    TRef.binary (TRef.of (T := ⟨S1048576, .i32⟩) main_call13_v1) (TRef.of (T := ⟨S1048576, .i32⟩) main_v19) (TRef.of (T := ⟨S1048576, .i32⟩) main_call13_v2) maxsi,
    TRef.unary (TRef.of (T := ⟨S_, .i32⟩) main_c_87) (TRef.of (T := ⟨S_, .i32⟩) main_call13_v3) id,
    TRef.unary (TRef.of (T := ⟨S_, .i32⟩) main_call13_v3) (TRef.of (T := ⟨S1048576, .i32⟩) main_call13_v4) (broadcastInDim S1048576 ![] bcast_S_S1048576),
    TRef.binary (TRef.of (T := ⟨S1048576, .i32⟩) main_call13_v4) (TRef.of (T := ⟨S1048576, .i32⟩) main_call13_v2) (TRef.of (T := ⟨S1048576, .i32⟩) main_v244) minsi,
    nullary main_c_88 (constantI S_ 32 0#32),
    nullary main_c_89 (constantI S_ 32 32#32),
    TRef.unary (TRef.of (T := ⟨S_, .i32⟩) main_c_88) (TRef.of (T := ⟨S_, .i32⟩) main_call14_v0) id,
    TRef.unary (TRef.of (T := ⟨S_, .i32⟩) main_call14_v0) (TRef.of (T := ⟨S1048576, .i32⟩) main_call14_v1) (broadcastInDim S1048576 ![] bcast_S_S1048576),
    TRef.binary (TRef.of (T := ⟨S1048576, .i32⟩) main_call14_v1) (TRef.of (T := ⟨S1048576, .i32⟩) main_v18) (TRef.of (T := ⟨S1048576, .i32⟩) main_call14_v2) maxsi,
    TRef.unary (TRef.of (T := ⟨S_, .i32⟩) main_c_89) (TRef.of (T := ⟨S_, .i32⟩) main_call14_v3) id,
    TRef.unary (TRef.of (T := ⟨S_, .i32⟩) main_call14_v3) (TRef.of (T := ⟨S1048576, .i32⟩) main_call14_v4) (broadcastInDim S1048576 ![] bcast_S_S1048576),
    TRef.binary (TRef.of (T := ⟨S1048576, .i32⟩) main_call14_v4) (TRef.of (T := ⟨S1048576, .i32⟩) main_call14_v2) (TRef.of (T := ⟨S1048576, .i32⟩) main_v245) minsi,
    nullary main_c_90 (constantI S_ 32 0#32),
    unary main_c_90 main_v246 (broadcastInDim S1048576 ![] bcast_S_S1048576 : (⟨S_, .i32⟩ : BufTy).Contents (Elt F) → (⟨S1048576, .i32⟩ : BufTy).Contents (Elt F)),
    binary main_v243 main_v246 main_v247 (cmpi .slt : (⟨S1048576, .i32⟩ : BufTy).Contents (Elt F) → (⟨S1048576, .i32⟩ : BufTy).Contents (Elt F) → (⟨S1048576, .i1⟩ : BufTy).Contents (Elt F)),
    nullary main_c_91 (constantI S_ 32 33#32),
    unary main_c_91 main_v248 (broadcastInDim S1048576 ![] bcast_S_S1048576 : (⟨S_, .i32⟩ : BufTy).Contents (Elt F) → (⟨S1048576, .i32⟩ : BufTy).Contents (Elt F)),
    binary main_v243 main_v248 main_v249 (addi : (⟨S1048576, .i32⟩ : BufTy).Contents (Elt F) → (⟨S1048576, .i32⟩ : BufTy).Contents (Elt F) → (⟨S1048576, .i32⟩ : BufTy).Contents (Elt F)),
    ternary main_v247 main_v249 main_v243 main_v250 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_92 (constantI S_ 32 0#32),
    unary main_c_92 main_v251 (broadcastInDim S1048576 ![] bcast_S_S1048576 : (⟨S_, .i32⟩ : BufTy).Contents (Elt F) → (⟨S1048576, .i32⟩ : BufTy).Contents (Elt F)),
    binary main_v244 main_v251 main_v252 (cmpi .slt : (⟨S1048576, .i32⟩ : BufTy).Contents (Elt F) → (⟨S1048576, .i32⟩ : BufTy).Contents (Elt F) → (⟨S1048576, .i1⟩ : BufTy).Contents (Elt F)),
    nullary main_c_93 (constantI S_ 32 33#32),
    unary main_c_93 main_v253 (broadcastInDim S1048576 ![] bcast_S_S1048576 : (⟨S_, .i32⟩ : BufTy).Contents (Elt F) → (⟨S1048576, .i32⟩ : BufTy).Contents (Elt F)),
    binary main_v244 main_v253 main_v254 (addi : (⟨S1048576, .i32⟩ : BufTy).Contents (Elt F) → (⟨S1048576, .i32⟩ : BufTy).Contents (Elt F) → (⟨S1048576, .i32⟩ : BufTy).Contents (Elt F)),
    ternary main_v252 main_v254 main_v244 main_v255 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_94 (constantI S_ 32 0#32),
    unary main_c_94 main_v256 (broadcastInDim S1048576 ![] bcast_S_S1048576 : (⟨S_, .i32⟩ : BufTy).Contents (Elt F) → (⟨S1048576, .i32⟩ : BufTy).Contents (Elt F)),
    binary main_v245 main_v256 main_v257 (cmpi .slt : (⟨S1048576, .i32⟩ : BufTy).Contents (Elt F) → (⟨S1048576, .i32⟩ : BufTy).Contents (Elt F) → (⟨S1048576, .i1⟩ : BufTy).Contents (Elt F)),
    nullary main_c_95 (constantI S_ 32 33#32),
    unary main_c_95 main_v258 (broadcastInDim S1048576 ![] bcast_S_S1048576 : (⟨S_, .i32⟩ : BufTy).Contents (Elt F) → (⟨S1048576, .i32⟩ : BufTy).Contents (Elt F)),
    binary main_v245 main_v258 main_v259 (addi : (⟨S1048576, .i32⟩ : BufTy).Contents (Elt F) → (⟨S1048576, .i32⟩ : BufTy).Contents (Elt F) → (⟨S1048576, .i32⟩ : BufTy).Contents (Elt F)),
    ternary main_v257 main_v259 main_v245 main_v260 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v250 main_v261 (broadcastInDim S1048576x1 ![0] bcast_S1048576_S1048576x1_0 : (⟨S1048576, .i32⟩ : BufTy).Contents (Elt F) → (⟨S1048576x1, .i32⟩ : BufTy).Contents (Elt F)) ]
/-- Each touches TensorCore references only. -/
theorem ops5_sub : (ops5 : List (HloOp τ sig (Elt F))).Forall fun op => op.bufs ⊆ tcRefs τ sig :=
  ⟨unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
/-- None allocates a buffer. -/
theorem ops5_fresh : (ops5 : List (HloOp τ sig (Elt F))).Forall fun op => op.fresh = ∅ := by
  simp only [List.Forall]; repeat' constructor
/-- Window 5 of @main is the straight line of these operations: both sides unfold to the same sequence of steps. -/
theorem main_part5_eq (c : Dev nD) : main_part5 (F := F) c = seq ops5 := by
  chain_rfl

/-- The operations of statements 361 … of @main (its window 6), a called function's operations in place of the call. -/
abbrev ops6 : List (HloOp τ sig (Elt F)) :=
  [ unary main_v255 main_v262 (broadcastInDim S1048576x1 ![0] bcast_S1048576_S1048576x1_0 : (⟨S1048576, .i32⟩ : BufTy).Contents (Elt F) → (⟨S1048576x1, .i32⟩ : BufTy).Contents (Elt F)),
    unary main_v260 main_v263 (broadcastInDim S1048576x1 ![0] bcast_S1048576_S1048576x1_0 : (⟨S1048576, .i32⟩ : BufTy).Contents (Elt F) → (⟨S1048576x1, .i32⟩ : BufTy).Contents (Elt F)),
    nary ![main_v261, main_v262, main_v263] main_v264 (fun u => concatenate S1048576x3 1 [⟨S1048576x1, u 0⟩, ⟨S1048576x1, u 1⟩, ⟨S1048576x1, u 2⟩] concatenates_S1048576x1_S1048576x1_S1048576x1_S1048576x3_d1),
    binary main_v1 main_v264 main_v265 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v242 main_v266 (uitofp .f32 : (⟨S1048576, .i1⟩ : BufTy).Contents (Elt F) → (⟨S1048576, .f32⟩ : BufTy).Contents (Elt F)),
    binary main_v225 main_v266 main_v267 (mulf : (⟨S1048576, .f32⟩ : BufTy).Contents (Elt F) → (⟨S1048576, .f32⟩ : BufTy).Contents (Elt F) → (⟨S1048576, .f32⟩ : BufTy).Contents (Elt F)),
    unary main_v267 main_v268 (broadcastInDim S1048576x1 ![0] bcast_S1048576_S1048576x1_0 : (⟨S1048576, .f32⟩ : BufTy).Contents (Elt F) → (⟨S1048576x1, .f32⟩ : BufTy).Contents (Elt F)),
    unary main_v268 main_v269 (broadcastInDim S1048576x32 ![0, 1] bcast_S1048576x1_S1048576x32_0_1 : (⟨S1048576x1, .f32⟩ : BufTy).Contents (Elt F) → (⟨S1048576x32, .f32⟩ : BufTy).Contents (Elt F)),
    binary main_v265 main_v269 main_v270 (mulf : (⟨S1048576x32, .f32⟩ : BufTy).Contents (Elt F) → (⟨S1048576x32, .f32⟩ : BufTy).Contents (Elt F) → (⟨S1048576x32, .f32⟩ : BufTy).Contents (Elt F)),
    binary main_v223 main_v270 main_v271 (addf : (⟨S1048576x32, .f32⟩ : BufTy).Contents (Elt F) → (⟨S1048576x32, .f32⟩ : BufTy).Contents (Elt F) → (⟨S1048576x32, .f32⟩ : BufTy).Contents (Elt F)),
    binary main_v17 main_v30 main_v272 (mulf : (⟨S1048576, .f32⟩ : BufTy).Contents (Elt F) → (⟨S1048576, .f32⟩ : BufTy).Contents (Elt F) → (⟨S1048576, .f32⟩ : BufTy).Contents (Elt F)),
    binary main_v272 main_v15 main_v273 (mulf : (⟨S1048576, .f32⟩ : BufTy).Contents (Elt F) → (⟨S1048576, .f32⟩ : BufTy).Contents (Elt F) → (⟨S1048576, .f32⟩ : BufTy).Contents (Elt F)),
    nullary main_c_96 (constantI S_ 32 0#32),
    unary main_c_96 main_v274 (broadcastInDim S1048576 ![] bcast_S_S1048576 : (⟨S_, .i32⟩ : BufTy).Contents (Elt F) → (⟨S1048576, .i32⟩ : BufTy).Contents (Elt F)),
    binary main_v26 main_v274 main_v275 (cmpi .sge : (⟨S1048576, .i32⟩ : BufTy).Contents (Elt F) → (⟨S1048576, .i32⟩ : BufTy).Contents (Elt F) → (⟨S1048576, .i1⟩ : BufTy).Contents (Elt F)),
    nullary main_c_97 (constantI S_ 32 33#32),
    unary main_c_97 main_v276 (broadcastInDim S1048576 ![] bcast_S_S1048576 : (⟨S_, .i32⟩ : BufTy).Contents (Elt F) → (⟨S1048576, .i32⟩ : BufTy).Contents (Elt F)),
    binary main_v26 main_v276 main_v277 (cmpi .slt : (⟨S1048576, .i32⟩ : BufTy).Contents (Elt F) → (⟨S1048576, .i32⟩ : BufTy).Contents (Elt F) → (⟨S1048576, .i1⟩ : BufTy).Contents (Elt F)),
    binary main_v275 main_v277 main_v278 (andi : (⟨S1048576, .i1⟩ : BufTy).Contents (Elt F) → (⟨S1048576, .i1⟩ : BufTy).Contents (Elt F) → (⟨S1048576, .i1⟩ : BufTy).Contents (Elt F)),
    nullary main_c_98 (constantI S_ 32 0#32),
    unary main_c_98 main_v279 (broadcastInDim S1048576 ![] bcast_S_S1048576 : (⟨S_, .i32⟩ : BufTy).Contents (Elt F) → (⟨S1048576, .i32⟩ : BufTy).Contents (Elt F)),
    binary main_v19 main_v279 main_v280 (cmpi .sge : (⟨S1048576, .i32⟩ : BufTy).Contents (Elt F) → (⟨S1048576, .i32⟩ : BufTy).Contents (Elt F) → (⟨S1048576, .i1⟩ : BufTy).Contents (Elt F)),
    binary main_v278 main_v280 main_v281 (andi : (⟨S1048576, .i1⟩ : BufTy).Contents (Elt F) → (⟨S1048576, .i1⟩ : BufTy).Contents (Elt F) → (⟨S1048576, .i1⟩ : BufTy).Contents (Elt F)),
    nullary main_c_99 (constantI S_ 32 33#32),
    unary main_c_99 main_v282 (broadcastInDim S1048576 ![] bcast_S_S1048576 : (⟨S_, .i32⟩ : BufTy).Contents (Elt F) → (⟨S1048576, .i32⟩ : BufTy).Contents (Elt F)),
    binary main_v19 main_v282 main_v283 (cmpi .slt : (⟨S1048576, .i32⟩ : BufTy).Contents (Elt F) → (⟨S1048576, .i32⟩ : BufTy).Contents (Elt F) → (⟨S1048576, .i1⟩ : BufTy).Contents (Elt F)),
    binary main_v281 main_v283 main_v284 (andi : (⟨S1048576, .i1⟩ : BufTy).Contents (Elt F) → (⟨S1048576, .i1⟩ : BufTy).Contents (Elt F) → (⟨S1048576, .i1⟩ : BufTy).Contents (Elt F)),
    nullary main_c_100 (constantI S_ 32 0#32),
    unary main_c_100 main_v285 (broadcastInDim S1048576 ![] bcast_S_S1048576 : (⟨S_, .i32⟩ : BufTy).Contents (Elt F) → (⟨S1048576, .i32⟩ : BufTy).Contents (Elt F)),
    binary main_v22 main_v285 main_v286 (cmpi .sge : (⟨S1048576, .i32⟩ : BufTy).Contents (Elt F) → (⟨S1048576, .i32⟩ : BufTy).Contents (Elt F) → (⟨S1048576, .i1⟩ : BufTy).Contents (Elt F)),
    binary main_v284 main_v286 main_v287 (andi : (⟨S1048576, .i1⟩ : BufTy).Contents (Elt F) → (⟨S1048576, .i1⟩ : BufTy).Contents (Elt F) → (⟨S1048576, .i1⟩ : BufTy).Contents (Elt F)),
    nullary main_c_101 (constantI S_ 32 33#32),
    unary main_c_101 main_v288 (broadcastInDim S1048576 ![] bcast_S_S1048576 : (⟨S_, .i32⟩ : BufTy).Contents (Elt F) → (⟨S1048576, .i32⟩ : BufTy).Contents (Elt F)),
    binary main_v22 main_v288 main_v289 (cmpi .slt : (⟨S1048576, .i32⟩ : BufTy).Contents (Elt F) → (⟨S1048576, .i32⟩ : BufTy).Contents (Elt F) → (⟨S1048576, .i1⟩ : BufTy).Contents (Elt F)),
    binary main_v287 main_v289 main_v290 (andi : (⟨S1048576, .i1⟩ : BufTy).Contents (Elt F) → (⟨S1048576, .i1⟩ : BufTy).Contents (Elt F) → (⟨S1048576, .i1⟩ : BufTy).Contents (Elt F)),
    nullary main_c_102 (constantI S_ 32 0#32),
    nullary main_c_103 (constantI S_ 32 32#32),
    TRef.unary (TRef.of (T := ⟨S_, .i32⟩) main_c_102) (TRef.of (T := ⟨S_, .i32⟩) main_call15_v0) id,
    TRef.unary (TRef.of (T := ⟨S_, .i32⟩) main_call15_v0) (TRef.of (T := ⟨S1048576, .i32⟩) main_call15_v1) (broadcastInDim S1048576 ![] bcast_S_S1048576),
    TRef.binary (TRef.of (T := ⟨S1048576, .i32⟩) main_call15_v1) (TRef.of (T := ⟨S1048576, .i32⟩) main_v26) (TRef.of (T := ⟨S1048576, .i32⟩) main_call15_v2) maxsi,
    TRef.unary (TRef.of (T := ⟨S_, .i32⟩) main_c_103) (TRef.of (T := ⟨S_, .i32⟩) main_call15_v3) id,
    TRef.unary (TRef.of (T := ⟨S_, .i32⟩) main_call15_v3) (TRef.of (T := ⟨S1048576, .i32⟩) main_call15_v4) (broadcastInDim S1048576 ![] bcast_S_S1048576),
    TRef.binary (TRef.of (T := ⟨S1048576, .i32⟩) main_call15_v4) (TRef.of (T := ⟨S1048576, .i32⟩) main_call15_v2) (TRef.of (T := ⟨S1048576, .i32⟩) main_v291) minsi,
    nullary main_c_104 (constantI S_ 32 0#32),
    nullary main_c_105 (constantI S_ 32 32#32),
    TRef.unary (TRef.of (T := ⟨S_, .i32⟩) main_c_104) (TRef.of (T := ⟨S_, .i32⟩) main_call16_v0) id,
    TRef.unary (TRef.of (T := ⟨S_, .i32⟩) main_call16_v0) (TRef.of (T := ⟨S1048576, .i32⟩) main_call16_v1) (broadcastInDim S1048576 ![] bcast_S_S1048576),
    TRef.binary (TRef.of (T := ⟨S1048576, .i32⟩) main_call16_v1) (TRef.of (T := ⟨S1048576, .i32⟩) main_v19) (TRef.of (T := ⟨S1048576, .i32⟩) main_call16_v2) maxsi,
    TRef.unary (TRef.of (T := ⟨S_, .i32⟩) main_c_105) (TRef.of (T := ⟨S_, .i32⟩) main_call16_v3) id,
    TRef.unary (TRef.of (T := ⟨S_, .i32⟩) main_call16_v3) (TRef.of (T := ⟨S1048576, .i32⟩) main_call16_v4) (broadcastInDim S1048576 ![] bcast_S_S1048576),
    TRef.binary (TRef.of (T := ⟨S1048576, .i32⟩) main_call16_v4) (TRef.of (T := ⟨S1048576, .i32⟩) main_call16_v2) (TRef.of (T := ⟨S1048576, .i32⟩) main_v292) minsi,
    nullary main_c_106 (constantI S_ 32 0#32),
    nullary main_c_107 (constantI S_ 32 32#32),
    TRef.unary (TRef.of (T := ⟨S_, .i32⟩) main_c_106) (TRef.of (T := ⟨S_, .i32⟩) main_call17_v0) id,
    TRef.unary (TRef.of (T := ⟨S_, .i32⟩) main_call17_v0) (TRef.of (T := ⟨S1048576, .i32⟩) main_call17_v1) (broadcastInDim S1048576 ![] bcast_S_S1048576),
    TRef.binary (TRef.of (T := ⟨S1048576, .i32⟩) main_call17_v1) (TRef.of (T := ⟨S1048576, .i32⟩) main_v22) (TRef.of (T := ⟨S1048576, .i32⟩) main_call17_v2) maxsi,
    TRef.unary (TRef.of (T := ⟨S_, .i32⟩) main_c_107) (TRef.of (T := ⟨S_, .i32⟩) main_call17_v3) id,
    TRef.unary (TRef.of (T := ⟨S_, .i32⟩) main_call17_v3) (TRef.of (T := ⟨S1048576, .i32⟩) main_call17_v4) (broadcastInDim S1048576 ![] bcast_S_S1048576),
    TRef.binary (TRef.of (T := ⟨S1048576, .i32⟩) main_call17_v4) (TRef.of (T := ⟨S1048576, .i32⟩) main_call17_v2) (TRef.of (T := ⟨S1048576, .i32⟩) main_v293) minsi,
    nullary main_c_108 (constantI S_ 32 0#32),
    unary main_c_108 main_v294 (broadcastInDim S1048576 ![] bcast_S_S1048576 : (⟨S_, .i32⟩ : BufTy).Contents (Elt F) → (⟨S1048576, .i32⟩ : BufTy).Contents (Elt F)),
    binary main_v291 main_v294 main_v295 (cmpi .slt : (⟨S1048576, .i32⟩ : BufTy).Contents (Elt F) → (⟨S1048576, .i32⟩ : BufTy).Contents (Elt F) → (⟨S1048576, .i1⟩ : BufTy).Contents (Elt F)),
    nullary main_c_109 (constantI S_ 32 33#32),
    unary main_c_109 main_v296 (broadcastInDim S1048576 ![] bcast_S_S1048576 : (⟨S_, .i32⟩ : BufTy).Contents (Elt F) → (⟨S1048576, .i32⟩ : BufTy).Contents (Elt F)),
    binary main_v291 main_v296 main_v297 (addi : (⟨S1048576, .i32⟩ : BufTy).Contents (Elt F) → (⟨S1048576, .i32⟩ : BufTy).Contents (Elt F) → (⟨S1048576, .i32⟩ : BufTy).Contents (Elt F)),
    ternary main_v295 main_v297 main_v291 main_v298 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_110 (constantI S_ 32 0#32),
    unary main_c_110 main_v299 (broadcastInDim S1048576 ![] bcast_S_S1048576 : (⟨S_, .i32⟩ : BufTy).Contents (Elt F) → (⟨S1048576, .i32⟩ : BufTy).Contents (Elt F)),
    binary main_v292 main_v299 main_v300 (cmpi .slt : (⟨S1048576, .i32⟩ : BufTy).Contents (Elt F) → (⟨S1048576, .i32⟩ : BufTy).Contents (Elt F) → (⟨S1048576, .i1⟩ : BufTy).Contents (Elt F)),
    nullary main_c_111 (constantI S_ 32 33#32),
    unary main_c_111 main_v301 (broadcastInDim S1048576 ![] bcast_S_S1048576 : (⟨S_, .i32⟩ : BufTy).Contents (Elt F) → (⟨S1048576, .i32⟩ : BufTy).Contents (Elt F)),
    binary main_v292 main_v301 main_v302 (addi : (⟨S1048576, .i32⟩ : BufTy).Contents (Elt F) → (⟨S1048576, .i32⟩ : BufTy).Contents (Elt F) → (⟨S1048576, .i32⟩ : BufTy).Contents (Elt F)),
    ternary main_v300 main_v302 main_v292 main_v303 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_112 (constantI S_ 32 0#32),
    unary main_c_112 main_v304 (broadcastInDim S1048576 ![] bcast_S_S1048576 : (⟨S_, .i32⟩ : BufTy).Contents (Elt F) → (⟨S1048576, .i32⟩ : BufTy).Contents (Elt F)) ]
/-- Each touches TensorCore references only. -/
theorem ops6_sub : (ops6 : List (HloOp τ sig (Elt F))).Forall fun op => op.bufs ⊆ tcRefs τ sig :=
  ⟨unary_bufs_sub .., unary_bufs_sub .., nary_bufs_sub .., binary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩
/-- None allocates a buffer. -/
theorem ops6_fresh : (ops6 : List (HloOp τ sig (Elt F))).Forall fun op => op.fresh = ∅ := by
  simp only [List.Forall]; repeat' constructor
/-- Window 6 of @main is the straight line of these operations: both sides unfold to the same sequence of steps. -/
theorem main_part6_eq (c : Dev nD) : main_part6 (F := F) c = seq ops6 := by
  chain_rfl

end Cert.ReferenceIdeal.RefRun

end
-- ==== Proof.RefOpsC.lean ====
/-
  The reference program's @main, windows 7 … 9 of ten, each as a straight line of host operations. The program is
  printed in windows of sixty statements; a call of an outlined function (a clip, a rectified-linear activation) stands
  for that function's operations on the call's own buffers, listed here in its place. Each window equals the straight
  line of its operations by unfolding, none of the operations allocates, and each touches TensorCore buffers only.
-/
import proofs.«132478_j19215683682576_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 421 … of @main (its window 7), a called function's operations in place of the call. -/
abbrev ops7 : List (HloOp τ sig (Elt F)) :=
  [ binary main_v293 main_v304 main_v305 (cmpi .slt : (⟨S1048576, .i32⟩ : BufTy).Contents (Elt F) → (⟨S1048576, .i32⟩ : BufTy).Contents (Elt F) → (⟨S1048576, .i1⟩ : BufTy).Contents (Elt F)),
    nullary main_c_113 (constantI S_ 32 33#32),
    unary main_c_113 main_v306 (broadcastInDim S1048576 ![] bcast_S_S1048576 : (⟨S_, .i32⟩ : BufTy).Contents (Elt F) → (⟨S1048576, .i32⟩ : BufTy).Contents (Elt F)),
    binary main_v293 main_v306 main_v307 (addi : (⟨S1048576, .i32⟩ : BufTy).Contents (Elt F) → (⟨S1048576, .i32⟩ : BufTy).Contents (Elt F) → (⟨S1048576, .i32⟩ : BufTy).Contents (Elt F)),
    ternary main_v305 main_v307 main_v293 main_v308 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v298 main_v309 (broadcastInDim S1048576x1 ![0] bcast_S1048576_S1048576x1_0 : (⟨S1048576, .i32⟩ : BufTy).Contents (Elt F) → (⟨S1048576x1, .i32⟩ : BufTy).Contents (Elt F)),
    unary main_v303 main_v310 (broadcastInDim S1048576x1 ![0] bcast_S1048576_S1048576x1_0 : (⟨S1048576, .i32⟩ : BufTy).Contents (Elt F) → (⟨S1048576x1, .i32⟩ : BufTy).Contents (Elt F)),
    unary main_v308 main_v311 (broadcastInDim S1048576x1 ![0] bcast_S1048576_S1048576x1_0 : (⟨S1048576, .i32⟩ : BufTy).Contents (Elt F) → (⟨S1048576x1, .i32⟩ : BufTy).Contents (Elt F)),
    nary ![main_v309, main_v310, main_v311] main_v312 (fun u => concatenate S1048576x3 1 [⟨S1048576x1, u 0⟩, ⟨S1048576x1, u 1⟩, ⟨S1048576x1, u 2⟩] concatenates_S1048576x1_S1048576x1_S1048576x1_S1048576x3_d1),
    binary main_v1 main_v312 main_v313 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v290 main_v314 (uitofp .f32 : (⟨S1048576, .i1⟩ : BufTy).Contents (Elt F) → (⟨S1048576, .f32⟩ : BufTy).Contents (Elt F)),
    binary main_v273 main_v314 main_v315 (mulf : (⟨S1048576, .f32⟩ : BufTy).Contents (Elt F) → (⟨S1048576, .f32⟩ : BufTy).Contents (Elt F) → (⟨S1048576, .f32⟩ : BufTy).Contents (Elt F)),
    unary main_v315 main_v316 (broadcastInDim S1048576x1 ![0] bcast_S1048576_S1048576x1_0 : (⟨S1048576, .f32⟩ : BufTy).Contents (Elt F) → (⟨S1048576x1, .f32⟩ : BufTy).Contents (Elt F)),
    unary main_v316 main_v317 (broadcastInDim S1048576x32 ![0, 1] bcast_S1048576x1_S1048576x32_0_1 : (⟨S1048576x1, .f32⟩ : BufTy).Contents (Elt F) → (⟨S1048576x32, .f32⟩ : BufTy).Contents (Elt F)),
    binary main_v313 main_v317 main_v318 (mulf : (⟨S1048576x32, .f32⟩ : BufTy).Contents (Elt F) → (⟨S1048576x32, .f32⟩ : BufTy).Contents (Elt F) → (⟨S1048576x32, .f32⟩ : BufTy).Contents (Elt F)),
    binary main_v271 main_v318 main_v319 (addf : (⟨S1048576x32, .f32⟩ : BufTy).Contents (Elt F) → (⟨S1048576x32, .f32⟩ : BufTy).Contents (Elt F) → (⟨S1048576x32, .f32⟩ : BufTy).Contents (Elt F)),
    binary main_v17 main_v16 main_v320 (mulf : (⟨S1048576, .f32⟩ : BufTy).Contents (Elt F) → (⟨S1048576, .f32⟩ : BufTy).Contents (Elt F) → (⟨S1048576, .f32⟩ : BufTy).Contents (Elt F)),
    binary main_v320 main_v28 main_v321 (mulf : (⟨S1048576, .f32⟩ : BufTy).Contents (Elt F) → (⟨S1048576, .f32⟩ : BufTy).Contents (Elt F) → (⟨S1048576, .f32⟩ : BufTy).Contents (Elt F)),
    nullary main_c_114 (constantI S_ 32 0#32),
    unary main_c_114 main_v322 (broadcastInDim S1048576 ![] bcast_S_S1048576 : (⟨S_, .i32⟩ : BufTy).Contents (Elt F) → (⟨S1048576, .i32⟩ : BufTy).Contents (Elt F)),
    binary main_v26 main_v322 main_v323 (cmpi .sge : (⟨S1048576, .i32⟩ : BufTy).Contents (Elt F) → (⟨S1048576, .i32⟩ : BufTy).Contents (Elt F) → (⟨S1048576, .i1⟩ : BufTy).Contents (Elt F)),
    nullary main_c_115 (constantI S_ 32 33#32),
    unary main_c_115 main_v324 (broadcastInDim S1048576 ![] bcast_S_S1048576 : (⟨S_, .i32⟩ : BufTy).Contents (Elt F) → (⟨S1048576, .i32⟩ : BufTy).Contents (Elt F)),
    binary main_v26 main_v324 main_v325 (cmpi .slt : (⟨S1048576, .i32⟩ : BufTy).Contents (Elt F) → (⟨S1048576, .i32⟩ : BufTy).Contents (Elt F) → (⟨S1048576, .i1⟩ : BufTy).Contents (Elt F)),
    binary main_v323 main_v325 main_v326 (andi : (⟨S1048576, .i1⟩ : BufTy).Contents (Elt F) → (⟨S1048576, .i1⟩ : BufTy).Contents (Elt F) → (⟨S1048576, .i1⟩ : BufTy).Contents (Elt F)),
    nullary main_c_116 (constantI S_ 32 0#32),
    unary main_c_116 main_v327 (broadcastInDim S1048576 ![] bcast_S_S1048576 : (⟨S_, .i32⟩ : BufTy).Contents (Elt F) → (⟨S1048576, .i32⟩ : BufTy).Contents (Elt F)),
    binary main_v24 main_v327 main_v328 (cmpi .sge : (⟨S1048576, .i32⟩ : BufTy).Contents (Elt F) → (⟨S1048576, .i32⟩ : BufTy).Contents (Elt F) → (⟨S1048576, .i1⟩ : BufTy).Contents (Elt F)),
    binary main_v326 main_v328 main_v329 (andi : (⟨S1048576, .i1⟩ : BufTy).Contents (Elt F) → (⟨S1048576, .i1⟩ : BufTy).Contents (Elt F) → (⟨S1048576, .i1⟩ : BufTy).Contents (Elt F)),
    nullary main_c_117 (constantI S_ 32 33#32),
    unary main_c_117 main_v330 (broadcastInDim S1048576 ![] bcast_S_S1048576 : (⟨S_, .i32⟩ : BufTy).Contents (Elt F) → (⟨S1048576, .i32⟩ : BufTy).Contents (Elt F)),
    binary main_v24 main_v330 main_v331 (cmpi .slt : (⟨S1048576, .i32⟩ : BufTy).Contents (Elt F) → (⟨S1048576, .i32⟩ : BufTy).Contents (Elt F) → (⟨S1048576, .i1⟩ : BufTy).Contents (Elt F)),
    binary main_v329 main_v331 main_v332 (andi : (⟨S1048576, .i1⟩ : BufTy).Contents (Elt F) → (⟨S1048576, .i1⟩ : BufTy).Contents (Elt F) → (⟨S1048576, .i1⟩ : BufTy).Contents (Elt F)),
    nullary main_c_118 (constantI S_ 32 0#32),
    unary main_c_118 main_v333 (broadcastInDim S1048576 ![] bcast_S_S1048576 : (⟨S_, .i32⟩ : BufTy).Contents (Elt F) → (⟨S1048576, .i32⟩ : BufTy).Contents (Elt F)),
    binary main_v18 main_v333 main_v334 (cmpi .sge : (⟨S1048576, .i32⟩ : BufTy).Contents (Elt F) → (⟨S1048576, .i32⟩ : BufTy).Contents (Elt F) → (⟨S1048576, .i1⟩ : BufTy).Contents (Elt F)),
    binary main_v332 main_v334 main_v335 (andi : (⟨S1048576, .i1⟩ : BufTy).Contents (Elt F) → (⟨S1048576, .i1⟩ : BufTy).Contents (Elt F) → (⟨S1048576, .i1⟩ : BufTy).Contents (Elt F)),
    nullary main_c_119 (constantI S_ 32 33#32),
    unary main_c_119 main_v336 (broadcastInDim S1048576 ![] bcast_S_S1048576 : (⟨S_, .i32⟩ : BufTy).Contents (Elt F) → (⟨S1048576, .i32⟩ : BufTy).Contents (Elt F)),
    binary main_v18 main_v336 main_v337 (cmpi .slt : (⟨S1048576, .i32⟩ : BufTy).Contents (Elt F) → (⟨S1048576, .i32⟩ : BufTy).Contents (Elt F) → (⟨S1048576, .i1⟩ : BufTy).Contents (Elt F)),
    binary main_v335 main_v337 main_v338 (andi : (⟨S1048576, .i1⟩ : BufTy).Contents (Elt F) → (⟨S1048576, .i1⟩ : BufTy).Contents (Elt F) → (⟨S1048576, .i1⟩ : BufTy).Contents (Elt F)),
    nullary main_c_120 (constantI S_ 32 0#32),
    nullary main_c_121 (constantI S_ 32 32#32),
    TRef.unary (TRef.of (T := ⟨S_, .i32⟩) main_c_120) (TRef.of (T := ⟨S_, .i32⟩) main_call18_v0) id,
    TRef.unary (TRef.of (T := ⟨S_, .i32⟩) main_call18_v0) (TRef.of (T := ⟨S1048576, .i32⟩) main_call18_v1) (broadcastInDim S1048576 ![] bcast_S_S1048576),
    TRef.binary (TRef.of (T := ⟨S1048576, .i32⟩) main_call18_v1) (TRef.of (T := ⟨S1048576, .i32⟩) main_v26) (TRef.of (T := ⟨S1048576, .i32⟩) main_call18_v2) maxsi,
    TRef.unary (TRef.of (T := ⟨S_, .i32⟩) main_c_121) (TRef.of (T := ⟨S_, .i32⟩) main_call18_v3) id,
    TRef.unary (TRef.of (T := ⟨S_, .i32⟩) main_call18_v3) (TRef.of (T := ⟨S1048576, .i32⟩) main_call18_v4) (broadcastInDim S1048576 ![] bcast_S_S1048576),
    TRef.binary (TRef.of (T := ⟨S1048576, .i32⟩) main_call18_v4) (TRef.of (T := ⟨S1048576, .i32⟩) main_call18_v2) (TRef.of (T := ⟨S1048576, .i32⟩) main_v339) minsi,
    nullary main_c_122 (constantI S_ 32 0#32),
    nullary main_c_123 (constantI S_ 32 32#32),
    TRef.unary (TRef.of (T := ⟨S_, .i32⟩) main_c_122) (TRef.of (T := ⟨S_, .i32⟩) main_call19_v0) id,
    TRef.unary (TRef.of (T := ⟨S_, .i32⟩) main_call19_v0) (TRef.of (T := ⟨S1048576, .i32⟩) main_call19_v1) (broadcastInDim S1048576 ![] bcast_S_S1048576),
    TRef.binary (TRef.of (T := ⟨S1048576, .i32⟩) main_call19_v1) (TRef.of (T := ⟨S1048576, .i32⟩) main_v24) (TRef.of (T := ⟨S1048576, .i32⟩) main_call19_v2) maxsi,
    TRef.unary (TRef.of (T := ⟨S_, .i32⟩) main_c_123) (TRef.of (T := ⟨S_, .i32⟩) main_call19_v3) id,
    TRef.unary (TRef.of (T := ⟨S_, .i32⟩) main_call19_v3) (TRef.of (T := ⟨S1048576, .i32⟩) main_call19_v4) (broadcastInDim S1048576 ![] bcast_S_S1048576),
    TRef.binary (TRef.of (T := ⟨S1048576, .i32⟩) main_call19_v4) (TRef.of (T := ⟨S1048576, .i32⟩) main_call19_v2) (TRef.of (T := ⟨S1048576, .i32⟩) main_v340) minsi,
    nullary main_c_124 (constantI S_ 32 0#32),
    nullary main_c_125 (constantI S_ 32 32#32),
    TRef.unary (TRef.of (T := ⟨S_, .i32⟩) main_c_124) (TRef.of (T := ⟨S_, .i32⟩) main_call20_v0) id,
    TRef.unary (TRef.of (T := ⟨S_, .i32⟩) main_call20_v0) (TRef.of (T := ⟨S1048576, .i32⟩) main_call20_v1) (broadcastInDim S1048576 ![] bcast_S_S1048576),
    TRef.binary (TRef.of (T := ⟨S1048576, .i32⟩) main_call20_v1) (TRef.of (T := ⟨S1048576, .i32⟩) main_v18) (TRef.of (T := ⟨S1048576, .i32⟩) main_call20_v2) maxsi,
    TRef.unary (TRef.of (T := ⟨S_, .i32⟩) main_c_125) (TRef.of (T := ⟨S_, .i32⟩) main_call20_v3) id,
    TRef.unary (TRef.of (T := ⟨S_, .i32⟩) main_call20_v3) (TRef.of (T := ⟨S1048576, .i32⟩) main_call20_v4) (broadcastInDim S1048576 ![] bcast_S_S1048576),
    TRef.binary (TRef.of (T := ⟨S1048576, .i32⟩) main_call20_v4) (TRef.of (T := ⟨S1048576, .i32⟩) main_call20_v2) (TRef.of (T := ⟨S1048576, .i32⟩) main_v341) minsi,
    nullary main_c_126 (constantI S_ 32 0#32),
    unary main_c_126 main_v342 (broadcastInDim S1048576 ![] bcast_S_S1048576 : (⟨S_, .i32⟩ : BufTy).Contents (Elt F) → (⟨S1048576, .i32⟩ : BufTy).Contents (Elt F)),
    binary main_v339 main_v342 main_v343 (cmpi .slt : (⟨S1048576, .i32⟩ : BufTy).Contents (Elt F) → (⟨S1048576, .i32⟩ : BufTy).Contents (Elt F) → (⟨S1048576, .i1⟩ : BufTy).Contents (Elt F)),
    nullary main_c_127 (constantI S_ 32 33#32),
    unary main_c_127 main_v344 (broadcastInDim S1048576 ![] bcast_S_S1048576 : (⟨S_, .i32⟩ : BufTy).Contents (Elt F) → (⟨S1048576, .i32⟩ : BufTy).Contents (Elt F)),
    binary main_v339 main_v344 main_v345 (addi : (⟨S1048576, .i32⟩ : BufTy).Contents (Elt F) → (⟨S1048576, .i32⟩ : BufTy).Contents (Elt F) → (⟨S1048576, .i32⟩ : BufTy).Contents (Elt F)),
    ternary main_v343 main_v345 main_v339 main_v346 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_128 (constantI S_ 32 0#32),
    unary main_c_128 main_v347 (broadcastInDim S1048576 ![] bcast_S_S1048576 : (⟨S_, .i32⟩ : BufTy).Contents (Elt F) → (⟨S1048576, .i32⟩ : BufTy).Contents (Elt F)),
    binary main_v340 main_v347 main_v348 (cmpi .slt : (⟨S1048576, .i32⟩ : BufTy).Contents (Elt F) → (⟨S1048576, .i32⟩ : BufTy).Contents (Elt F) → (⟨S1048576, .i1⟩ : BufTy).Contents (Elt F)) ]
/-- Each touches TensorCore references only. -/
theorem ops7_sub : (ops7 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
/-- None allocates a buffer. -/
theorem ops7_fresh : (ops7 : List (HloOp τ sig (Elt F))).Forall fun op => op.fresh = ∅ := by
  simp only [List.Forall]; repeat' constructor
/-- Window 7 of @main is the straight line of these operations: both sides unfold to the same sequence of steps. -/
theorem main_part7_eq (c : Dev nD) : main_part7 (F := F) c = seq ops7 := by
  chain_rfl

/-- The operations of statements 481 … of @main (its window 8), a called function's operations in place of the call. -/
abbrev ops8 : List (HloOp τ sig (Elt F)) :=
  [ nullary main_c_129 (constantI S_ 32 33#32),
    unary main_c_129 main_v349 (broadcastInDim S1048576 ![] bcast_S_S1048576 : (⟨S_, .i32⟩ : BufTy).Contents (Elt F) → (⟨S1048576, .i32⟩ : BufTy).Contents (Elt F)),
    binary main_v340 main_v349 main_v350 (addi : (⟨S1048576, .i32⟩ : BufTy).Contents (Elt F) → (⟨S1048576, .i32⟩ : BufTy).Contents (Elt F) → (⟨S1048576, .i32⟩ : BufTy).Contents (Elt F)),
    ternary main_v348 main_v350 main_v340 main_v351 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_130 (constantI S_ 32 0#32),
    unary main_c_130 main_v352 (broadcastInDim S1048576 ![] bcast_S_S1048576 : (⟨S_, .i32⟩ : BufTy).Contents (Elt F) → (⟨S1048576, .i32⟩ : BufTy).Contents (Elt F)),
    binary main_v341 main_v352 main_v353 (cmpi .slt : (⟨S1048576, .i32⟩ : BufTy).Contents (Elt F) → (⟨S1048576, .i32⟩ : BufTy).Contents (Elt F) → (⟨S1048576, .i1⟩ : BufTy).Contents (Elt F)),
    nullary main_c_131 (constantI S_ 32 33#32),
    unary main_c_131 main_v354 (broadcastInDim S1048576 ![] bcast_S_S1048576 : (⟨S_, .i32⟩ : BufTy).Contents (Elt F) → (⟨S1048576, .i32⟩ : BufTy).Contents (Elt F)),
    binary main_v341 main_v354 main_v355 (addi : (⟨S1048576, .i32⟩ : BufTy).Contents (Elt F) → (⟨S1048576, .i32⟩ : BufTy).Contents (Elt F) → (⟨S1048576, .i32⟩ : BufTy).Contents (Elt F)),
    ternary main_v353 main_v355 main_v341 main_v356 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v346 main_v357 (broadcastInDim S1048576x1 ![0] bcast_S1048576_S1048576x1_0 : (⟨S1048576, .i32⟩ : BufTy).Contents (Elt F) → (⟨S1048576x1, .i32⟩ : BufTy).Contents (Elt F)),
    unary main_v351 main_v358 (broadcastInDim S1048576x1 ![0] bcast_S1048576_S1048576x1_0 : (⟨S1048576, .i32⟩ : BufTy).Contents (Elt F) → (⟨S1048576x1, .i32⟩ : BufTy).Contents (Elt F)),
    unary main_v356 main_v359 (broadcastInDim S1048576x1 ![0] bcast_S1048576_S1048576x1_0 : (⟨S1048576, .i32⟩ : BufTy).Contents (Elt F) → (⟨S1048576x1, .i32⟩ : BufTy).Contents (Elt F)),
    nary ![main_v357, main_v358, main_v359] main_v360 (fun u => concatenate S1048576x3 1 [⟨S1048576x1, u 0⟩, ⟨S1048576x1, u 1⟩, ⟨S1048576x1, u 2⟩] concatenates_S1048576x1_S1048576x1_S1048576x1_S1048576x3_d1),
    binary main_v1 main_v360 main_v361 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v338 main_v362 (uitofp .f32 : (⟨S1048576, .i1⟩ : BufTy).Contents (Elt F) → (⟨S1048576, .f32⟩ : BufTy).Contents (Elt F)),
    binary main_v321 main_v362 main_v363 (mulf : (⟨S1048576, .f32⟩ : BufTy).Contents (Elt F) → (⟨S1048576, .f32⟩ : BufTy).Contents (Elt F) → (⟨S1048576, .f32⟩ : BufTy).Contents (Elt F)),
    unary main_v363 main_v364 (broadcastInDim S1048576x1 ![0] bcast_S1048576_S1048576x1_0 : (⟨S1048576, .f32⟩ : BufTy).Contents (Elt F) → (⟨S1048576x1, .f32⟩ : BufTy).Contents (Elt F)),
    unary main_v364 main_v365 (broadcastInDim S1048576x32 ![0, 1] bcast_S1048576x1_S1048576x32_0_1 : (⟨S1048576x1, .f32⟩ : BufTy).Contents (Elt F) → (⟨S1048576x32, .f32⟩ : BufTy).Contents (Elt F)),
    binary main_v361 main_v365 main_v366 (mulf : (⟨S1048576x32, .f32⟩ : BufTy).Contents (Elt F) → (⟨S1048576x32, .f32⟩ : BufTy).Contents (Elt F) → (⟨S1048576x32, .f32⟩ : BufTy).Contents (Elt F)),
    binary main_v319 main_v366 main_v367 (addf : (⟨S1048576x32, .f32⟩ : BufTy).Contents (Elt F) → (⟨S1048576x32, .f32⟩ : BufTy).Contents (Elt F) → (⟨S1048576x32, .f32⟩ : BufTy).Contents (Elt F)),
    binary main_v17 main_v16 main_v368 (mulf : (⟨S1048576, .f32⟩ : BufTy).Contents (Elt F) → (⟨S1048576, .f32⟩ : BufTy).Contents (Elt F) → (⟨S1048576, .f32⟩ : BufTy).Contents (Elt F)),
    binary main_v368 main_v15 main_v369 (mulf : (⟨S1048576, .f32⟩ : BufTy).Contents (Elt F) → (⟨S1048576, .f32⟩ : BufTy).Contents (Elt F) → (⟨S1048576, .f32⟩ : BufTy).Contents (Elt F)),
    nullary main_c_132 (constantI S_ 32 0#32),
    unary main_c_132 main_v370 (broadcastInDim S1048576 ![] bcast_S_S1048576 : (⟨S_, .i32⟩ : BufTy).Contents (Elt F) → (⟨S1048576, .i32⟩ : BufTy).Contents (Elt F)),
    binary main_v26 main_v370 main_v371 (cmpi .sge : (⟨S1048576, .i32⟩ : BufTy).Contents (Elt F) → (⟨S1048576, .i32⟩ : BufTy).Contents (Elt F) → (⟨S1048576, .i1⟩ : BufTy).Contents (Elt F)),
    nullary main_c_133 (constantI S_ 32 33#32),
    unary main_c_133 main_v372 (broadcastInDim S1048576 ![] bcast_S_S1048576 : (⟨S_, .i32⟩ : BufTy).Contents (Elt F) → (⟨S1048576, .i32⟩ : BufTy).Contents (Elt F)),
    binary main_v26 main_v372 main_v373 (cmpi .slt : (⟨S1048576, .i32⟩ : BufTy).Contents (Elt F) → (⟨S1048576, .i32⟩ : BufTy).Contents (Elt F) → (⟨S1048576, .i1⟩ : BufTy).Contents (Elt F)),
    binary main_v371 main_v373 main_v374 (andi : (⟨S1048576, .i1⟩ : BufTy).Contents (Elt F) → (⟨S1048576, .i1⟩ : BufTy).Contents (Elt F) → (⟨S1048576, .i1⟩ : BufTy).Contents (Elt F)),
    nullary main_c_134 (constantI S_ 32 0#32),
    unary main_c_134 main_v375 (broadcastInDim S1048576 ![] bcast_S_S1048576 : (⟨S_, .i32⟩ : BufTy).Contents (Elt F) → (⟨S1048576, .i32⟩ : BufTy).Contents (Elt F)),
    binary main_v24 main_v375 main_v376 (cmpi .sge : (⟨S1048576, .i32⟩ : BufTy).Contents (Elt F) → (⟨S1048576, .i32⟩ : BufTy).Contents (Elt F) → (⟨S1048576, .i1⟩ : BufTy).Contents (Elt F)),
    binary main_v374 main_v376 main_v377 (andi : (⟨S1048576, .i1⟩ : BufTy).Contents (Elt F) → (⟨S1048576, .i1⟩ : BufTy).Contents (Elt F) → (⟨S1048576, .i1⟩ : BufTy).Contents (Elt F)),
    nullary main_c_135 (constantI S_ 32 33#32),
    unary main_c_135 main_v378 (broadcastInDim S1048576 ![] bcast_S_S1048576 : (⟨S_, .i32⟩ : BufTy).Contents (Elt F) → (⟨S1048576, .i32⟩ : BufTy).Contents (Elt F)),
    binary main_v24 main_v378 main_v379 (cmpi .slt : (⟨S1048576, .i32⟩ : BufTy).Contents (Elt F) → (⟨S1048576, .i32⟩ : BufTy).Contents (Elt F) → (⟨S1048576, .i1⟩ : BufTy).Contents (Elt F)),
    binary main_v377 main_v379 main_v380 (andi : (⟨S1048576, .i1⟩ : BufTy).Contents (Elt F) → (⟨S1048576, .i1⟩ : BufTy).Contents (Elt F) → (⟨S1048576, .i1⟩ : BufTy).Contents (Elt F)),
    nullary main_c_136 (constantI S_ 32 0#32),
    unary main_c_136 main_v381 (broadcastInDim S1048576 ![] bcast_S_S1048576 : (⟨S_, .i32⟩ : BufTy).Contents (Elt F) → (⟨S1048576, .i32⟩ : BufTy).Contents (Elt F)),
    binary main_v22 main_v381 main_v382 (cmpi .sge : (⟨S1048576, .i32⟩ : BufTy).Contents (Elt F) → (⟨S1048576, .i32⟩ : BufTy).Contents (Elt F) → (⟨S1048576, .i1⟩ : BufTy).Contents (Elt F)),
    binary main_v380 main_v382 main_v383 (andi : (⟨S1048576, .i1⟩ : BufTy).Contents (Elt F) → (⟨S1048576, .i1⟩ : BufTy).Contents (Elt F) → (⟨S1048576, .i1⟩ : BufTy).Contents (Elt F)),
    nullary main_c_137 (constantI S_ 32 33#32),
    unary main_c_137 main_v384 (broadcastInDim S1048576 ![] bcast_S_S1048576 : (⟨S_, .i32⟩ : BufTy).Contents (Elt F) → (⟨S1048576, .i32⟩ : BufTy).Contents (Elt F)),
    binary main_v22 main_v384 main_v385 (cmpi .slt : (⟨S1048576, .i32⟩ : BufTy).Contents (Elt F) → (⟨S1048576, .i32⟩ : BufTy).Contents (Elt F) → (⟨S1048576, .i1⟩ : BufTy).Contents (Elt F)),
    binary main_v383 main_v385 main_v386 (andi : (⟨S1048576, .i1⟩ : BufTy).Contents (Elt F) → (⟨S1048576, .i1⟩ : BufTy).Contents (Elt F) → (⟨S1048576, .i1⟩ : BufTy).Contents (Elt F)),
    nullary main_c_138 (constantI S_ 32 0#32),
    nullary main_c_139 (constantI S_ 32 32#32),
    TRef.unary (TRef.of (T := ⟨S_, .i32⟩) main_c_138) (TRef.of (T := ⟨S_, .i32⟩) main_call21_v0) id,
    TRef.unary (TRef.of (T := ⟨S_, .i32⟩) main_call21_v0) (TRef.of (T := ⟨S1048576, .i32⟩) main_call21_v1) (broadcastInDim S1048576 ![] bcast_S_S1048576),
    TRef.binary (TRef.of (T := ⟨S1048576, .i32⟩) main_call21_v1) (TRef.of (T := ⟨S1048576, .i32⟩) main_v26) (TRef.of (T := ⟨S1048576, .i32⟩) main_call21_v2) maxsi,
    TRef.unary (TRef.of (T := ⟨S_, .i32⟩) main_c_139) (TRef.of (T := ⟨S_, .i32⟩) main_call21_v3) id,
    TRef.unary (TRef.of (T := ⟨S_, .i32⟩) main_call21_v3) (TRef.of (T := ⟨S1048576, .i32⟩) main_call21_v4) (broadcastInDim S1048576 ![] bcast_S_S1048576),
    TRef.binary (TRef.of (T := ⟨S1048576, .i32⟩) main_call21_v4) (TRef.of (T := ⟨S1048576, .i32⟩) main_call21_v2) (TRef.of (T := ⟨S1048576, .i32⟩) main_v387) minsi,
    nullary main_c_140 (constantI S_ 32 0#32),
    nullary main_c_141 (constantI S_ 32 32#32),
    TRef.unary (TRef.of (T := ⟨S_, .i32⟩) main_c_140) (TRef.of (T := ⟨S_, .i32⟩) main_call22_v0) id,
    TRef.unary (TRef.of (T := ⟨S_, .i32⟩) main_call22_v0) (TRef.of (T := ⟨S1048576, .i32⟩) main_call22_v1) (broadcastInDim S1048576 ![] bcast_S_S1048576),
    TRef.binary (TRef.of (T := ⟨S1048576, .i32⟩) main_call22_v1) (TRef.of (T := ⟨S1048576, .i32⟩) main_v24) (TRef.of (T := ⟨S1048576, .i32⟩) main_call22_v2) maxsi,
    TRef.unary (TRef.of (T := ⟨S_, .i32⟩) main_c_141) (TRef.of (T := ⟨S_, .i32⟩) main_call22_v3) id,
    TRef.unary (TRef.of (T := ⟨S_, .i32⟩) main_call22_v3) (TRef.of (T := ⟨S1048576, .i32⟩) main_call22_v4) (broadcastInDim S1048576 ![] bcast_S_S1048576),
    TRef.binary (TRef.of (T := ⟨S1048576, .i32⟩) main_call22_v4) (TRef.of (T := ⟨S1048576, .i32⟩) main_call22_v2) (TRef.of (T := ⟨S1048576, .i32⟩) main_v388) minsi,
    nullary main_c_142 (constantI S_ 32 0#32),
    nullary main_c_143 (constantI S_ 32 32#32),
    TRef.unary (TRef.of (T := ⟨S_, .i32⟩) main_c_142) (TRef.of (T := ⟨S_, .i32⟩) main_call23_v0) id,
    TRef.unary (TRef.of (T := ⟨S_, .i32⟩) main_call23_v0) (TRef.of (T := ⟨S1048576, .i32⟩) main_call23_v1) (broadcastInDim S1048576 ![] bcast_S_S1048576),
    TRef.binary (TRef.of (T := ⟨S1048576, .i32⟩) main_call23_v1) (TRef.of (T := ⟨S1048576, .i32⟩) main_v22) (TRef.of (T := ⟨S1048576, .i32⟩) main_call23_v2) maxsi,
    TRef.unary (TRef.of (T := ⟨S_, .i32⟩) main_c_143) (TRef.of (T := ⟨S_, .i32⟩) main_call23_v3) id,
    TRef.unary (TRef.of (T := ⟨S_, .i32⟩) main_call23_v3) (TRef.of (T := ⟨S1048576, .i32⟩) main_call23_v4) (broadcastInDim S1048576 ![] bcast_S_S1048576),
    TRef.binary (TRef.of (T := ⟨S1048576, .i32⟩) main_call23_v4) (TRef.of (T := ⟨S1048576, .i32⟩) main_call23_v2) (TRef.of (T := ⟨S1048576, .i32⟩) main_v389) minsi,
    nullary main_c_144 (constantI S_ 32 0#32),
    unary main_c_144 main_v390 (broadcastInDim S1048576 ![] bcast_S_S1048576 : (⟨S_, .i32⟩ : BufTy).Contents (Elt F) → (⟨S1048576, .i32⟩ : BufTy).Contents (Elt F)),
    binary main_v387 main_v390 main_v391 (cmpi .slt : (⟨S1048576, .i32⟩ : BufTy).Contents (Elt F) → (⟨S1048576, .i32⟩ : BufTy).Contents (Elt F) → (⟨S1048576, .i1⟩ : BufTy).Contents (Elt F)),
    nullary main_c_145 (constantI S_ 32 33#32) ]
/-- Each touches TensorCore references only. -/
theorem ops8_sub : (ops8 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub ..⟩
/-- None allocates a buffer. -/
theorem ops8_fresh : (ops8 : List (HloOp τ sig (Elt F))).Forall fun op => op.fresh = ∅ := by
  simp only [List.Forall]; repeat' constructor
/-- Window 8 of @main is the straight line of these operations: both sides unfold to the same sequence of steps. -/
theorem main_part8_eq (c : Dev nD) : main_part8 (F := F) c = seq ops8 := by
  chain_rfl

/-- The operations of statements 541 … of @main (its window 9), a called function's operations in place of the call. -/
abbrev ops9 : List (HloOp τ sig (Elt F)) :=
  [ unary main_c_145 main_v392 (broadcastInDim S1048576 ![] bcast_S_S1048576 : (⟨S_, .i32⟩ : BufTy).Contents (Elt F) → (⟨S1048576, .i32⟩ : BufTy).Contents (Elt F)),
    binary main_v387 main_v392 main_v393 (addi : (⟨S1048576, .i32⟩ : BufTy).Contents (Elt F) → (⟨S1048576, .i32⟩ : BufTy).Contents (Elt F) → (⟨S1048576, .i32⟩ : BufTy).Contents (Elt F)),
    ternary main_v391 main_v393 main_v387 main_v394 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_146 (constantI S_ 32 0#32),
    unary main_c_146 main_v395 (broadcastInDim S1048576 ![] bcast_S_S1048576 : (⟨S_, .i32⟩ : BufTy).Contents (Elt F) → (⟨S1048576, .i32⟩ : BufTy).Contents (Elt F)),
    binary main_v388 main_v395 main_v396 (cmpi .slt : (⟨S1048576, .i32⟩ : BufTy).Contents (Elt F) → (⟨S1048576, .i32⟩ : BufTy).Contents (Elt F) → (⟨S1048576, .i1⟩ : BufTy).Contents (Elt F)),
    nullary main_c_147 (constantI S_ 32 33#32),
    unary main_c_147 main_v397 (broadcastInDim S1048576 ![] bcast_S_S1048576 : (⟨S_, .i32⟩ : BufTy).Contents (Elt F) → (⟨S1048576, .i32⟩ : BufTy).Contents (Elt F)),
    binary main_v388 main_v397 main_v398 (addi : (⟨S1048576, .i32⟩ : BufTy).Contents (Elt F) → (⟨S1048576, .i32⟩ : BufTy).Contents (Elt F) → (⟨S1048576, .i32⟩ : BufTy).Contents (Elt F)),
    ternary main_v396 main_v398 main_v388 main_v399 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_148 (constantI S_ 32 0#32),
    unary main_c_148 main_v400 (broadcastInDim S1048576 ![] bcast_S_S1048576 : (⟨S_, .i32⟩ : BufTy).Contents (Elt F) → (⟨S1048576, .i32⟩ : BufTy).Contents (Elt F)),
    binary main_v389 main_v400 main_v401 (cmpi .slt : (⟨S1048576, .i32⟩ : BufTy).Contents (Elt F) → (⟨S1048576, .i32⟩ : BufTy).Contents (Elt F) → (⟨S1048576, .i1⟩ : BufTy).Contents (Elt F)),
    nullary main_c_149 (constantI S_ 32 33#32),
    unary main_c_149 main_v402 (broadcastInDim S1048576 ![] bcast_S_S1048576 : (⟨S_, .i32⟩ : BufTy).Contents (Elt F) → (⟨S1048576, .i32⟩ : BufTy).Contents (Elt F)),
    binary main_v389 main_v402 main_v403 (addi : (⟨S1048576, .i32⟩ : BufTy).Contents (Elt F) → (⟨S1048576, .i32⟩ : BufTy).Contents (Elt F) → (⟨S1048576, .i32⟩ : BufTy).Contents (Elt F)),
    ternary main_v401 main_v403 main_v389 main_v404 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v394 main_v405 (broadcastInDim S1048576x1 ![0] bcast_S1048576_S1048576x1_0 : (⟨S1048576, .i32⟩ : BufTy).Contents (Elt F) → (⟨S1048576x1, .i32⟩ : BufTy).Contents (Elt F)),
    unary main_v399 main_v406 (broadcastInDim S1048576x1 ![0] bcast_S1048576_S1048576x1_0 : (⟨S1048576, .i32⟩ : BufTy).Contents (Elt F) → (⟨S1048576x1, .i32⟩ : BufTy).Contents (Elt F)),
    unary main_v404 main_v407 (broadcastInDim S1048576x1 ![0] bcast_S1048576_S1048576x1_0 : (⟨S1048576, .i32⟩ : BufTy).Contents (Elt F) → (⟨S1048576x1, .i32⟩ : BufTy).Contents (Elt F)),
    nary ![main_v405, main_v406, main_v407] main_v408 (fun u => concatenate S1048576x3 1 [⟨S1048576x1, u 0⟩, ⟨S1048576x1, u 1⟩, ⟨S1048576x1, u 2⟩] concatenates_S1048576x1_S1048576x1_S1048576x1_S1048576x3_d1),
    binary main_v1 main_v408 main_v409 ((fun x i => Host.gather gather_S33x33x33x32_S1048576x3_S1048576x32_1_012_n_n_012_1_11132 x i) : (⟨S33x33x33x32, .f32⟩ : BufTy).Contents (Elt F) → (⟨S1048576x3, .i32⟩ : BufTy).Contents (Elt F) → (⟨S1048576x32, .f32⟩ : BufTy).Contents (Elt F)),
    unary main_v386 main_v410 (uitofp .f32 : (⟨S1048576, .i1⟩ : BufTy).Contents (Elt F) → (⟨S1048576, .f32⟩ : BufTy).Contents (Elt F)),
    binary main_v369 main_v410 main_v411 (mulf : (⟨S1048576, .f32⟩ : BufTy).Contents (Elt F) → (⟨S1048576, .f32⟩ : BufTy).Contents (Elt F) → (⟨S1048576, .f32⟩ : BufTy).Contents (Elt F)),
    unary main_v411 main_v412 (broadcastInDim S1048576x1 ![0] bcast_S1048576_S1048576x1_0 : (⟨S1048576, .f32⟩ : BufTy).Contents (Elt F) → (⟨S1048576x1, .f32⟩ : BufTy).Contents (Elt F)),
    unary main_v412 main_v413 (broadcastInDim S1048576x32 ![0, 1] bcast_S1048576x1_S1048576x32_0_1 : (⟨S1048576x1, .f32⟩ : BufTy).Contents (Elt F) → (⟨S1048576x32, .f32⟩ : BufTy).Contents (Elt F)),
    binary main_v409 main_v413 main_v414 (mulf : (⟨S1048576x32, .f32⟩ : BufTy).Contents (Elt F) → (⟨S1048576x32, .f32⟩ : BufTy).Contents (Elt F) → (⟨S1048576x32, .f32⟩ : BufTy).Contents (Elt F)),
    binary main_v367 main_v414 main_v415 (addf : (⟨S1048576x32, .f32⟩ : BufTy).Contents (Elt F) → (⟨S1048576x32, .f32⟩ : BufTy).Contents (Elt F) → (⟨S1048576x32, .f32⟩ : BufTy).Contents (Elt F)),
    binary main_v415 main_arg2 main_v416 ((fun l r => Host.dotGeneral dot_S1048576x32_S32x128_S1048576x128_1_0_0_1_n_n none l r) : (⟨S1048576x32, .f32⟩ : BufTy).Contents (Elt F) → (⟨S32x128, .f32⟩ : BufTy).Contents (Elt F) → (⟨S1048576x128, .f32⟩ : BufTy).Contents (Elt F)),
    unary main_arg3 main_v417 (broadcastInDim S1x128 ![1] bcast_S128_S1x128_1 : (⟨S128, .f32⟩ : BufTy).Contents (Elt F) → (⟨S1x128, .f32⟩ : BufTy).Contents (Elt F)),
    unary main_v417 main_v418 (broadcastInDim S1048576x128 ![0, 1] bcast_S1x128_S1048576x128_0_1 : (⟨S1x128, .f32⟩ : BufTy).Contents (Elt F) → (⟨S1048576x128, .f32⟩ : BufTy).Contents (Elt F)),
    binary main_v416 main_v418 main_v419 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S1048576x128, .f32⟩) main_call24_v0) (broadcastInDim S1048576x128 ![] bcast_S_S1048576x128),
    TRef.binary (TRef.of (T := ⟨S1048576x128, .f32⟩) main_v419) (TRef.of (T := ⟨S1048576x128, .f32⟩) main_call24_v0) (TRef.of (T := ⟨S1048576x128, .f32⟩) main_v420) maximumf,
    binary main_v420 main_arg4 main_v421 ((fun l r => Host.dotGeneral dot_S1048576x128_S128x128_S1048576x128_1_0_0_1_n_n none l r) : (⟨S1048576x128, .f32⟩ : BufTy).Contents (Elt F) → (⟨S128x128, .f32⟩ : BufTy).Contents (Elt F) → (⟨S1048576x128, .f32⟩ : BufTy).Contents (Elt F)),
    unary main_arg5 main_v422 (broadcastInDim S1x128 ![1] bcast_S128_S1x128_1 : (⟨S128, .f32⟩ : BufTy).Contents (Elt F) → (⟨S1x128, .f32⟩ : BufTy).Contents (Elt F)),
    unary main_v422 main_v423 (broadcastInDim S1048576x128 ![0, 1] bcast_S1x128_S1048576x128_0_1 : (⟨S1x128, .f32⟩ : BufTy).Contents (Elt F) → (⟨S1048576x128, .f32⟩ : BufTy).Contents (Elt F)),
    binary main_v421 main_v423 main_v424 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S1048576x128, .f32⟩) main_call25_v0) (broadcastInDim S1048576x128 ![] bcast_S_S1048576x128),
    TRef.binary (TRef.of (T := ⟨S1048576x128, .f32⟩) main_v424) (TRef.of (T := ⟨S1048576x128, .f32⟩) main_call25_v0) (TRef.of (T := ⟨S1048576x128, .f32⟩) main_v425) maximumf,
    binary main_v425 main_arg6 main_v426 ((fun l r => Host.dotGeneral dot_S1048576x128_S128x1_S1048576x1_1_0_0_1_n_n none l r) : (⟨S1048576x128, .f32⟩ : BufTy).Contents (Elt F) → (⟨S128x1, .f32⟩ : BufTy).Contents (Elt F) → (⟨S1048576x1, .f32⟩ : BufTy).Contents (Elt F)),
    unary main_arg7 main_v427 (broadcastInDim S1x1 ![1] bcast_S1_S1x1_1 : (⟨S1, .f32⟩ : BufTy).Contents (Elt F) → (⟨S1x1, .f32⟩ : BufTy).Contents (Elt F)),
    unary main_v427 main_v428 (broadcastInDim S1048576x1 ![0, 1] bcast_S1x1_S1048576x1_0_1 : (⟨S1x1, .f32⟩ : BufTy).Contents (Elt F) → (⟨S1048576x1, .f32⟩ : BufTy).Contents (Elt F)),
    binary main_v426 main_v428 main_v429 (addf : (⟨S1048576x1, .f32⟩ : BufTy).Contents (Elt F) → (⟨S1048576x1, .f32⟩ : BufTy).Contents (Elt F) → (⟨S1048576x1, .f32⟩ : BufTy).Contents (Elt F)),
    unary main_v429 main_v430 (Host.tanh : (⟨S1048576x1, .f32⟩ : BufTy).Contents (Elt F) → (⟨S1048576x1, .f32⟩ : BufTy).Contents (Elt F)) ]
/-- Each touches TensorCore references only. -/
theorem ops9_sub : (ops9 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩
/-- None allocates a buffer. -/
theorem ops9_fresh : (ops9 : List (HloOp τ sig (Elt F))).Forall fun op => op.fresh = ∅ := by
  simp only [List.Forall]; repeat' constructor
/-- Window 9 of @main is the straight line of these operations: both sides unfold to the same sequence of steps. -/
theorem main_part9_eq (c : Dev nD) : main_part9 (F := F) c = seq ops9 := by
  chain_rfl

end Cert.ReferenceIdeal.RefRun

end
-- ==== Proof.RefRun.lean ====
/-
  The run of the reference program. Its @main is ten windows, each a straight line of host operations, so @main is the
  straight line of all 707; a straight line of operations that allocate nothing, on a program that scopes no buffer and
  no semaphore, terminates from any memory, and each buffer ends at the fold of the operations' results over the launch
  contents. Folding through and reading the result buffer gives the reference's stages composed (the stage functions of
  RefReadP.lean are, by definition, each operation applied to the stages of its operands), and reading an argument's
  buffer gives what was launched, since no operation writes an argument: both are computations.
-/
import proofs.«132478_j19215683682576_2_alg».proof.Proof.RefOpsA
import proofs.«132478_j19215683682576_2_alg».proof.Proof.RefOpsB
import proofs.«132478_j19215683682576_2_alg».proof.Proof.RefOpsC
import proofs.«132478_j19215683682576_2_alg».proof.Proof.RefReadP
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the operations of @main, in order. -/
def ops : List (HloOp τ sig (Elt F)) := ops0 ++ (ops1 ++ (ops2 ++ (ops3 ++ (ops4 ++ (ops5 ++ (ops6 ++ (ops7 ++ (ops8 ++ ops9))))))))

/-- @main is the straight line of its operations: window by window, then concatenation. -/
theorem main_eq (c : Dev nD) : main (F := F) c = seq ops := by
  unfold ops
  simp only [seq_append]
  rw [← main_part0_eq c, ← main_part1_eq c, ← main_part2_eq c, ← main_part3_eq c, ← main_part4_eq c, ← main_part5_eq c,
    ← main_part6_eq c, ← main_part7_eq c, ← main_part8_eq c, ← main_part9_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of the ten windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
    ∨ op ∈ (ops3 : List (HloOp τ sig (Elt F))) ∨ op ∈ (ops4 : List (HloOp τ sig (Elt F))) ∨ op ∈ (ops5 : List (HloOp τ sig (Elt F)))
    ∨ op ∈ (ops6 : List (HloOp τ sig (Elt F))) ∨ op ∈ (ops7 : List (HloOp τ sig (Elt F))) ∨ op ∈ (ops8 : List (HloOp τ sig (Elt F)))
    ∨ op ∈ (ops9 : List (HloOp τ sig (Elt F))) := by
  unfold ops at h
  simpa only [List.mem_append] using h

/-- Each operation touches TensorCore references only. -/
theorem ops_sub : (ops : List (HloOp τ sig (Elt F))).Forall fun op => op.bufs ⊆ tcRefs τ sig :=
  List.forall_iff_forall_mem.mpr fun op h => by
    rcases mem_ops h with h | h | h | h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h
    · exact List.forall_iff_forall_mem.mp ops9_sub op h

/-- No operation allocates a buffer. -/
theorem ops_fresh : ∀ op ∈ (ops : List (HloOp τ sig (Elt F))), op.fresh = ∅ := fun op h => by
  rcases mem_ops h with h | h | h | h | h | h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h
  · exact List.forall_iff_forall_mem.mp ops6_fresh op h
  · exact List.forall_iff_forall_mem.mp ops7_fresh op h
  · exact List.forall_iff_forall_mem.mp ops8_fresh op h
  · exact List.forall_iff_forall_mem.mp ops9_fresh op h

/-- From any memory with zero counters every weakly fair execution of @main terminates with the result at the reference's
    last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v430) = Cert.ReferenceIdeal.Read.val_main_v430 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v430).trans (by chain_rfl),
      (h c main_arg0).trans (by chain_rfl),
      (h c main_arg1).trans (by chain_rfl),
      (h c main_arg2).trans (by chain_rfl),
      (h c main_arg3).trans (by chain_rfl),
      (h c main_arg4).trans (by chain_rfl),
      (h c main_arg5).trans (by chain_rfl),
      (h c main_arg6).trans (by chain_rfl),
      (h c main_arg7).trans (by chain_rfl)⟩)
    (run_seq scopedRefs_eq scopedSems_eq defs main (fun _ => ops) main_eq (fun _ => ops_sub) m ρ (fun _ => ops_fresh))

end Cert.ReferenceIdeal.RefRun

end
-- ==== Proof.lean ====
/-
  The certificate of the point-network kernel against its reference.

  Both programs sample an embedding grid at 1,048,576 points (the same host operations on both sides) and push each
  sampled latent vector through a small network: two dense layers of width 128 with a rectified-linear activation, a
  linear read-out and a hyperbolic tangent. The kernel program runs the network inside one region over blocks of 8192
  points and takes the read-out as a feature sum against a re-laid weight row; the reference takes three matrix
  products over the whole array. On the extended reals both give, at every point, the one formula of PointNet.lean.

  Frames: each kernel program's @main is host lines, one region, one host line; the frame is proved against the
  library's launch theorem for that shape, the body by symbolic execution (FrameK.lean, FrameKI.lean). The reference
  has no region: it is a straight line of host operations (RefRun.lean), and its frame is its run with the result dropped. The idealization rewrote nothing, so `preserves` is
  trivial. The value claim joins the kernel program's run read back (ValueKI.lean) with the reference's stages read at
  an index (RefPoint.lean) through the data the region finds (EntryValuesKI.lean, Bridge.lean).
-/
import proofs.«132478_j19215683682576_2_alg».proof.Defs
import proofs.«132478_j19215683682576_2_alg».proof.Proof.Gen.Kernel
import proofs.«132478_j19215683682576_2_alg».proof.Proof.Gen.KernelIdeal
import proofs.«132478_j19215683682576_2_alg».proof.Proof.Gen.ReferenceIdeal
import proofs.«132478_j19215683682576_2_alg».proof.Proof.Gen.Pre_finite_inputs
import proofs.«132478_j19215683682576_2_alg».proof.Proof.FrameK
import proofs.«132478_j19215683682576_2_alg».proof.Proof.FrameKI
import proofs.«132478_j19215683682576_2_alg».proof.Proof.Bridge
import proofs.«132478_j19215683682576_2_alg».proof.Proof.RefRun
import Idealize.ShloMosaic.Adequacy
import Idealize.ShloMosaic.Init

noncomputable section

namespace Cert.Proof

open Idealize.ShloMosaic Idealize.SL.Sem

/-- The value claim: from memories agreeing on the arguments both idealized programs end with the common column. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Proof.Bridge.result m c, ?_, ?_⟩
  · exact (θ_run Cert.KernelIdeal.defs _ _).mono
      (fun r h c => ⟨Cert.Proof.Bridge.column_eq m c _ (h c).1, (h c).2⟩)
      (Cert.KernelIdeal.Hand.run_value m ρ)
  · refine (θ_run Cert.ReferenceIdeal.defs _ _).mono (fun r h c => ⟨?_, (h c).2⟩)
      (Cert.ReferenceIdeal.RefRun.run (F := Ideal) m' ρ')
    obtain ⟨a0, a1, a2, a3, a4, a5, a6, a7⟩ := hagree c
    rw [(h c).1, a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.RefRun.run (F := Ideal) m ρ),
  trivial,
  algebraic⟩

end Cert.Proof

end
